-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x64 : Shape := ⟨3, ![16, 8192, 64]⟩
abbrev S64x316 : Shape := ⟨2, ![64, 316]⟩
abbrev S64 : Shape := ⟨1, ![64]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel
  bcast_S_S64x316 : S_.BroadcastsInDim S64x316 (![] : Fin 0 → Fin S64x316.rank)
  reducesTo_S64x316_S_d0_1 : S64x316.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x8192x64 .f32) (main_arg1 : FVec F S64x316 .f32) (main_arg2 : FVec F S64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S64x316 .f32 := Host.absf main_arg1
  let main_cst_0 : FVec F S_ .f32 := constant S_ .f32 0x7F800000#32
  let main_v5 : FVec F S64x316 .f32 := broadcastInDim S64x316 ![] bcast_S_S64x316 main_cst_0
  let main_v6 : IVec S64x316 1 := cmpf .olt main_v4 main_v5
  let main_c_1 : IVec S_ 1 := constantI S_ 1 1#1
  let main_v7 : IVec S_ 1 := (fun x v => Host.reduce IntOp.andi x v reducesTo_S64x316_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x8192x64 : Shape := ⟨3, ![16, 8192, 64]⟩
abbrev S64x316 : Shape := ⟨2, ![64, 316]⟩
abbrev S64 : Shape := ⟨1, ![64]⟩
abbrev S64x1 : Shape := ⟨2, ![64, 1]⟩
abbrev S1x64 : Shape := ⟨2, ![1, 64]⟩
abbrev S64x315 : Shape := ⟨2, ![64, 315]⟩
abbrev S64x63x5 : Shape := ⟨3, ![64, 63, 5]⟩
abbrev S5x63x64 : Shape := ⟨3, ![5, 63, 64]⟩
abbrev S1x8192x64 : Shape := ⟨3, ![1, 8192, 64]⟩
abbrev S8192x64 : Shape := ⟨2, ![8192, 64]⟩
abbrev S8192x1 : Shape := ⟨2, ![8192, 1]⟩
abbrev S8192x63 : Shape := ⟨2, ![8192, 63]⟩
abbrev S1x63x64 : Shape := ⟨3, ![1, 63, 64]⟩
abbrev S63x64 : Shape := ⟨2, ![63, 64]⟩
abbrev S8192 : Shape := ⟨1, ![8192]⟩
abbrev S1x8192x1 : Shape := ⟨3, ![1, 8192, 1]⟩
abbrev S1x8192x63 : Shape := ⟨3, ![1, 8192, 63]⟩
abbrev S2x1 : Shape := ⟨2, ![2, 1]⟩
abbrev S2x63 : Shape := ⟨2, ![2, 63]⟩
abbrev S4x1 : Shape := ⟨2, ![4, 1]⟩
abbrev S6x1 : Shape := ⟨2, ![6, 1]⟩
abbrev S4x63 : Shape := ⟨2, ![4, 63]⟩
abbrev S6x63 : Shape := ⟨2, ![6, 63]⟩
abbrev S2x64 : Shape := ⟨2, ![2, 64]⟩
abbrev S2 : Shape := ⟨1, ![2]⟩
abbrev S1x2x1 : Shape := ⟨3, ![1, 2, 1]⟩
abbrev S1x2x63 : Shape := ⟨3, ![1, 2, 63]⟩

abbrev nBuf : Space → Nat
  | .hbm => 11
  | .vmem => 7
  | .smem => 0
  | _ => 0

abbrev bufTy : (tb : Table) → Fin (tcTables nBuf tb) → BufTy
  | .hbm, ⟨0, _⟩ => ⟨S16x8192x64, .f32⟩
  | .hbm, ⟨1, _⟩ => ⟨S64x316, .f32⟩
  | .hbm, ⟨2, _⟩ => ⟨S64, .f32⟩
  | .hbm, ⟨3, _⟩ => ⟨S64x1, .f32⟩
  | .hbm, ⟨4, _⟩ => ⟨S64, .f32⟩
  | .hbm, ⟨5, _⟩ => ⟨S1x64, .f32⟩
  | .hbm, ⟨6, _⟩ => ⟨S64x315, .f32⟩
  | .hbm, ⟨7, _⟩ => ⟨S64x63x5, .f32⟩
  | .hbm, ⟨8, _⟩ => ⟨S5x63x64, .f32⟩
  | .hbm, ⟨9, _⟩ => ⟨S1x64, .f32⟩
  | .hbm, ⟨10, _⟩ => ⟨S16x8192x64, .f32⟩
  | .local _ .vmem, ⟨0, _⟩ => ⟨S1x8192x64, .f32⟩
  | .local _ .vmem, ⟨1, _⟩ => ⟨S1x8192x64, .f32⟩
  | .local _ .vmem, ⟨2, _⟩ => ⟨S1x64, .f32⟩
  | .local _ .vmem, ⟨3, _⟩ => ⟨S5x63x64, .f32⟩
  | .local _ .vmem, ⟨4, _⟩ => ⟨S1x64, .f32⟩
  | .local _ .vmem, ⟨5, _⟩ => ⟨S1x8192x64, .f32⟩
  | .local _ .vmem, ⟨6, _⟩ => ⟨S1x8192x64, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x63x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S64x316_S64x1_0_0 : S64x316.Slices ![0, 0] S64x1
  shapeCasts_S64x1_S64 : S64x1.ShapeCasts S64
  shapeCasts_S64_S1x64 : S64.ShapeCasts S1x64
  slices_S64x316_S64x315_0_1 : S64x316.Slices ![0, 1] S64x315
  shapeCasts_S64x315_S64x63x5 : S64x315.ShapeCasts S64x63x5
  transposes_S64x63x5_S5x63x64_2_1_0 : S64x63x5.Transposes [2, 1, 0] S5x63x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  slices_S8192x64_o0_0_S8192x1 : S8192x64.Slices ![0, 0] S8192x1
  slices_S8192x64_o0_1_S8192x63 : S8192x64.Slices ![0, 1] S8192x63
  rotates_S8192x1_d0 : S8192x1.Rotates 0 none
  rotates_S8192x63_d0 : S8192x63.Rotates 0 none
  inb_S5x63x64_S1x63x64_0_0_0 : ∀ a, (![0, 0, 0] : Fin 3 → Nat) a + S1x63x64.size a ≤ S5x63x64.size a
  h_S1x63x64 : 0 < S1x63x64.numel
  shapeCasts_S1x63x64_S63x64 : S1x63x64.ShapeCasts S63x64
  inb_S5x63x64_S1x63x64_1_0_0 : ∀ a, (![1, 0, 0] : Fin 3 → Nat) a + S1x63x64.size a ≤ S5x63x64.size a
  inb_S5x63x64_S1x63x64_2_0_0 : ∀ a, (![2, 0, 0] : Fin 3 → Nat) a + S1x63x64.size a ≤ S5x63x64.size a
  inb_S5x63x64_S1x63x64_3_0_0 : ∀ a, (![3, 0, 0] : Fin 3 → Nat) a + S1x63x64.size a ≤ S5x63x64.size a
  inb_S5x63x64_S1x63x64_4_0_0 : ∀ a, (![4, 0, 0] : Fin 3 → Nat) a + S1x63x64.size a ≤ S5x63x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8192x1_S8192x64 : S8192x1.Broadcasts S8192x64
  broadcasts_S1x64_S8192x64 : S1x64.Broadcasts S8192x64
  reduces_S8192x63_S8192 : S8192x63.Reduces [1] S8192
  shapeCasts_S8192_S8192x1 : S8192.ShapeCasts S8192x1
  inb_S1x8192x64_S1x8192x1_0_0_0 : ∀ a, (![0, 0, 0] : Fin 3 → Nat) a + S1x8192x1.size a ≤ S1x8192x64.size a
  h_S1x8192x1 : 0 < S1x8192x1.numel
  shapeCasts_S1x8192x1_S8192x1 : S1x8192x1.ShapeCasts S8192x1
  shapeCasts_S8192x1_S1x8192x1 : S8192x1.ShapeCasts S1x8192x1
  inb_S1x8192x64_S1x8192x63_0_0_1 : ∀ a, (![0, 0, 1] : Fin 3 → Nat) a + S1x8192x63.size a ≤ S1x8192x64.size a
  h_S1x8192x63 : 0 < S1x8192x63.numel
  shapeCasts_S1x8192x63_S8192x63 : S1x8192x63.ShapeCasts S8192x63
  shapeCasts_S8192x63_S1x8192x63 : S8192x63.ShapeCasts S1x8192x63
  slices_S8192x1_o0_0_S4x1 : S8192x1.Slices ![0, 0] S4x1
  concatenates_S2x1_S4x1_S6x1_d0 : Shape.Concatenates [S2x1, S4x1] S6x1 0
  slices_S8192x63_o0_0_S4x63 : S8192x63.Slices ![0, 0] S4x63
  concatenates_S2x63_S4x63_S6x63_d0 : Shape.Concatenates [S2x63, S4x63] S6x63 0
  slices_S6x1_o0_0_S2x1 : S6x1.Slices ![0, 0] S2x1
  slices_S6x63_o0_0_S2x63 : S6x63.Slices ![0, 0] S2x63
  slices_S6x1_o1_0_S2x1 : S6x1.Slices ![1, 0] S2x1
  slices_S6x63_o1_0_S2x63 : S6x63.Slices ![1, 0] S2x63
  slices_S6x1_o2_0_S2x1 : S6x1.Slices ![2, 0] S2x1
  slices_S6x63_o2_0_S2x63 : S6x63.Slices ![2, 0] S2x63
  slices_S6x1_o3_0_S2x1 : S6x1.Slices ![3, 0] S2x1
  slices_S6x63_o3_0_S2x63 : S6x63.Slices ![3, 0] S2x63
  slices_S6x1_o4_0_S2x1 : S6x1.Slices ![4, 0] S2x1
  slices_S6x63_o4_0_S2x63 : S6x63.Slices ![4, 0] S2x63
  broadcasts_S2x1_S2x64 : S2x1.Broadcasts S2x64
  broadcasts_S1x64_S2x64 : S1x64.Broadcasts S2x64
  slices_S2x64_o0_1_S2x63 : S2x64.Slices ![0, 1] S2x63
  reduces_S2x63_S2 : S2x63.Reduces [1] S2
  shapeCasts_S2_S2x1 : S2.ShapeCasts S2x1
  inb_S1x8192x64_S1x2x1_0_0_0 : ∀ a, (![0, 0, 0] : Fin 3 → Nat) a + S1x2x1.size a ≤ S1x8192x64.size a
  h_S1x2x1 : 0 < S1x2x1.numel
  shapeCasts_S1x2x1_S2x1 : S1x2x1.ShapeCasts S2x1
  shapeCasts_S2x1_S1x2x1 : S2x1.ShapeCasts S1x2x1
  inb_S1x8192x64_S1x2x63_0_0_1 : ∀ a, (![0, 0, 1] : Fin 3 → Nat) a + S1x2x63.size a ≤ S1x8192x64.size a
  h_S1x2x63 : 0 < S1x2x63.numel
  shapeCasts_S1x2x63_S2x63 : S1x2x63.ShapeCasts S2x63
  shapeCasts_S2x63_S1x2x63 : S2x63.ShapeCasts S1x2x63
  slices_S8192x1_o8188_0_S4x1 : S8192x1.Slices ![8188, 0] S4x1
  concatenates_S4x1_S2x1_S6x1_d0 : Shape.Concatenates [S4x1, S2x1] S6x1 0
  slices_S8192x63_o8188_0_S4x63 : S8192x63.Slices ![8188, 0] S4x63
  concatenates_S4x63_S2x63_S6x63_d0 : Shape.Concatenates [S4x63, S2x63] S6x63 0
  inb_S1x8192x64_S1x2x1_0_8190_0 : ∀ a, (![0, 8190, 0] : Fin 3 → Nat) a + S1x2x1.size a ≤ S1x8192x64.size a
  inb_S1x8192x64_S1x2x63_0_8190_1 : ∀ a, (![0, 8190, 1] : Fin 3 → Nat) a + S1x2x63.size a ≤ S1x8192x64.size a
  dot_S8192x63_S63x64_S8192x64_1_0_0_1_n_n_wf : DotDims.WF S8192x63 S63x64 S8192x64 [1] [0] [0] [1] [] []
  dot_S2x63_S63x64_S2x64_1_0_0_1_n_n_wf : DotDims.WF S2x63 S63x64 S2x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S16x8192x64.size a
  hwx0_0 : ∀ i : grid0.Coords, EltTy.bits .f32 = 32 ∨ (Rect.block (s := S16x8192x64) S1x8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x63x64.size a ≤ S5x63x64.size a
  hwx0_2 : ∀ i : grid0.Coords, EltTy.bits .f32 = 32 ∨ (Rect.block (s := S5x63x64) S5x63x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x64.size a ≤ S16x8192x64.size a
  hwx0_4 : ∀ i : grid0.Coords, EltTy.bits .f32 = 32 ∨ (Rect.block (s := S16x8192x64) S1x8192x64.size (cc0_transform_4 i) (hinb0_4 i)).WholeWords (EltTy.packing .f32)

variable [Facts₀]

def dot_S8192x63_S63x64_S8192x64_1_0_0_1_n_n : DotDims S8192x63 S63x64 S8192x64 where
  lhsContracting := [1]
  rhsContracting := [0]
  lhsNonContracting := [0]
  rhsNonContracting := [1]
  lhsBatch := []
  rhsBatch := []
  wf := dot_S8192x63_S63x64_S8192x64_1_0_0_1_n_n_wf
def dot_S2x63_S63x64_S2x64_1_0_0_1_n_n : DotDims S2x63 S63x64 S2x64 where
  lhsContracting := [1]
  rhsContracting := [0]
  lhsNonContracting := [0]
  rhsNonContracting := [1]
  lhsBatch := []
  rhsBatch := []
  wf := dot_S2x63_S63x64_S2x64_1_0_0_1_n_n_wf

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5x63x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x8192x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x8192x64 : Shape := ⟨3, ![16, 8192, 64]⟩
abbrev S64x316 : Shape := ⟨2, ![64, 316]⟩
abbrev S64 : Shape := ⟨1, ![64]⟩
abbrev S_ : Shape := ⟨0, ![]⟩
abbrev S16x8196x64 : Shape := ⟨3, ![16, 8196, 64]⟩
abbrev S16x8196x1 : Shape := ⟨3, ![16, 8196, 1]⟩
abbrev S16x8196 : Shape := ⟨2, ![16, 8196]⟩
abbrev S1 : Shape := ⟨1, ![1]⟩
abbrev S8192 : Shape := ⟨1, ![8192]⟩
abbrev S8192x1 : Shape := ⟨2, ![8192, 1]⟩
abbrev S5 : Shape := ⟨1, ![5]⟩
abbrev S1x5 : Shape := ⟨2, ![1, 5]⟩
abbrev S8192x5 : Shape := ⟨2, ![8192, 5]⟩
abbrev S8192x5x1 : Shape := ⟨3, ![8192, 5, 1]⟩
abbrev S16x8192x5x64 : Shape := ⟨4, ![16, 8192, 5, 64]⟩
abbrev S16x8192x64x5 : Shape := ⟨4, ![16, 8192, 64, 5]⟩
abbrev S16x8192x1x5 : Shape := ⟨4, ![16, 8192, 1, 5]⟩
abbrev S16x8192x5 : Shape := ⟨3, ![16, 8192, 5]⟩
abbrev S16x8192 : Shape := ⟨2, ![16, 8192]⟩
abbrev S16x8192x1 : Shape := ⟨3, ![16, 8192, 1]⟩
abbrev S16x8192x63x5 : Shape := ⟨4, ![16, 8192, 63, 5]⟩
abbrev S16x8192x315 : Shape := ⟨3, ![16, 8192, 315]⟩
abbrev S16x8192x316 : Shape := ⟨3, ![16, 8192, 316]⟩
abbrev S1x1x64 : Shape := ⟨3, ![1, 1, 64]⟩
abbrev S16x8192x63 : Shape := ⟨3, ![16, 8192, 63]⟩

abbrev nBuf : Space → Nat
  | .hbm => 62
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S64x316, .f32⟩
  | .hbm, ⟨2, _⟩ => ⟨S64, .f32⟩
  | .hbm, ⟨3, _⟩ => ⟨S_, .f32⟩
  | .hbm, ⟨4, _⟩ => ⟨S_, .f32⟩
  | .hbm, ⟨5, _⟩ => ⟨S_, .i32⟩
  | .hbm, ⟨6, _⟩ => ⟨S_, .f32⟩
  | .hbm, ⟨7, _⟩ => ⟨S16x8196x64, .f32⟩
  | .hbm, ⟨8, _⟩ => ⟨S16x8196x1, .f32⟩
  | .hbm, ⟨9, _⟩ => ⟨S16x8196, .f32⟩
  | .hbm, ⟨10, _⟩ => ⟨S16x8196, .f32⟩
  | .hbm, ⟨11, _⟩ => ⟨S16x8196, .f32⟩
  | .hbm, ⟨12, _⟩ => ⟨S_, .i32⟩
  | .hbm, ⟨13, _⟩ => ⟨S1, .i32⟩
  | .hbm, ⟨14, _⟩ => ⟨S16x8196x64, .f32⟩
  | .hbm, ⟨15, _⟩ => ⟨S8192, .i32⟩
  | .hbm, ⟨16, _⟩ => ⟨S8192x1, .i32⟩
  | .hbm, ⟨17, _⟩ => ⟨S_, .i32⟩
  | .hbm, ⟨18, _⟩ => ⟨S8192x1, .i32⟩
  | .hbm, ⟨19, _⟩ => ⟨S8192x1, .i32⟩
  | .hbm, ⟨20, _⟩ => ⟨S5, .i32⟩
  | .hbm, ⟨21, _⟩ => ⟨S1x5, .i32⟩
  | .hbm, ⟨22, _⟩ => ⟨S8192x5, .i32⟩
  | .hbm, ⟨23, _⟩ => ⟨S8192x5, .i32⟩
  | .hbm, ⟨24, _⟩ => ⟨S8192x5, .i32⟩
  | .hbm, ⟨25, _⟩ => ⟨S_, .i32⟩
  | .hbm, ⟨26, _⟩ => ⟨S8192x5, .i32⟩
  | .hbm, ⟨27, _⟩ => ⟨S8192x5, .i1⟩
  | .hbm, ⟨28, _⟩ => ⟨S_, .i32⟩
  | .hbm, ⟨29, _⟩ => ⟨S8192x5, .i32⟩
  | .hbm, ⟨30, _⟩ => ⟨S8192x5, .i32⟩
  | .hbm, ⟨31, _⟩ => ⟨S8192x5, .i32⟩
  | .hbm, ⟨32, _⟩ => ⟨S8192x5x1, .i32⟩
  | .hbm, ⟨33, _⟩ => ⟨S16x8192x5x64, .f32⟩
  | .hbm, ⟨34, _⟩ => ⟨S16x8192x64x5, .f32⟩
  | .hbm, ⟨35, _⟩ => ⟨S16x8192x1x5, .f32⟩
  | .hbm, ⟨36, _⟩ => ⟨S16x8192x5, .f32⟩
  | .hbm, ⟨37, _⟩ => ⟨S16x8192x5, .f32⟩
  | .hbm, ⟨38, _⟩ => ⟨S_, .f32⟩
  | .hbm, ⟨39, _⟩ => ⟨S16x8192, .f32⟩
  | .hbm, ⟨40, _⟩ => ⟨S16x8192x1, .f32⟩
  | .hbm, ⟨41, _⟩ => ⟨S_, .f32⟩
  | .hbm, ⟨42, _⟩ => ⟨S16x8192x1, .f32⟩
  | .hbm, ⟨43, _⟩ => ⟨S16x8192x1, .f32⟩
  | .hbm, ⟨44, _⟩ => ⟨S16x8192x1, .f32⟩
  | .hbm, ⟨45, _⟩ => ⟨S16x8192x63x5, .f32⟩
  | .hbm, ⟨46, _⟩ => ⟨S16x8192x315, .f32⟩
  | .hbm, ⟨47, _⟩ => ⟨S16x8192x316, .f32⟩
  | .hbm, ⟨48, _⟩ => ⟨S16x8192x64, .f32⟩
  | .hbm, ⟨49, _⟩ => ⟨S1x1x64, .f32⟩
  | .hbm, ⟨50, _⟩ => ⟨S16x8192x64, .f32⟩
  | .hbm, ⟨51, _⟩ => ⟨S16x8192x64, .f32⟩
  | .hbm, ⟨52, _⟩ => ⟨S16x8192x63, .f32⟩
  | .hbm, ⟨53, _⟩ => ⟨S16x8192x63, .f32⟩
  | .hbm, ⟨54, _⟩ => ⟨S_, .f32⟩
  | .hbm, ⟨55, _⟩ => ⟨S16x8192, .f32⟩
  | .hbm, ⟨56, _⟩ => ⟨S16x8192x1, .f32⟩
  | .hbm, ⟨57, _⟩ => ⟨S_, .f32⟩
  | .hbm, ⟨58, _⟩ => ⟨S16x8192x1, .f32⟩
  | .hbm, ⟨59, _⟩ => ⟨S16x8192x1, .f32⟩
  | .hbm, ⟨60, _⟩ => ⟨S16x8192x1, .f32⟩
  | .hbm, ⟨61, _⟩ => ⟨S16x8192x64, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  pads_S16x8192x64_S16x8196x64_000_220_000 : S16x8192x64.Pads (![0, 2, 0] : Fin 3 → Nat) ![0, 2, 0] ![0, 0, 0] S16x8196x64
  h_S_ : 0 < S_.numel
  slices_S16x8196x64_S16x8196x1_0_0_0 : S16x8196x64.Slices ![0, 0, 0] S16x8196x1
  shapeCasts_S16x8196x1_S16x8196 : S16x8196x1.ShapeCasts S16x8196
  bcast_S_S16x8196 : S_.BroadcastsInDim S16x8196 (![] : Fin 0 → Fin S16x8196.rank)
  bcast_S_S1 : S_.BroadcastsInDim S1 (![] : Fin 0 → Fin S1.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S5_S1x5_1 : S5.BroadcastsInDim S1x5 (![1] : Fin 1 → Fin S1x5.rank)
  bcast_S8192x1_S8192x5_0_1 : S8192x1.BroadcastsInDim S8192x5 (![0, 1] : Fin 2 → Fin S8192x5.rank)
  bcast_S1x5_S8192x5_0_1 : S1x5.BroadcastsInDim S8192x5 (![0, 1] : Fin 2 → Fin S8192x5.rank)
  bcast_S_S8192x5 : S_.BroadcastsInDim S8192x5 (![] : Fin 0 → Fin S8192x5.rank)
  bcast_S8192x5_S8192x5x1_0_1 : S8192x5.BroadcastsInDim S8192x5x1 (![0, 1] : Fin 2 → Fin S8192x5x1.rank)
  transposes_S16x8192x5x64_S16x8192x64x5_0_1_3_2 : S16x8192x5x64.Transposes [0, 1, 3, 2] S16x8192x64x5
  slices_S16x8192x64x5_S16x8192x1x5_0_0_0_0 : S16x8192x64x5.Slices ![0, 0, 0, 0] S16x8192x1x5
  shapeCasts_S16x8192x1x5_S16x8192x5 : S16x8192x1x5.ShapeCasts S16x8192x5
  reducesTo_S16x8192x5_S16x8192_d2 : S16x8192x5.ReducesTo [2] S16x8192
  bcast_S16x8192_S16x8192x1_0_1 : S16x8192.BroadcastsInDim S16x8192x1 (![0, 1] : Fin 2 → Fin S16x8192x1.rank)
  bcast_S_S16x8192x1 : S_.BroadcastsInDim S16x8192x1 (![] : Fin 0 → Fin S16x8192x1.rank)
  slices_S16x8192x64x5_S16x8192x63x5_0_0_1_0 : S16x8192x64x5.Slices ![0, 0, 1, 0] S16x8192x63x5
  shapeCasts_S16x8192x63x5_S16x8192x315 : S16x8192x63x5.ShapeCasts S16x8192x315
  concatenates_S16x8192x1_S16x8192x315_S16x8192x316_d2 : Shape.Concatenates [S16x8192x1, S16x8192x315] S16x8192x316 2
  bcast_S64_S1x1x64_2 : S64.BroadcastsInDim S1x1x64 (![2] : Fin 1 → Fin S1x1x64.rank)
  bcast_S1x1x64_S16x8192x64_0_1_2 : S1x1x64.BroadcastsInDim S16x8192x64 (![0, 1, 2] : Fin 3 → Fin S16x8192x64.rank)
  slices_S16x8192x64_S16x8192x63_0_0_1 : S16x8192x64.Slices ![0, 0, 1] S16x8192x63
  reducesTo_S16x8192x63_S16x8192_d2 : S16x8192x63.ReducesTo [2] S16x8192
  concatenates_S16x8192x1_S16x8192x63_S16x8192x64_d2 : Shape.Concatenates [S16x8192x1, S16x8192x63] S16x8192x64 2
  scatter_S16x8196x64_S1_S16x8196_01_2_2_0_wf : ScatterDims.WF S16x8196x64 S1 S16x8196 [0, 1] [2] [2] 0
  gather_S16x8196x64_S8192x5x1_S16x8192x5x64_03_1_n_n_1_2_16164_wf : GatherDims.WF S16x8196x64 S8192x5x1 S16x8192x5x64 [0, 3] [1] [] [1] [] 2 ![16, 1, 64]
  dot_S16x8192x316_S64x316_S16x8192x64_2_1_01_0_n_n_wf : DotDims.WF S16x8192x316 S64x316 S16x8192x64 [2] [1] [0, 1] [0] [] []

variable [Facts₀]

def scatter_S16x8196x64_S1_S16x8196_01_2_2_0 : ScatterDims S16x8196x64 S1 S16x8196 where
  updateWindowDims := [0, 1]
  insertedWindowDims := [2]
  scatterDimsToOperandDims := [2]
  indexVectorDim := 0
  wf := scatter_S16x8196x64_S1_S16x8196_01_2_2_0_wf
def gather_S16x8196x64_S8192x5x1_S16x8192x5x64_03_1_n_n_1_2_16164 : GatherDims S16x8196x64 S8192x5x1 S16x8192x5x64 where
  offsetDims := [0, 3]
  collapsedSliceDims := [1]
  operandBatchingDims := []
  startIndicesBatchingDims := []
  startIndexMap := [1]
  indexVectorDim := 2
  sliceSizes := ![16, 1, 64]
  wf := gather_S16x8196x64_S8192x5x1_S16x8192x5x64_03_1_n_n_1_2_16164_wf
def dot_S16x8192x316_S64x316_S16x8192x64_2_1_01_0_n_n : DotDims S16x8192x316 S64x316 S16x8192x64 where
  lhsContracting := [2]
  rhsContracting := [1]
  lhsNonContracting := [0, 1]
  rhsNonContracting := [0]
  lhsBatch := []
  rhsBatch := []
  wf := dot_S16x8192x316_S64x316_S16x8192x64_2_1_01_0_n_n_wf

class Facts : Prop extends Facts₀ where

variable [Facts]
-- ==== Proof.KPieces.lean ====
/-
  What the body leaves in the output block, entry by entry. The body stores six rectangles, later stores over earlier
  ones: lane 0 of every row and lanes 1 … 63 of every row (the bulk pass), then the same two lane ranges of rows 0–1
  (the top fix-up) and of rows 8190–8191 (the bottom fix-up). So an entry of rows 0–1 holds the top fix-up's value, an
  entry of rows 8190–8191 the bottom fix-up's, every other entry the bulk pass's.
-/
import proofs.«125665_j15917148799336_2_alg».proof.Proof.KernelIdealFrameP
import Idealize.ShloMosaic.Lib.WritesUnit
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.GenP Idealize.ShloMosaic Idealize.ShloMosaic.TcCoe
open Idealize.ShloMosaic.ValueIdx Idealize.ShloMosaic.Tactic

/-- Weight slab `k` of the five, as the body's load of rows [k, k+1) of the [5, 63, 64] block reads it. -/
def wv (x2 : Vec Ideal S5x63x64 .f32) (k : Fin 5) : Vec Ideal S1x63x64 .f32 := fun y => x2 (ix3 k (y 1) (y 2))

theorem ld_slab (x2 : Vec Ideal S5x63x64 .f32) (k : Fin 5) (kk : ℕ) (hk : kk = k.val)
    (inb : ∀ a, (![kk, 0, 0] : Fin 3 → ℕ) a + (![1, 63, 64] : Fin 3 → ℕ) a ≤ S5x63x64.size a) :
    View.ld x2 (Rect.unit (s := S5x63x64) ![kk, 0, 0] ![1, 63, 64] inb) = wv x2 k := by
  subst hk
  funext y
  refine congrArg x2 (funext fun a => Fin.ext ?_)
  match a with
  | ⟨0, _⟩ => show k.val + 1 * (y 0).val = k.val; have : (y 0).val < 1 := (y 0).isLt; omega
  | ⟨1, _⟩ => show 0 + 1 * (y 1).val = (y 1).val; omega
  | ⟨2, _⟩ => show 0 + 1 * (y 2).val = (y 2).val; omega

theorem hz3 : (![0, 0, 0] : Fin 3 → Nat) = fun _ => 0 := funext fun a => by fin_cases a <;> rfl
theorem hz2 : (![0, 0] : Fin 2 → Nat) = fun _ => 0 := funext fun a => by fin_cases a <;> rfl

section
variable (x0 : Vec Ideal S1x8192x64 .f32) (x1 : Vec Ideal S1x64 .f32) (x2 : Vec Ideal S5x63x64 .f32) (x3 : Vec Ideal S1x64 .f32)

/-- The six stored values, as functions of the four input blocks. -/
def stBotS : FVec Ideal S1x2x63 .f32 := k0_pay3 (F := Ideal) (k0_pay26 (k0_pay25 (k0_pay6 x0) k0_pay14) (wv x2 0) (wv x2 1) (wv x2 2) (wv x2 3)) (k0_pay27 (k0_pay25 (k0_pay6 x0) k0_pay14)) (k0_pay28 (k0_pay24 (k0_pay5 x0) k0_pay13) (FloatOps.ofBits .f32 0#32)) (k0_pay29 (wv x2 4)) x1 x3
def stBotT : FVec Ideal S1x2x1 .f32 := k0_pay2 (F := Ideal) (k0_pay26 (k0_pay25 (k0_pay6 x0) k0_pay14) (wv x2 0) (wv x2 1) (wv x2 2) (wv x2 3)) (k0_pay27 (k0_pay25 (k0_pay6 x0) k0_pay14)) (k0_pay28 (k0_pay24 (k0_pay5 x0) k0_pay13) (FloatOps.ofBits .f32 0#32)) (k0_pay29 (wv x2 4)) x1 x3
def stTopS : FVec Ideal S1x2x63 .f32 := k0_pay23 (F := Ideal) (k0_pay15 (k0_pay5 x0)) (k0_pay16 (k0_pay6 x0)) (k0_pay17 (k0_pay6 x0) (wv x2 0) (wv x2 1) (wv x2 2)) (k0_pay18 (k0_pay6 x0)) (k0_pay19 (k0_pay5 x0)) (k0_pay20 (wv x2 3)) (constant S2x64 .f32 0#32) (wv x2 4) x1 x3
def stTopT : FVec Ideal S1x2x1 .f32 := k0_pay22 (F := Ideal) (k0_pay15 (k0_pay5 x0)) (k0_pay16 (k0_pay6 x0)) (k0_pay17 (k0_pay6 x0) (wv x2 0) (wv x2 1) (wv x2 2)) (k0_pay18 (k0_pay6 x0)) (k0_pay19 (k0_pay5 x0)) (k0_pay20 (wv x2 3)) (constant S2x64 .f32 0#32) (wv x2 4) x1 x3
def stBulkS : FVec Ideal S1x8192x63 .f32 := k0_pay12 (F := Ideal) (k0_pay10 (k0_pay5 x0) (k0_pay6 x0) (k0_pay7 x0 (wv x2 0) (wv x2 1) (wv x2 2)) (k0_pay8 x0) (k0_pay9 x0) (wv x2 3) (wv x2 4) x1 x3)
def stBulkT : FVec Ideal S1x8192x1 .f32 := k0_pay11 (F := Ideal) (k0_pay5 x0) (k0_pay6 x0) (k0_pay7 x0 (wv x2 0) (wv x2 1) (wv x2 2)) (k0_pay8 x0) (k0_pay9 x0) (wv x2 3) (wv x2 4) x1 x3

/-- The stores, newest first. -/
def pieces : List (View.Piece (Elt Ideal) S1x8192x64 .f32) :=
  [⟨Rect.unit ![0, 8190, 1] ![1, 2, 63] inb_S1x8192x64_S1x2x63_0_8190_1, stBotS x0 x1 x2 x3⟩,
   ⟨Rect.unit ![0, 8190, 0] ![1, 2, 1] inb_S1x8192x64_S1x2x1_0_8190_0, stBotT x0 x1 x2 x3⟩,
   ⟨Rect.unit ![0, 0, 1] ![1, 2, 63] inb_S1x8192x64_S1x2x63_0_0_1, stTopS x0 x1 x2 x3⟩,
   ⟨Rect.unit ![0, 0, 0] ![1, 2, 1] inb_S1x8192x64_S1x2x1_0_0_0, stTopT x0 x1 x2 x3⟩,
   ⟨Rect.unit ![0, 0, 1] ![1, 8192, 63] inb_S1x8192x64_S1x8192x63_0_0_1, stBulkS x0 x1 x2 x3⟩,
   ⟨Rect.unit ![0, 0, 0] ![1, 8192, 1] inb_S1x8192x64_S1x8192x1_0_0_0, stBulkT x0 x1 x2 x3⟩]

theorem run_pieces (c : Dev nD) (i : grid0.Coords) (arg1 : Memref sig .tc .vmem S1x8192x64 .f32) (harg1 : arg1.IsWhole) (arg2 : Memref sig .tc .vmem S1x64 .f32) (harg2 : arg2.IsWhole) (arg3 : Memref sig .tc .vmem S5x63x64 .f32) (harg3 : arg3.IsWhole) (arg4 : Memref sig .tc .vmem S1x64 .f32) (harg4 : arg4.IsWhole) (arg5 : Memref sig .tc .vmem S1x8192x64 .f32) (harg5 : arg5.IsWhole) :
    (kernelRun0_A (F := Ideal) c i arg1 harg1 arg2 harg2 arg3 harg3 arg4 harg4 arg5 harg5 x0 x1 x2 x3).1 = pieces x0 x1 x2 x3 := by
  unfold kernelRun0_A
  dsimp only
  sl_unfold_run_names
  simp only [View.readAt_eq_ld, harg1.read_unread, harg2.read_unread, harg3.read_unread, harg4.read_unread,
    View.ld_unit_zero (S := S1x8192x64) hz3, View.ld_unit_zero (S := S1x64) hz2,
    ld_slab x2 0 0 rfl, ld_slab x2 1 1 rfl, ld_slab x2 2 2 rfl, ld_slab x2 3 3 rfl, ld_slab x2 4 4 rfl]
  rfl

/-- The output block the body leaves, as a read of the six stores. -/
theorem out_eq (c : Dev nD) (i : grid0.Coords) (arg1 : Memref sig .tc .vmem S1x8192x64 .f32) (harg1 : arg1.IsWhole) (arg2 : Memref sig .tc .vmem S1x64 .f32) (harg2 : arg2.IsWhole) (arg3 : Memref sig .tc .vmem S5x63x64 .f32) (harg3 : arg3.IsWhole) (arg4 : Memref sig .tc .vmem S1x64 .f32) (harg4 : arg4.IsWhole) (arg5 : Memref sig .tc .vmem S1x8192x64 .f32) (harg5 : arg5.IsWhole) :
    out0_A_4 (F := Ideal) c i arg1 harg1 arg2 harg2 arg3 harg3 arg4 harg4 arg5 harg5 x0 x1 x2 x3 = VO0_4.read (Elt Ideal) (VO0_4.writes (Elt Ideal) VO0_4.junk (pieces x0 x1 x2 x3)) := by
  unfold out0_A_4
  rw [run_pieces]

end

/-! ## Reading an entry: the newest store that holds it -/

section Read
variable (x0 : Vec Ideal S1x8192x64 .f32) (x1 : Vec Ideal S1x64 .f32) (x2 : Vec Ideal S5x63x64 .f32) (x3 : Vec Ideal S1x64 .f32)

/-- The block the six stores leave. -/
def stored : Vec Ideal S1x8192x64 .f32 :=
  VO0_4.read (Elt Ideal) (VO0_4.writes (Elt Ideal) VO0_4.junk (pieces x0 x1 x2 x3))

/-- Rows 8190–8191, lanes 1 … 63: the bottom fix-up's space store. -/
theorem stored_bot_space (r : Fin 8192) (o : Fin 64) (r' : Fin 2) (c' : Fin 63) (hr : r.val = 8190 + r'.val)
    (ho : o.val = 1 + c'.val) :
    stored x0 x1 x2 x3 (ix3 (0 : Fin 1) r o) = stBotS x0 x1 x2 x3 (ix3 (0 : Fin 1) r' c') := by
  unfold stored pieces
  exact View.read_writes_cons_unit_of_mem VO0_4 _ _ _ _ (ix3 (0 : Fin 1) r o) (ix3 (0 : Fin 1) r' c') rfl (fun a => by
    match a with
    | ⟨0, _⟩ => rfl
    | ⟨1, _⟩ => exact hr
    | ⟨2, _⟩ => exact ho)

/-- Rows 8190–8191, lane 0: the bottom fix-up's time store. -/
theorem stored_bot_time (r : Fin 8192) (o : Fin 64) (r' : Fin 2) (hr : r.val = 8190 + r'.val) (ho : o.val = 0) :
    stored x0 x1 x2 x3 (ix3 (0 : Fin 1) r o) = stBotT x0 x1 x2 x3 (ix3 (0 : Fin 1) r' (0 : Fin 1)) := by
  unfold stored pieces
  refine (View.read_writes_cons_unit_of_not_mem VO0_4 _ _ _ _ (ix3 (0 : Fin 1) r o) rfl (2 : Fin 3) (Or.inl (by show o.val < 1; omega))).trans ?_
  exact View.read_writes_cons_unit_of_mem VO0_4 _ _ _ _ (ix3 (0 : Fin 1) r o) (ix3 (0 : Fin 1) r' (0 : Fin 1)) rfl (fun a => by
    match a with
    | ⟨0, _⟩ => rfl
    | ⟨1, _⟩ => exact hr
    | ⟨2, _⟩ => exact ho)

/-- Rows 0–1, lanes 1 … 63: the top fix-up's space store. -/
theorem stored_top_space (r : Fin 8192) (o : Fin 64) (r' : Fin 2) (c' : Fin 63) (hr : r.val = r'.val)
    (ho : o.val = 1 + c'.val) :
    stored x0 x1 x2 x3 (ix3 (0 : Fin 1) r o) = stTopS x0 x1 x2 x3 (ix3 (0 : Fin 1) r' c') := by
  have hr2 : r.val < 2 := by have := r'.isLt; omega
  unfold stored pieces
  refine (View.read_writes_cons_unit_of_not_mem VO0_4 _ _ _ _ (ix3 (0 : Fin 1) r o) rfl (1 : Fin 3) (Or.inl (by show r.val < 8190; omega))).trans ?_
  refine (View.read_writes_cons_unit_of_not_mem VO0_4 _ _ _ _ (ix3 (0 : Fin 1) r o) rfl (1 : Fin 3) (Or.inl (by show r.val < 8190; omega))).trans ?_
  exact View.read_writes_cons_unit_of_mem VO0_4 _ _ _ _ (ix3 (0 : Fin 1) r o) (ix3 (0 : Fin 1) r' c') rfl (fun a => by
    match a with
    | ⟨0, _⟩ => rfl
    | ⟨1, _⟩ => show r.val = 0 + r'.val; omega
    | ⟨2, _⟩ => exact ho)

/-- Rows 0–1, lane 0: the top fix-up's time store. -/
theorem stored_top_time (r : Fin 8192) (o : Fin 64) (r' : Fin 2) (hr : r.val = r'.val) (ho : o.val = 0) :
    stored x0 x1 x2 x3 (ix3 (0 : Fin 1) r o) = stTopT x0 x1 x2 x3 (ix3 (0 : Fin 1) r' (0 : Fin 1)) := by
  have hr2 : r.val < 2 := by have := r'.isLt; omega
  unfold stored pieces
  refine (View.read_writes_cons_unit_of_not_mem VO0_4 _ _ _ _ (ix3 (0 : Fin 1) r o) rfl (1 : Fin 3) (Or.inl (by show r.val < 8190; omega))).trans ?_
  refine (View.read_writes_cons_unit_of_not_mem VO0_4 _ _ _ _ (ix3 (0 : Fin 1) r o) rfl (1 : Fin 3) (Or.inl (by show r.val < 8190; omega))).trans ?_
  refine (View.read_writes_cons_unit_of_not_mem VO0_4 _ _ _ _ (ix3 (0 : Fin 1) r o) rfl (2 : Fin 3) (Or.inl (by show o.val < 1; omega))).trans ?_
  exact View.read_writes_cons_unit_of_mem VO0_4 _ _ _ _ (ix3 (0 : Fin 1) r o) (ix3 (0 : Fin 1) r' (0 : Fin 1)) rfl (fun a => by
    match a with
    | ⟨0, _⟩ => rfl
    | ⟨1, _⟩ => show r.val = 0 + r'.val; omega
    | ⟨2, _⟩ => exact ho)

/-- Rows 2 … 8189, lanes 1 … 63: the bulk pass's space store. -/
theorem stored_mid_space (r : Fin 8192) (o : Fin 64) (c' : Fin 63) (h2 : 2 ≤ r.val) (h3 : r.val < 8190)
    (ho : o.val = 1 + c'.val) :
    stored x0 x1 x2 x3 (ix3 (0 : Fin 1) r o) = stBulkS x0 x1 x2 x3 (ix3 (0 : Fin 1) r c') := by
  unfold stored pieces
  refine (View.read_writes_cons_unit_of_not_mem VO0_4 _ _ _ _ (ix3 (0 : Fin 1) r o) rfl (1 : Fin 3) (Or.inl (by show r.val < 8190; omega))).trans ?_
  refine (View.read_writes_cons_unit_of_not_mem VO0_4 _ _ _ _ (ix3 (0 : Fin 1) r o) rfl (1 : Fin 3) (Or.inl (by show r.val < 8190; omega))).trans ?_
  refine (View.read_writes_cons_unit_of_not_mem VO0_4 _ _ _ _ (ix3 (0 : Fin 1) r o) rfl (1 : Fin 3) (Or.inr (by show 0 + 2 ≤ r.val; omega))).trans ?_
  refine (View.read_writes_cons_unit_of_not_mem VO0_4 _ _ _ _ (ix3 (0 : Fin 1) r o) rfl (1 : Fin 3) (Or.inr (by show 0 + 2 ≤ r.val; omega))).trans ?_
  exact View.read_writes_cons_unit_of_mem VO0_4 _ _ _ _ (ix3 (0 : Fin 1) r o) (ix3 (0 : Fin 1) r c') rfl (fun a => by
    match a with
    | ⟨0, _⟩ => rfl
    | ⟨1, _⟩ => show r.val = 0 + r.val; omega
    | ⟨2, _⟩ => exact ho)

/-- Rows 2 … 8189, lane 0: the bulk pass's time store. -/
theorem stored_mid_time (r : Fin 8192) (o : Fin 64) (h2 : 2 ≤ r.val) (h3 : r.val < 8190) (ho : o.val = 0) :
    stored x0 x1 x2 x3 (ix3 (0 : Fin 1) r o) = stBulkT x0 x1 x2 x3 (ix3 (0 : Fin 1) r (0 : Fin 1)) := by
  unfold stored pieces
  refine (View.read_writes_cons_unit_of_not_mem VO0_4 _ _ _ _ (ix3 (0 : Fin 1) r o) rfl (1 : Fin 3) (Or.inl (by show r.val < 8190; omega))).trans ?_
  refine (View.read_writes_cons_unit_of_not_mem VO0_4 _ _ _ _ (ix3 (0 : Fin 1) r o) rfl (1 : Fin 3) (Or.inl (by show r.val < 8190; omega))).trans ?_
  refine (View.read_writes_cons_unit_of_not_mem VO0_4 _ _ _ _ (ix3 (0 : Fin 1) r o) rfl (1 : Fin 3) (Or.inr (by show 0 + 2 ≤ r.val; omega))).trans ?_
  refine (View.read_writes_cons_unit_of_not_mem VO0_4 _ _ _ _ (ix3 (0 : Fin 1) r o) rfl (1 : Fin 3) (Or.inr (by show 0 + 2 ≤ r.val; omega))).trans ?_
  refine (View.read_writes_cons_unit_of_not_mem VO0_4 _ _ _ _ (ix3 (0 : Fin 1) r o) rfl (2 : Fin 3) (Or.inl (by show o.val < 1; omega))).trans ?_
  exact View.read_writes_cons_unit_of_mem VO0_4 _ _ _ _ (ix3 (0 : Fin 1) r o) (ix3 (0 : Fin 1) r (0 : Fin 1)) rfl (fun a => by
    match a with
    | ⟨0, _⟩ => rfl
    | ⟨1, _⟩ => show r.val = 0 + r.val; omega
    | ⟨2, _⟩ => exact ho)

end Read

end Cert.KernelIdeal.KV

end
-- ==== Proof.Spec.lean ====
/-
  The Lorentz convolution as one function of the three argument arrays, over the extended reals.

  A point of the input is a row of 64 numbers: a time coordinate (lane 0) followed by 63 space coordinates. Each
  batch row of 8192 points is padded by two points in front and two behind; a padding point has time coordinate 1
  (the clamp applied to a zero) and space coordinates 0, and every other time coordinate is clamped below at 1. For
  output position l the window is the five padded points l, l+1, …, l+4. The window's rescaled time is
  sqrt(Σₖ tₖ² − 4); the linear layer takes that number and the 63·5 space coordinates of the window (space
  coordinate c of window point k is feature 1 + 5c + k) to 64 numbers y₀ … y₆₃; the result keeps y₁ … y₆₃ and
  replaces y₀ by sqrt(Σ_{c ≥ 1} y_c² + 1).
-/
import Idealize.ShloMosaic.PureOps.Ideal
import Idealize.ShloMosaic.PureOps.Ideal.Laws
import Idealize.ShloMosaic.Lib.ValueIdx

noncomputable section

namespace Cert.LorentzConv

open Idealize.ShloMosaic Idealize.ShloMosaic.ValueIdx

/-- The three argument shapes: points [16, 8192, 64], weights [64, 316], bias [64]. -/
abbrev SX : Shape := ⟨3, ![16, 8192, 64]⟩
abbrev SW : Shape := ⟨2, ![64, 316]⟩
abbrev SB : Shape := ⟨1, ![64]⟩

/-- The float patterns the two programs spell, as the numbers they denote. -/
theorem ofBits_one : Ideal.ofBits .f32 0x3F800000#32 = 1 := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

section
variable (x : SX.Idx → EReal) (W : SW.Idx → EReal) (b : SB.Idx → EReal)

/-- The clamped time coordinate of padded point `j` (point `j - 2` of the batch row; 1 on the padding). -/
def tm (bt : Fin 16) (j : ℕ) : EReal :=
  if h : 2 ≤ j ∧ j < 8194 then max (x (ix3 bt (⟨j - 2, by omega⟩ : Fin 8192) (0 : Fin 64))) 1 else 1

/-- Space coordinate `c` of padded point `j` (0 on the padding). -/
def sp (bt : Fin 16) (j : ℕ) (c : Fin 63) : EReal :=
  if h : 2 ≤ j ∧ j < 8194 then x (ix3 bt (⟨j - 2, by omega⟩ : Fin 8192) (⟨c.val + 1, by omega⟩ : Fin 64)) else 0

/-- The window's rescaled time. -/
def tresc (bt : Fin 16) (l : Fin 8192) : EReal :=
  Ideal.sqrt ((∑ k : Fin 5, tm x bt (l.val + k.val) * tm x bt (l.val + k.val)) - ((4 : ℝ) : EReal))

/-- The linear layer's output `o` at position `l`: the window's space coordinates against their weights, summed
    window point by window point, then the rescaled time against weight column 0, then the bias. -/
def ypre (bt : Fin 16) (l : Fin 8192) (o : Fin 64) : EReal :=
  (∑ k : Fin 5, ∑ c : Fin 63, sp x bt (l.val + k.val) c * W (ix2 o (⟨1 + c.val * 5 + k.val, by omega⟩ : Fin 316)))
    + tresc x bt l * W (ix2 o (0 : Fin 316)) + b (ix1 o)

/-- The recomputed time coordinate of the output point. -/
def ytime (bt : Fin 16) (l : Fin 8192) : EReal :=
  Ideal.sqrt ((∑ c : Fin 63, ypre x W b bt l (⟨c.val + 1, by omega⟩ : Fin 64) * ypre x W b bt l (⟨c.val + 1, by omega⟩ : Fin 64)) + 1)

/-- The whole result, index by index. -/
def out (i : SX.Idx) : EReal :=
  if (i 2).val = 0 then ytime x W b (i 0) (i 1) else ypre x W b (i 0) (i 1) (i 2)

end

end Cert.LorentzConv

end
-- ==== Proof.ConvBlock.lean ====
/-
  One output position as the kernel spells it: five window points, each a time coordinate and 63 space coordinates,
  go through the linear layer one window point at a time, the partial sums added from a zero; the rescaled time is
  the square root of the five squared time coordinates, added from a zero, less 4. With the window points of the
  specification this is the specification's linear layer (the zeros drop out; nothing else moves).
-/
import proofs.«125665_j15917148799336_2_alg».proof.Proof.Spec

noncomputable section

namespace Cert.LorentzConv

open Idealize.ShloMosaic Idealize.ShloMosaic.ValueIdx

/-- The linear layer's output `o` from five window points (`t k`, `s k ·`), the five weight slabs `Wk k`, the
    weight column `w0` of the rescaled time, and the bias `bb`. -/
def convY (t : Fin 5 → EReal) (s : Fin 5 → Fin 63 → EReal) (Wk : Fin 5 → Fin 63 → Fin 64 → EReal)
    (w0 bb : Fin 64 → EReal) (o : Fin 64) : EReal :=
  ((((((Ideal.ofBits .f32 0x00000000#32 + ∑ c : Fin 63, s 0 c * Wk 0 c o) + ∑ c : Fin 63, s 1 c * Wk 1 c o)
        + ∑ c : Fin 63, s 2 c * Wk 2 c o) + ∑ c : Fin 63, s 3 c * Wk 3 c o) + ∑ c : Fin 63, s 4 c * Wk 4 c o)
      + Ideal.sqrt ((((((Ideal.ofBits .f32 0x00000000#32 + t 0 * t 0) + t 1 * t 1) + t 2 * t 2) + t 3 * t 3) + t 4 * t 4)
          - Ideal.ofBits .f32 0x40800000#32) * w0 o)
    + bb o

/-- The recomputed time coordinate from the linear layer's outputs 1 … 63. -/
def convT (y : Fin 64 → EReal) : EReal :=
  Ideal.sqrt ((∑ c : Fin 63, y (⟨c.val + 1, by omega⟩ : Fin 64) * y (⟨c.val + 1, by omega⟩ : Fin 64))
    + Ideal.ofBits .f32 0x3F800000#32)

section
variable (x : SX.Idx → EReal) (W : SW.Idx → EReal) (b : SB.Idx → EReal)

/-- The arguments of `convY` for the specification's window at position `l` of batch row `bt`. -/
def winT (bt : Fin 16) (l : Fin 8192) : Fin 5 → EReal := fun k => tm x bt (l.val + k.val)
def winS (bt : Fin 16) (l : Fin 8192) : Fin 5 → Fin 63 → EReal := fun k c => sp x bt (l.val + k.val) c
def slabs : Fin 5 → Fin 63 → Fin 64 → EReal := fun k c o => W (ix2 o (⟨1 + c.val * 5 + k.val, by omega⟩ : Fin 316))
def col0 : Fin 64 → EReal := fun o => W (ix2 o (0 : Fin 316))
def bias : Fin 64 → EReal := fun o => b (ix1 o)

theorem convY_eq_ypre (bt : Fin 16) (l : Fin 8192) (o : Fin 64) :
    convY (winT x bt l) (winS x bt l) (slabs W) (col0 W) (bias b) o = ypre x W b bt l o := by
  unfold convY ypre tresc winT winS slabs col0 bias
  rw [Ideal.ofBits_zero_f32, ofBits_four, Fin.sum_univ_five, Fin.sum_univ_five, zero_add, zero_add]

theorem convT_eq_ytime (bt : Fin 16) (l : Fin 8192) :
    convT (fun o => convY (winT x bt l) (winS x bt l) (slabs W) (col0 W) (bias b) o) = ytime x W b bt l := by
  unfold convT ytime
  rw [ofBits_one]
  simp only [convY_eq_ypre]

end

end Cert.LorentzConv

end
-- ==== Proof.KOps.lean ====
/-
  Two layout operations of a matrix read at an entry: a rotation of the rows (row r of the result is row
  r − s of the operand, around the end) and two matrices stacked one on top of the other.
-/
import Idealize.ShloMosaic.Lib.Pipeline.Value
import Idealize.ShloMosaic.Lib.KernelVsHost
import Idealize.ShloMosaic.Lib.ValueIdx

noncomputable section

namespace Cert.LorentzConv.KOps

open Idealize.ShloMosaic Idealize.ShloMosaic.ValueIdx

variable {α : Type}

/-- The rows of an [n, m] matrix rotated by `sb`: entry (r, c) of the result is entry (r', c) of the operand, where
    r' is r moved back by the amount, around the end. -/
theorem rotateRows_apply {n m : ℕ} (sb : BitVec 32) (x : (⟨2, ![n, m]⟩ : Shape).Idx → α)
    (h : (⟨2, ![n, m]⟩ : Shape).Rotates (0 : Fin 2) none) (r : Fin n) (c : Fin m) (r' : Fin n)
    (hr' : r'.val = (r.val + n - sb.toNat % n) % n) :
    dynamicRotate (0 : Fin 2) sb none x h (ix2 r c) = x (ix2 r' c) :=
  dynamicRotate_apply (0 : Fin 2) sb x h (ix2 r c) (ix2 r' c) (fun ax => by
    match ax with
    | ⟨0, _⟩ => exact hr'
    | ⟨1, _⟩ => rfl)

/-- [a, m] on top of [b, m]: a row above `a` is the upper matrix's. -/
theorem stackRows_upper {a b n m : ℕ} (x₁ : (⟨2, ![a, m]⟩ : Shape).Idx → α) (x₂ : (⟨2, ![b, m]⟩ : Shape).Idx → α)
    (h : Shape.Concatenates [(⟨2, ![a, m]⟩ : Shape), ⟨2, ![b, m]⟩] ⟨2, ![n, m]⟩ (0 : Fin 2))
    (r : Fin n) (c : Fin m) (r' : Fin a) (hr : r'.val = r.val) :
    concatenate ⟨2, ![n, m]⟩ (0 : Fin 2) [⟨⟨2, ![a, m]⟩, x₁⟩, ⟨⟨2, ![b, m]⟩, x₂⟩] h (ix2 r c) = x₁ (ix2 r' c) :=
  concatenate_pair_apply_left (0 : Fin 2) x₁ x₂ h (ix2 r c) rfl (ix2 r' c) (fun ax => by
    match ax with
    | ⟨0, _⟩ => exact hr
    | ⟨1, _⟩ => rfl)

/-- [a, m] on top of [b, m]: a row from `a` on is the lower matrix's, `a` rows up. -/
theorem stackRows_lower {a b n m : ℕ} (x₁ : (⟨2, ![a, m]⟩ : Shape).Idx → α) (x₂ : (⟨2, ![b, m]⟩ : Shape).Idx → α)
    (h : Shape.Concatenates [(⟨2, ![a, m]⟩ : Shape), ⟨2, ![b, m]⟩] ⟨2, ![n, m]⟩ (0 : Fin 2))
    (r : Fin n) (c : Fin m) (r' : Fin b) (hr : r'.val + a = r.val) :
    concatenate ⟨2, ![n, m]⟩ (0 : Fin 2) [⟨⟨2, ![a, m]⟩, x₁⟩, ⟨⟨2, ![b, m]⟩, x₂⟩] h (ix2 r c) = x₂ (ix2 r' c) :=
  concatenate_pair_apply_right (0 : Fin 2) x₁ x₂ h (ix2 r c) rfl rfl (ix2 r' c) (fun ax hne => by
    match ax with
    | ⟨0, _⟩ => exact absurd rfl hne
    | ⟨1, _⟩ => rfl) (by show r'.val + a = r.val; exact hr)

end Cert.LorentzConv.KOps

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.KDot.lean ====
/-
  A matrix of n rows and 63 columns times a weight slab (loaded as [1, 63, 64], viewed as [63, 64]), into the zero
  accumulator, at entry (r, o): the sum over the 63 columns of the row's entries against the slab's column o.
-/
import proofs.«125665_j15917148799336_2_alg».proof.Proof.LibPlainDot
import Idealize.ShloMosaic.Lib.ValueLayout

noncomputable section

namespace Cert.LorentzConv.KOps

open Idealize.ShloMosaic Idealize.ShloMosaic.ValueIdx

theorem dotSlab_apply {n : ℕ} (D : DotDims ⟨2, ![n, 63]⟩ ⟨2, ![63, 64]⟩ ⟨2, ![n, 64]⟩) (hD : D = DotDims.plain n 63 64)
    (prec : Option ContractPrecision) (A : FVec Ideal ⟨2, ![n, 63]⟩ .f32) (v : FVec Ideal ⟨3, ![1, 63, 64]⟩ .f32)
    (h : (⟨3, ![1, 63, 64]⟩ : Shape).ShapeCasts ⟨2, ![63, 64]⟩) (r : Fin n) (o : Fin 64) :
    matmul D prec A (shapeCast ⟨2, ![63, 64]⟩ v h) (constant (F := Ideal) ⟨2, ![n, 64]⟩ .f32 0x00000000#32) (ix2 r o)
      = ∑ c : Fin 63, A (ix2 r c) * v (ix3 (0 : Fin 1) c o) := by
  refine (Cert.PlainDot.matmul_zero_apply D hD prec A (shapeCast ⟨2, ![63, 64]⟩ v h) r o).trans ?_
  exact Finset.sum_congr rfl fun c _ => by rw [shapeCast_1ab_ab_apply]

end Cert.LorentzConv.KOps

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.KBulk.lean ====
/-
  The body's bulk pass read at an entry. The block of the input is [1, 8192, 64]: row r is a point, lane 0 its time
  coordinate, lanes 1 … 63 its space coordinates. The bulk pass rotates the clamped time column and the space
  columns by 2, 1, 0, −1, −2 rows, so at row r it sees rows r−2, r−1, r, r+1, r+2 (around the ends), and feeds them to
  the linear layer one at a time. Stated here for ANY five rows that are those rotations of r.
-/
import proofs.«125665_j15917148799336_2_alg».proof.Proof.Gen.KernelIdeal.Skeleton
import proofs.«125665_j15917148799336_2_alg».proof.Proof.ConvBlock
import proofs.«125665_j15917148799336_2_alg».proof.Proof.KOps
import proofs.«125665_j15917148799336_2_alg».proof.Proof.KDot
import proofs.«125665_j15917148799336_2_alg».proof.Proof.LibRowOps
import Idealize.ShloMosaic.Lib.ValueLayout

noncomputable section

namespace Cert.KernelIdeal.KV

open Cert.KernelIdeal Cert.KernelIdeal.Gen Idealize.ShloMosaic Idealize.ShloMosaic.ValueIdx Cert.LorentzConv

/-- The clamped time coordinate of row `r` of an input block. -/
def tcol (v0 : Vec Ideal S1x8192x64 .f32) (r : Fin 8192) : EReal :=
  max (v0 (ix3 (0 : Fin 1) r (0 : Fin 64))) (Ideal.ofBits .f32 0x3F800000#32)

/-- Space coordinate `c` of row `r` of an input block. -/
def scol (v0 : Vec Ideal S1x8192x64 .f32) (r : Fin 8192) (c : Fin 63) : EReal :=
  v0 (ix3 (0 : Fin 1) r (⟨c.val + 1, by omega⟩ : Fin 64))

/-- A weight slab, a row of the weight column or of the bias, as loaded. -/
def slab (v : Vec Ideal S1x63x64 .f32) (c : Fin 63) (o : Fin 64) : EReal := v (ix3 (0 : Fin 1) c o)
def row1 (v : Vec Ideal S1x64 .f32) (o : Fin 64) : EReal := v (ix2 (0 : Fin 1) o)

/-- Rotating the 8192 rows by the amount `s` brings row `a` to row `r`. -/
def RotTo (s : BitVec 32) (r a : Fin 8192) : Prop := a.val = (r.val + 8192 - s.toNat % 8192) % 8192

/-- The square root of a vector, at an entry. -/
theorem sqrt_apply {s : Shape} {φ : FTy} (a : FVec Ideal s φ) (i : s.Idx) : sqrt a i = Ideal.sqrt (a i) := rfl

theorem pay4_apply (v0 : Vec Ideal S1x8192x64 .f32) (r : Fin 8192) (c : Fin 64) :
    k0_pay4 (F := Ideal) v0 (ix2 r c) = v0 (ix3 (0 : Fin 1) r c) := by
  unfold k0_pay4
  exact shapeCast_1ab_ab_apply v0 _ r c

theorem pay5_apply (v0 : Vec Ideal S1x8192x64 .f32) (r : Fin 8192) :
    k0_pay5 (F := Ideal) v0 (ix2 r (0 : Fin 1)) = tcol v0 r := by
  unfold k0_pay5 tcol
  rw [maximumf_apply, broadcast_apply, slice2_axis1_apply 0 _ _ r (0 : Fin 1) (0 : Fin 64) rfl, pay4_apply]
  rfl

theorem pay6_apply (v0 : Vec Ideal S1x8192x64 .f32) (r : Fin 8192) (c : Fin 63) :
    k0_pay6 (F := Ideal) v0 (ix2 r c) = scol v0 r c := by
  unfold k0_pay6 scol
  rw [slice2_axis1_apply 1 _ _ r c (⟨c.val + 1, by omega⟩ : Fin 64) (by show c.val + 1 = 1 + c.val; omega), pay4_apply]

/-- The clamped time column rotated: row `r` of the result is the clamped time of row `a`. -/
theorem rotT (v0 : Vec Ideal S1x8192x64 .f32) (s : BitVec 32) (h : S8192x1.Rotates (0 : Fin 2) none) (r a : Fin 8192)
    (ha : RotTo s r a) :
    dynamicRotate (0 : Fin 2) s none (k0_pay5 (F := Ideal) v0) h (ix2 r (0 : Fin 1)) = tcol v0 a := by
  rw [KOps.rotateRows_apply s _ h r (0 : Fin 1) a ha, pay5_apply]

/-- The space columns rotated: row `r` of the result holds the space coordinates of row `a`. -/
theorem rotS (v0 : Vec Ideal S1x8192x64 .f32) (s : BitVec 32) (h : S8192x63.Rotates (0 : Fin 2) none) (r a : Fin 8192)
    (ha : RotTo s r a) (c : Fin 63) :
    dynamicRotate (0 : Fin 2) s none (k0_pay6 (F := Ideal) v0) h (ix2 r c) = scol v0 a c := by
  rw [KOps.rotateRows_apply s _ h r c a ha, pay6_apply]

theorem pay8_apply (v0 : Vec Ideal S1x8192x64 .f32) (r d : Fin 8192) (c : Fin 63) (hd : RotTo 8191#32 r d) :
    k0_pay8 (F := Ideal) v0 (ix2 r c) = scol v0 d c := by
  unfold k0_pay8
  exact rotS v0 _ _ r d hd c

/-- The first four squared time coordinates, added from a zero. -/
theorem pay9_apply (v0 : Vec Ideal S1x8192x64 .f32) (r a b d : Fin 8192)
    (ha : RotTo 2#32 r a) (hb : RotTo 1#32 r b) (hd : RotTo 8191#32 r d) :
    k0_pay9 (F := Ideal) v0 (ix2 r (0 : Fin 1))
      = (((Ideal.ofBits .f32 0x00000000#32 + tcol v0 a * tcol v0 a) + tcol v0 b * tcol v0 b) + tcol v0 r * tcol v0 r)
          + tcol v0 d * tcol v0 d := by
  unfold k0_pay9
  dsimp only
  simp only [addf_apply, mulf_apply, broadcast_apply, rotT v0 _ _ r a ha, rotT v0 _ _ r b hb, rotT v0 _ _ r d hd, pay5_apply]
  rfl

/-- The first three window points through the linear layer, added from a zero. -/
theorem pay7_apply (v0 : Vec Ideal S1x8192x64 .f32) (w0 w1 w2 : Vec Ideal S1x63x64 .f32) (r a b : Fin 8192) (o : Fin 64)
    (ha : RotTo 2#32 r a) (hb : RotTo 1#32 r b) :
    k0_pay7 (F := Ideal) v0 w0 w1 w2 (ix2 r o)
      = ((Ideal.ofBits .f32 0x00000000#32 + ∑ c : Fin 63, scol v0 a c * slab w0 c o) + ∑ c : Fin 63, scol v0 b c * slab w1 c o)
          + ∑ c : Fin 63, scol v0 r c * slab w2 c o := by
  unfold k0_pay7
  dsimp only
  simp only [addf_apply, broadcast_apply, KOps.dotSlab_apply dot_S8192x63_S63x64_S8192x64_1_0_0_1_n_n rfl,
    rotS v0 _ _ r a ha, rotS v0 _ _ r b hb, pay6_apply]
  rfl

/-- The linear layer's outputs 1 … 63 at row `r`, from the partial sums of the first three window points, the
    fourth window point, the fifth (the columns rotated by 8190: row `e`), the first four squared times and the
    fifth's. -/
theorem pay10_apply (v4 : FVec Ideal S8192x1 .f32) (v5 : FVec Ideal S8192x63 .f32) (v29 : FVec Ideal S8192x64 .f32)
    (v31 : FVec Ideal S8192x63 .f32) (v33 : FVec Ideal S8192x1 .f32) (w3 w4 : Vec Ideal S1x63x64 .f32)
    (u bb : Vec Ideal S1x64 .f32) (r e : Fin 8192) (c : Fin 63) (he : RotTo 8190#32 r e) :
    k0_pay10 (F := Ideal) v4 v5 v29 v31 v33 w3 w4 u bb (ix2 r c)
      = ((((v29 (ix2 r (⟨c.val + 1, by omega⟩ : Fin 64)) + ∑ c' : Fin 63, v31 (ix2 r c') * slab w3 c' (⟨c.val + 1, by omega⟩ : Fin 64))
            + ∑ c' : Fin 63, v5 (ix2 e c') * slab w4 c' (⟨c.val + 1, by omega⟩ : Fin 64))
          + Ideal.sqrt ((v33 (ix2 r (0 : Fin 1)) + v4 (ix2 e (0 : Fin 1)) * v4 (ix2 e (0 : Fin 1))) - Ideal.ofBits .f32 0x40800000#32)
              * row1 u (⟨c.val + 1, by omega⟩ : Fin 64))
        + row1 bb (⟨c.val + 1, by omega⟩ : Fin 64)) := by
  unfold k0_pay10
  dsimp only
  rw [slice2_axis1_apply 1 _ _ r c (⟨c.val + 1, by omega⟩ : Fin 64) (by show c.val + 1 = 1 + c.val; omega)]
  simp only [addf_apply, mulf_apply, subf_apply, sqrt_apply, broadcast_apply, shapeCast_self,
    KOps.dotSlab_apply dot_S8192x63_S63x64_S8192x64_1_0_0_1_n_n rfl,
    RowOps.broadcastTo_a1_ab_apply, broadcastTo_1b_ab_apply,
    fun c' : Fin 63 => KOps.rotateRows_apply 8190#32 v5 rotates_S8192x63_d0 r c' e he,
    KOps.rotateRows_apply 8190#32 v4 rotates_S8192x1_d0 r (0 : Fin 1) e he]
  rfl

/-- The recomputed time coordinate at row `r`: the square root of the row's squared outputs 1 … 63 plus 1. -/
theorem pay11_apply (v4 : FVec Ideal S8192x1 .f32) (v5 : FVec Ideal S8192x63 .f32) (v29 : FVec Ideal S8192x64 .f32)
    (v31 : FVec Ideal S8192x63 .f32) (v33 : FVec Ideal S8192x1 .f32) (w3 w4 : Vec Ideal S1x63x64 .f32)
    (u bb : Vec Ideal S1x64 .f32) (r : Fin 8192) :
    k0_pay11 (F := Ideal) v4 v5 v29 v31 v33 w3 w4 u bb (ix3 (0 : Fin 1) r (0 : Fin 1))
      = Ideal.sqrt ((∑ c : Fin 63, k0_pay10 (F := Ideal) v4 v5 v29 v31 v33 w3 w4 u bb (ix2 r c)
            * k0_pay10 (F := Ideal) v4 v5 v29 v31 v33 w3 w4 u bb (ix2 r c)) + Ideal.ofBits .f32 0x3F800000#32) := by
  unfold k0_pay11
  dsimp only
  rw [shapeCast_ab_1ab_apply]
  show Ideal.sqrt (_ + _) = _
  rw [RowOps.shapeCast_a_a1_apply]
  refine congrArg (fun z => Ideal.sqrt (z + _)) ?_
  refine (RowOps.rowSum_apply _ _ _ _ _ r).trans ?_
  rfl

theorem pay12_apply (v59 : FVec Ideal S8192x63 .f32) (r : Fin 8192) (c : Fin 63) :
    k0_pay12 (F := Ideal) v59 (ix3 (0 : Fin 1) r c) = v59 (ix2 r c) := by
  unfold k0_pay12
  exact shapeCast_ab_1ab_apply v59 _ (0 : Fin 1) r c

/-! ## The bulk pass as the linear layer of five rows -/

section Bulk
variable (v0 : Vec Ideal S1x8192x64 .f32) (wv : Fin 5 → Vec Ideal S1x63x64 .f32) (u bb : Vec Ideal S1x64 .f32)

/-- The window the bulk pass sees at a row: the five rows `rows k`. -/
def bulkT (rows : Fin 5 → Fin 8192) : Fin 5 → EReal := fun k => tcol v0 (rows k)
def bulkS (rows : Fin 5 → Fin 8192) : Fin 5 → Fin 63 → EReal := fun k c => scol v0 (rows k) c

/-- Output `c + 1` of the linear layer at row `r`, where `rows` are the five rotations of `r`. -/
theorem bulk_space (r : Fin 8192) (rows : Fin 5 → Fin 8192) (h0 : RotTo 2#32 r (rows 0)) (h1 : RotTo 1#32 r (rows 1))
    (h2 : rows 2 = r) (h3 : RotTo 8191#32 r (rows 3)) (h4 : RotTo 8190#32 r (rows 4)) (c : Fin 63) :
    k0_pay10 (F := Ideal) (k0_pay5 v0) (k0_pay6 v0) (k0_pay7 v0 (wv 0) (wv 1) (wv 2)) (k0_pay8 v0) (k0_pay9 v0) (wv 3) (wv 4) u bb
        (ix2 r c)
      = convY (bulkT v0 rows) (bulkS v0 rows) (fun k => slab (wv k)) (row1 u) (row1 bb) (⟨c.val + 1, by omega⟩ : Fin 64) := by
  rw [pay10_apply _ _ _ _ _ _ _ _ _ r (rows 4) c h4, pay7_apply v0 _ _ _ r (rows 0) (rows 1) _ h0 h1,
    pay9_apply v0 r (rows 0) (rows 1) (rows 3) h0 h1 h3, pay5_apply]
  simp only [pay8_apply v0 r (rows 3) _ h3, pay6_apply]
  unfold convY bulkT bulkS
  rw [h2]

end Bulk

end Cert.KernelIdeal.KV

end
-- ==== Proof.KTop.lean ====
/-
  The body's fix-up of the first two rows, read at an entry. The bulk pass takes the rows before row 0 from the end
  of the block; the fix-up recomputes output rows 0 and 1 on a six-row segment — two padding rows (time coordinate 1,
  space coordinates 0) on top of the block's rows 0 … 3 — so that window point k of output row r' is segment row
  k + r'. It feeds the five window points to the linear layer one at a time, as the bulk pass does.
-/
import proofs.«125665_j15917148799336_2_alg».proof.Proof.KBulk

noncomputable section

namespace Cert.KernelIdeal.KV

open Cert.KernelIdeal Cert.KernelIdeal.Gen Idealize.ShloMosaic Idealize.ShloMosaic.ValueIdx Cert.LorentzConv

/-- Segment row `k + r'`: window point `k` of output row `r'`. -/
def topRow (r' : Fin 2) (k : Fin 5) : Fin 6 := ⟨k.val + r'.val, by omega⟩

/-! ## The six-row segment: two padding rows on top of rows 0 … 3 -/

/-- A padding row of the time segment holds 1. -/
theorem pay15_pad (v4 : FVec Ideal S8192x1 .f32) (j : Fin 6) (hj : j.val < 2) :
    k0_pay15 (F := Ideal) v4 (ix2 j (0 : Fin 1)) = Ideal.ofBits .f32 0x3F800000#32 := by
  unfold k0_pay15
  refine (KOps.stackRows_upper _ _ _ j (0 : Fin 1) (⟨j.val, hj⟩ : Fin 2) rfl).trans ?_
  rfl

/-- Below the padding, segment row `j` of the time segment is row `j − 2` of the column. -/
theorem pay15_row (v4 : FVec Ideal S8192x1 .f32) (j : Fin 6) (a : Fin 8192) (ha : a.val + 2 = j.val) :
    k0_pay15 (F := Ideal) v4 (ix2 j (0 : Fin 1)) = v4 (ix2 a (0 : Fin 1)) := by
  unfold k0_pay15
  refine (KOps.stackRows_lower _ _ _ j (0 : Fin 1) (⟨a.val, by omega⟩ : Fin 4) ha).trans ?_
  exact slice2_axis0_apply 0 v4 _ (⟨a.val, by omega⟩ : Fin 4) (0 : Fin 1) a (Nat.zero_add _).symm

/-- A padding row of the space segment holds 0. -/
theorem pay16_pad (v5 : FVec Ideal S8192x63 .f32) (j : Fin 6) (hj : j.val < 2) (c : Fin 63) :
    k0_pay16 (F := Ideal) v5 (ix2 j c) = Ideal.ofBits .f32 0x00000000#32 := by
  unfold k0_pay16
  refine (KOps.stackRows_upper _ _ _ j c (⟨j.val, hj⟩ : Fin 2) rfl).trans ?_
  rfl

/-- Below the padding, segment row `j` of the space segment is row `j − 2` of the columns. -/
theorem pay16_row (v5 : FVec Ideal S8192x63 .f32) (j : Fin 6) (a : Fin 8192) (ha : a.val + 2 = j.val) (c : Fin 63) :
    k0_pay16 (F := Ideal) v5 (ix2 j c) = v5 (ix2 a c) := by
  unfold k0_pay16
  refine (KOps.stackRows_lower _ _ _ j c (⟨a.val, by omega⟩ : Fin 4) ha).trans ?_
  exact slice2_axis0_apply 0 v5 _ (⟨a.val, by omega⟩ : Fin 4) c a (Nat.zero_add _).symm

/-! ## The pieces of the linear layer on the segment -/

/-- The first four squared time coordinates of output row `r'`, added from a zero. -/
theorem pay19_apply (v4 : FVec Ideal S8192x1 .f32) (r' : Fin 2) :
    k0_pay19 (F := Ideal) v4 (ix2 r' (0 : Fin 1))
      = (((Ideal.ofBits .f32 0x00000000#32
              + k0_pay15 (F := Ideal) v4 (ix2 (topRow r' 0) (0 : Fin 1)) * k0_pay15 (F := Ideal) v4 (ix2 (topRow r' 0) (0 : Fin 1)))
            + k0_pay15 (F := Ideal) v4 (ix2 (topRow r' 1) (0 : Fin 1)) * k0_pay15 (F := Ideal) v4 (ix2 (topRow r' 1) (0 : Fin 1)))
          + k0_pay15 (F := Ideal) v4 (ix2 (topRow r' 2) (0 : Fin 1)) * k0_pay15 (F := Ideal) v4 (ix2 (topRow r' 2) (0 : Fin 1)))
        + k0_pay15 (F := Ideal) v4 (ix2 (topRow r' 3) (0 : Fin 1)) * k0_pay15 (F := Ideal) v4 (ix2 (topRow r' 3) (0 : Fin 1)) := by
  unfold k0_pay19
  simp only [addf_apply, mulf_apply, broadcast_apply,
    slice2_axis0_apply 0 _ _ r' (0 : Fin 1) (topRow r' 0) rfl, slice2_axis0_apply 1 _ _ r' (0 : Fin 1) (topRow r' 1) rfl,
    slice2_axis0_apply 2 _ _ r' (0 : Fin 1) (topRow r' 2) rfl, slice2_axis0_apply 3 _ _ r' (0 : Fin 1) (topRow r' 3) rfl]
  rfl

/-- The first three window points of output row `r'` through the linear layer, added from a zero. -/
theorem pay17_apply (v5 : FVec Ideal S8192x63 .f32) (w0 w1 w2 : Vec Ideal S1x63x64 .f32) (r' : Fin 2) (o : Fin 64) :
    k0_pay17 (F := Ideal) v5 w0 w1 w2 (ix2 r' o)
      = ((Ideal.ofBits .f32 0x00000000#32 + ∑ c : Fin 63, k0_pay16 (F := Ideal) v5 (ix2 (topRow r' 0) c) * slab w0 c o)
            + ∑ c : Fin 63, k0_pay16 (F := Ideal) v5 (ix2 (topRow r' 1) c) * slab w1 c o)
          + ∑ c : Fin 63, k0_pay16 (F := Ideal) v5 (ix2 (topRow r' 2) c) * slab w2 c o := by
  unfold k0_pay17
  simp only [addf_apply, broadcast_apply, KOps.dotSlab_apply dot_S2x63_S63x64_S2x64_1_0_0_1_n_n rfl,
    fun c : Fin 63 => slice2_axis0_apply 0 (k0_pay16 (F := Ideal) v5) slices_S6x63_o0_0_S2x63 r' c (topRow r' 0) rfl,
    fun c : Fin 63 => slice2_axis0_apply 1 (k0_pay16 (F := Ideal) v5) slices_S6x63_o1_0_S2x63 r' c (topRow r' 1) rfl,
    fun c : Fin 63 => slice2_axis0_apply 2 (k0_pay16 (F := Ideal) v5) slices_S6x63_o2_0_S2x63 r' c (topRow r' 2) rfl]
  rfl

/-- The fourth window point of output row `r'`. -/
theorem pay18_apply (v5 : FVec Ideal S8192x63 .f32) (r' : Fin 2) (c : Fin 63) :
    k0_pay18 (F := Ideal) v5 (ix2 r' c) = k0_pay16 (F := Ideal) v5 (ix2 (topRow r' 3) c) := by
  unfold k0_pay18
  exact slice2_axis0_apply 3 _ _ r' c (topRow r' 3) rfl

/-- The linear layer's outputs 1 … 63 at output row `r'`, from the partial sums of the first three window points,
    the fourth window point, the fifth (segment row `4 + r'`), the first four squared times and the fifth's. -/
theorem pay21_apply (v75 : FVec Ideal S6x1 .f32) (v77 : FVec Ideal S6x63 .f32) (v103 : FVec Ideal S2x64 .f32)
    (v105 : FVec Ideal S2x63 .f32) (v107 : FVec Ideal S2x1 .f32) (w3 w4 : Vec Ideal S1x63x64 .f32)
    (u bb : Vec Ideal S1x64 .f32) (r' : Fin 2) (c : Fin 63) :
    k0_pay21 (F := Ideal) v75 v77 v103 v105 v107 (k0_pay20 (F := Ideal) w3) (constant (F := Ideal) S2x64 .f32 0x00000000#32) w4 u bb (ix2 r' c)
      = ((((v103 (ix2 r' (⟨c.val + 1, by omega⟩ : Fin 64)) + ∑ c' : Fin 63, v105 (ix2 r' c') * slab w3 c' (⟨c.val + 1, by omega⟩ : Fin 64))
            + ∑ c' : Fin 63, v77 (ix2 (topRow r' 4) c') * slab w4 c' (⟨c.val + 1, by omega⟩ : Fin 64))
          + Ideal.sqrt ((v107 (ix2 r' (0 : Fin 1)) + v75 (ix2 (topRow r' 4) (0 : Fin 1)) * v75 (ix2 (topRow r' 4) (0 : Fin 1)))
                - Ideal.ofBits .f32 0x40800000#32)
              * row1 u (⟨c.val + 1, by omega⟩ : Fin 64))
        + row1 bb (⟨c.val + 1, by omega⟩ : Fin 64)) := by
  unfold k0_pay21 k0_pay20
  rw [slice2_axis1_apply 1 _ _ r' c (⟨c.val + 1, by omega⟩ : Fin 64) (by show c.val + 1 = 1 + c.val; omega)]
  simp only [addf_apply, mulf_apply, subf_apply, sqrt_apply, broadcast_apply, shapeCast_self,
    KOps.dotSlab_apply dot_S2x63_S63x64_S2x64_1_0_0_1_n_n rfl,
    RowOps.broadcastTo_a1_ab_apply, broadcastTo_1b_ab_apply,
    fun c' : Fin 63 => slice2_axis0_apply 4 v77 slices_S6x63_o4_0_S2x63 r' c' (topRow r' 4) rfl,
    slice2_axis0_apply 4 v75 slices_S6x1_o4_0_S2x1 r' (0 : Fin 1) (topRow r' 4) rfl]
  rfl

/-- The recomputed time coordinate at output row `r'`: the square root of the row's squared outputs 1 … 63 plus 1. -/
theorem pay22_apply (v75 : FVec Ideal S6x1 .f32) (v77 : FVec Ideal S6x63 .f32) (v103 : FVec Ideal S2x64 .f32)
    (v105 : FVec Ideal S2x63 .f32) (v107 : FVec Ideal S2x1 .f32) (v109 : FVec Ideal S63x64 .f32) (z : FVec Ideal S2x64 .f32)
    (w4 : Vec Ideal S1x63x64 .f32) (u bb : Vec Ideal S1x64 .f32) (r' : Fin 2) :
    k0_pay22 (F := Ideal) v75 v77 v103 v105 v107 v109 z w4 u bb (ix3 (0 : Fin 1) r' (0 : Fin 1))
      = Ideal.sqrt ((∑ c : Fin 63, k0_pay21 (F := Ideal) v75 v77 v103 v105 v107 v109 z w4 u bb (ix2 r' c)
            * k0_pay21 (F := Ideal) v75 v77 v103 v105 v107 v109 z w4 u bb (ix2 r' c)) + Ideal.ofBits .f32 0x3F800000#32) := by
  unfold k0_pay22
  rw [shapeCast_ab_1ab_apply]
  show Ideal.sqrt (_ + _) = _
  rw [RowOps.shapeCast_a_a1_apply]
  refine congrArg (fun y => Ideal.sqrt (y + _)) ?_
  refine (RowOps.rowSum_apply _ _ _ _ _ r').trans ?_
  rfl

theorem pay23_apply (v75 : FVec Ideal S6x1 .f32) (v77 : FVec Ideal S6x63 .f32) (v103 : FVec Ideal S2x64 .f32)
    (v105 : FVec Ideal S2x63 .f32) (v107 : FVec Ideal S2x1 .f32) (v109 : FVec Ideal S63x64 .f32) (z : FVec Ideal S2x64 .f32)
    (w4 : Vec Ideal S1x63x64 .f32) (u bb : Vec Ideal S1x64 .f32) (r' : Fin 2) (c : Fin 63) :
    k0_pay23 (F := Ideal) v75 v77 v103 v105 v107 v109 z w4 u bb (ix3 (0 : Fin 1) r' c)
      = k0_pay21 (F := Ideal) v75 v77 v103 v105 v107 v109 z w4 u bb (ix2 r' c) := by
  unfold k0_pay23
  exact shapeCast_ab_1ab_apply _ _ (0 : Fin 1) r' c

/-! ## The fix-up as the linear layer of five window points -/

section Top
variable (v0 : Vec Ideal S1x8192x64 .f32) (wv : Fin 5 → Vec Ideal S1x63x64 .f32) (u bb : Vec Ideal S1x64 .f32)

/-- The window of output row `r'` (0 or 1): window point `k` is a padding point while `k + r' < 2`, and the block's
    row `k + r' − 2` from there on. -/
def topT (r' : Fin 2) : Fin 5 → EReal := fun k =>
  if k.val + r'.val < 2 then Ideal.ofBits .f32 0x3F800000#32 else tcol v0 (⟨k.val + r'.val - 2, by omega⟩ : Fin 8192)
def topS (r' : Fin 2) : Fin 5 → Fin 63 → EReal := fun k c =>
  if k.val + r'.val < 2 then Ideal.ofBits .f32 0x00000000#32 else scol v0 (⟨k.val + r'.val - 2, by omega⟩ : Fin 8192) c

/-- The time segment over the clamped time column is the window's time coordinates. -/
theorem topSeg_time (r' : Fin 2) (k : Fin 5) :
    k0_pay15 (F := Ideal) (k0_pay5 (F := Ideal) v0) (ix2 (topRow r' k) (0 : Fin 1)) = topT v0 r' k := by
  unfold topT
  by_cases h : k.val + r'.val < 2
  · rw [if_pos h]
    exact pay15_pad _ _ h
  · rw [if_neg h, pay15_row _ (topRow r' k) (⟨k.val + r'.val - 2, by omega⟩ : Fin 8192)
      (by show k.val + r'.val - 2 + 2 = k.val + r'.val; omega), pay5_apply]

/-- The space segment over the space columns is the window's space coordinates. -/
theorem topSeg_space (r' : Fin 2) (k : Fin 5) (c : Fin 63) :
    k0_pay16 (F := Ideal) (k0_pay6 (F := Ideal) v0) (ix2 (topRow r' k) c) = topS v0 r' k c := by
  unfold topS
  by_cases h : k.val + r'.val < 2
  · rw [if_pos h]
    exact pay16_pad _ _ h c
  · rw [if_neg h, pay16_row _ (topRow r' k) (⟨k.val + r'.val - 2, by omega⟩ : Fin 8192)
      (by show k.val + r'.val - 2 + 2 = k.val + r'.val; omega) c, pay6_apply]

/-- Output `c + 1` of the linear layer at output row `r'` of the first fix-up. -/
theorem top_lin (r' : Fin 2) (c : Fin 63) :
    k0_pay21 (F := Ideal) (k0_pay15 (F := Ideal) (k0_pay5 (F := Ideal) v0)) (k0_pay16 (F := Ideal) (k0_pay6 (F := Ideal) v0))
        (k0_pay17 (F := Ideal) (k0_pay6 (F := Ideal) v0) (wv 0) (wv 1) (wv 2)) (k0_pay18 (F := Ideal) (k0_pay6 (F := Ideal) v0))
        (k0_pay19 (F := Ideal) (k0_pay5 (F := Ideal) v0)) (k0_pay20 (F := Ideal) (wv 3))
        (constant (F := Ideal) S2x64 .f32 0x00000000#32) (wv 4) u bb (ix2 r' c)
      = convY (topT v0 r') (topS v0 r') (fun k => slab (wv k)) (row1 u) (row1 bb) (⟨c.val + 1, by omega⟩ : Fin 64) := by
  rw [pay21_apply, pay17_apply, pay19_apply]
  simp only [pay18_apply, topSeg_time, topSeg_space]
  unfold convY
  rfl

/-- What the first fix-up stores into lanes 1 … 63 of rows 0 and 1. -/
theorem top_space (r' : Fin 2) (c : Fin 63) :
    k0_pay23 (F := Ideal) (k0_pay15 (F := Ideal) (k0_pay5 (F := Ideal) v0)) (k0_pay16 (F := Ideal) (k0_pay6 (F := Ideal) v0))
        (k0_pay17 (F := Ideal) (k0_pay6 (F := Ideal) v0) (wv 0) (wv 1) (wv 2)) (k0_pay18 (F := Ideal) (k0_pay6 (F := Ideal) v0))
        (k0_pay19 (F := Ideal) (k0_pay5 (F := Ideal) v0)) (k0_pay20 (F := Ideal) (wv 3))
        (constant (F := Ideal) S2x64 .f32 0x00000000#32) (wv 4) u bb (ix3 (0 : Fin 1) r' c)
      = convY (topT v0 r') (topS v0 r') (fun k => slab (wv k)) (row1 u) (row1 bb) (⟨c.val + 1, by omega⟩ : Fin 64) := by
  rw [pay23_apply, top_lin]

/-- What the first fix-up stores into lane 0 of rows 0 and 1. -/
theorem top_time (r' : Fin 2) :
    k0_pay22 (F := Ideal) (k0_pay15 (F := Ideal) (k0_pay5 (F := Ideal) v0)) (k0_pay16 (F := Ideal) (k0_pay6 (F := Ideal) v0))
        (k0_pay17 (F := Ideal) (k0_pay6 (F := Ideal) v0) (wv 0) (wv 1) (wv 2)) (k0_pay18 (F := Ideal) (k0_pay6 (F := Ideal) v0))
        (k0_pay19 (F := Ideal) (k0_pay5 (F := Ideal) v0)) (k0_pay20 (F := Ideal) (wv 3))
        (constant (F := Ideal) S2x64 .f32 0x00000000#32) (wv 4) u bb (ix3 (0 : Fin 1) r' (0 : Fin 1))
      = convT (fun o => convY (topT v0 r') (topS v0 r') (fun k => slab (wv k)) (row1 u) (row1 bb) o) := by
  rw [pay22_apply]
  simp only [top_lin]
  rfl

end Top

end Cert.KernelIdeal.KV

end
-- ==== Proof.KBot.lean ====
/-
  The body's fix-up of the last two rows, read at an entry. The bulk pass takes the rows after row 8191 from the
  start of the block; the fix-up recomputes output rows 8190 and 8191 on a six-row segment — the block's rows
  8188 … 8191 on top of two padding rows (time coordinate 1, space coordinates 0) — so that window point k of output
  row 8190 + r' is segment row k + r'. It feeds the five window points to the linear layer one at a time, as the bulk
  pass does.
-/
import proofs.«125665_j15917148799336_2_alg».proof.Proof.KBulk

noncomputable section

namespace Cert.KernelIdeal.KV

open Cert.KernelIdeal Cert.KernelIdeal.Gen Idealize.ShloMosaic Idealize.ShloMosaic.ValueIdx Cert.LorentzConv

/-- Segment row `k + r'`: window point `k` of output row `8190 + r'`. -/
def botRow (r' : Fin 2) (k : Fin 5) : Fin 6 := ⟨k.val + r'.val, by omega⟩

/-! ## The six-row segment: rows 8188 … 8191 on top of two padding rows -/

/-- Above the padding, segment row `j` of the time segment is row `8188 + j` of the column. -/
theorem pay24_row (v4 : FVec Ideal S8192x1 .f32) (p : FVec Ideal S2x1 .f32) (j : Fin 6) (a : Fin 8192)
    (hj : j.val < 4) (ha : a.val = 8188 + j.val) :
    k0_pay24 (F := Ideal) v4 p (ix2 j (0 : Fin 1)) = v4 (ix2 a (0 : Fin 1)) := by
  unfold k0_pay24
  refine (KOps.stackRows_upper _ _ _ j (0 : Fin 1) (⟨j.val, hj⟩ : Fin 4) rfl).trans ?_
  exact slice2_axis0_apply 8188 v4 _ (⟨j.val, hj⟩ : Fin 4) (0 : Fin 1) a ha

/-- The last two rows of the time segment are the padding rows. -/
theorem pay24_pad (v4 : FVec Ideal S8192x1 .f32) (p : FVec Ideal S2x1 .f32) (j : Fin 6) (i : Fin 2)
    (hi : i.val + 4 = j.val) :
    k0_pay24 (F := Ideal) v4 p (ix2 j (0 : Fin 1)) = p (ix2 i (0 : Fin 1)) := by
  unfold k0_pay24
  exact KOps.stackRows_lower _ _ _ j (0 : Fin 1) i hi

/-- Above the padding, segment row `j` of the space segment is row `8188 + j` of the columns. -/
theorem pay25_row (v5 : FVec Ideal S8192x63 .f32) (p : FVec Ideal S2x63 .f32) (j : Fin 6) (a : Fin 8192)
    (hj : j.val < 4) (ha : a.val = 8188 + j.val) (c : Fin 63) :
    k0_pay25 (F := Ideal) v5 p (ix2 j c) = v5 (ix2 a c) := by
  unfold k0_pay25
  refine (KOps.stackRows_upper _ _ _ j c (⟨j.val, hj⟩ : Fin 4) rfl).trans ?_
  exact slice2_axis0_apply 8188 v5 _ (⟨j.val, hj⟩ : Fin 4) c a ha

/-- The last two rows of the space segment are the padding rows. -/
theorem pay25_pad (v5 : FVec Ideal S8192x63 .f32) (p : FVec Ideal S2x63 .f32) (j : Fin 6) (i : Fin 2)
    (hi : i.val + 4 = j.val) (c : Fin 63) :
    k0_pay25 (F := Ideal) v5 p (ix2 j c) = p (ix2 i c) := by
  unfold k0_pay25
  exact KOps.stackRows_lower _ _ _ j c i hi

/-! ## The pieces of the linear layer on the segment -/

/-- The five squared time coordinates of output row `8190 + r'`, added from the scalar `z`. -/
theorem pay28_apply (v147 : FVec Ideal S6x1 .f32) (z : Ideal .f32) (r' : Fin 2) :
    k0_pay28 (F := Ideal) v147 z (ix2 r' (0 : Fin 1))
      = ((((z + v147 (ix2 (botRow r' 0) (0 : Fin 1)) * v147 (ix2 (botRow r' 0) (0 : Fin 1)))
              + v147 (ix2 (botRow r' 1) (0 : Fin 1)) * v147 (ix2 (botRow r' 1) (0 : Fin 1)))
            + v147 (ix2 (botRow r' 2) (0 : Fin 1)) * v147 (ix2 (botRow r' 2) (0 : Fin 1)))
          + v147 (ix2 (botRow r' 3) (0 : Fin 1)) * v147 (ix2 (botRow r' 3) (0 : Fin 1)))
        + v147 (ix2 (botRow r' 4) (0 : Fin 1)) * v147 (ix2 (botRow r' 4) (0 : Fin 1)) := by
  unfold k0_pay28
  simp only [addf_apply, mulf_apply, broadcast_apply,
    slice2_axis0_apply 0 v147 slices_S6x1_o0_0_S2x1 r' (0 : Fin 1) (botRow r' 0) rfl,
    slice2_axis0_apply 1 v147 slices_S6x1_o1_0_S2x1 r' (0 : Fin 1) (botRow r' 1) rfl,
    slice2_axis0_apply 2 v147 slices_S6x1_o2_0_S2x1 r' (0 : Fin 1) (botRow r' 2) rfl,
    slice2_axis0_apply 3 v147 slices_S6x1_o3_0_S2x1 r' (0 : Fin 1) (botRow r' 3) rfl,
    slice2_axis0_apply 4 v147 slices_S6x1_o4_0_S2x1 r' (0 : Fin 1) (botRow r' 4) rfl]

/-- The first four window points of output row `8190 + r'` through the linear layer, added from a zero. -/
theorem pay26_apply (v149 : FVec Ideal S6x63 .f32) (w0 w1 w2 w3 : Vec Ideal S1x63x64 .f32) (r' : Fin 2) (o : Fin 64) :
    k0_pay26 (F := Ideal) v149 w0 w1 w2 w3 (ix2 r' o)
      = (((Ideal.ofBits .f32 0x00000000#32 + ∑ c : Fin 63, v149 (ix2 (botRow r' 0) c) * slab w0 c o)
              + ∑ c : Fin 63, v149 (ix2 (botRow r' 1) c) * slab w1 c o)
            + ∑ c : Fin 63, v149 (ix2 (botRow r' 2) c) * slab w2 c o)
          + ∑ c : Fin 63, v149 (ix2 (botRow r' 3) c) * slab w3 c o := by
  unfold k0_pay26
  simp only [addf_apply, broadcast_apply, KOps.dotSlab_apply dot_S2x63_S63x64_S2x64_1_0_0_1_n_n rfl,
    fun c : Fin 63 => slice2_axis0_apply 0 v149 slices_S6x63_o0_0_S2x63 r' c (botRow r' 0) rfl,
    fun c : Fin 63 => slice2_axis0_apply 1 v149 slices_S6x63_o1_0_S2x63 r' c (botRow r' 1) rfl,
    fun c : Fin 63 => slice2_axis0_apply 2 v149 slices_S6x63_o2_0_S2x63 r' c (botRow r' 2) rfl,
    fun c : Fin 63 => slice2_axis0_apply 3 v149 slices_S6x63_o3_0_S2x63 r' c (botRow r' 3) rfl]
  rfl

/-- The fifth window point of output row `8190 + r'`. -/
theorem pay27_apply (v149 : FVec Ideal S6x63 .f32) (r' : Fin 2) (c : Fin 63) :
    k0_pay27 (F := Ideal) v149 (ix2 r' c) = v149 (ix2 (botRow r' 4) c) := by
  unfold k0_pay27
  exact slice2_axis0_apply 4 _ _ r' c (botRow r' 4) rfl

/-- The linear layer's outputs 1 … 63 at output row `8190 + r'`, from the partial sums of the first four window
    points, the fifth window point and the five squared times. -/
theorem pay1_apply (v183 : FVec Ideal S2x64 .f32) (v185 : FVec Ideal S2x63 .f32) (v187 : FVec Ideal S2x1 .f32)
    (w4 : Vec Ideal S1x63x64 .f32) (u bb : Vec Ideal S1x64 .f32) (r' : Fin 2) (c : Fin 63) :
    k0_pay1 (F := Ideal) v183 v185 v187 (k0_pay29 (F := Ideal) w4) u bb (ix2 r' c)
      = (((v183 (ix2 r' (⟨c.val + 1, by omega⟩ : Fin 64)) + ∑ c' : Fin 63, v185 (ix2 r' c') * slab w4 c' (⟨c.val + 1, by omega⟩ : Fin 64))
          + Ideal.sqrt (v187 (ix2 r' (0 : Fin 1)) - Ideal.ofBits .f32 0x40800000#32) * row1 u (⟨c.val + 1, by omega⟩ : Fin 64))
        + row1 bb (⟨c.val + 1, by omega⟩ : Fin 64)) := by
  unfold k0_pay1 k0_pay29
  rw [slice2_axis1_apply 1 _ _ r' c (⟨c.val + 1, by omega⟩ : Fin 64) (by show c.val + 1 = 1 + c.val; omega)]
  simp only [addf_apply, mulf_apply, subf_apply, sqrt_apply, broadcast_apply, shapeCast_self,
    KOps.dotSlab_apply dot_S2x63_S63x64_S2x64_1_0_0_1_n_n rfl,
    RowOps.broadcastTo_a1_ab_apply, broadcastTo_1b_ab_apply]
  rfl

/-- The recomputed time coordinate at output row `8190 + r'`: the square root of the row's squared outputs 1 … 63
    plus 1. -/
theorem pay2_apply (v183 : FVec Ideal S2x64 .f32) (v185 : FVec Ideal S2x63 .f32) (v187 : FVec Ideal S2x1 .f32)
    (v189 : FVec Ideal S63x64 .f32) (u bb : Vec Ideal S1x64 .f32) (r' : Fin 2) :
    k0_pay2 (F := Ideal) v183 v185 v187 v189 u bb (ix3 (0 : Fin 1) r' (0 : Fin 1))
      = Ideal.sqrt ((∑ c : Fin 63, k0_pay1 (F := Ideal) v183 v185 v187 v189 u bb (ix2 r' c)
            * k0_pay1 (F := Ideal) v183 v185 v187 v189 u bb (ix2 r' c)) + Ideal.ofBits .f32 0x3F800000#32) := by
  unfold k0_pay2
  rw [shapeCast_ab_1ab_apply]
  show Ideal.sqrt (_ + _) = _
  rw [RowOps.shapeCast_a_a1_apply]
  refine congrArg (fun y => Ideal.sqrt (y + _)) ?_
  refine (RowOps.rowSum_apply _ _ _ _ _ r').trans ?_
  rfl

theorem pay3_apply (v183 : FVec Ideal S2x64 .f32) (v185 : FVec Ideal S2x63 .f32) (v187 : FVec Ideal S2x1 .f32)
    (v189 : FVec Ideal S63x64 .f32) (u bb : Vec Ideal S1x64 .f32) (r' : Fin 2) (c : Fin 63) :
    k0_pay3 (F := Ideal) v183 v185 v187 v189 u bb (ix3 (0 : Fin 1) r' c)
      = k0_pay1 (F := Ideal) v183 v185 v187 v189 u bb (ix2 r' c) := by
  unfold k0_pay3
  exact shapeCast_ab_1ab_apply _ _ (0 : Fin 1) r' c

/-! ## The fix-up as the linear layer of five window points -/

section Bot
variable (v0 : Vec Ideal S1x8192x64 .f32) (wv : Fin 5 → Vec Ideal S1x63x64 .f32) (u bb : Vec Ideal S1x64 .f32)

/-- The window of output row `8190 + r'` (`r'` 0 or 1): window point `k` is the block's row `8188 + k + r'` while
    `k + r' < 4`, and a padding point from there on. -/
def botT (r' : Fin 2) : Fin 5 → EReal := fun k =>
  if h : k.val + r'.val < 4 then tcol v0 (⟨8188 + k.val + r'.val, by omega⟩ : Fin 8192) else Ideal.ofBits .f32 0x3F800000#32
def botS (r' : Fin 2) : Fin 5 → Fin 63 → EReal := fun k c =>
  if h : k.val + r'.val < 4 then scol v0 (⟨8188 + k.val + r'.val, by omega⟩ : Fin 8192) c else Ideal.ofBits .f32 0x00000000#32

/-- The time segment over the clamped time column and the padding rows is the window's time coordinates. -/
theorem botSeg_time (r' : Fin 2) (k : Fin 5) :
    k0_pay24 (F := Ideal) (k0_pay5 (F := Ideal) v0) (k0_pay13 (F := Ideal)) (ix2 (botRow r' k) (0 : Fin 1)) = botT v0 r' k := by
  unfold botT
  by_cases h : k.val + r'.val < 4
  · rw [dif_pos h, pay24_row _ _ (botRow r' k) (⟨8188 + k.val + r'.val, by omega⟩ : Fin 8192) h
      (by show 8188 + k.val + r'.val = 8188 + (k.val + r'.val); omega), pay5_apply]
  · rw [dif_neg h, pay24_pad _ _ (botRow r' k) (⟨k.val + r'.val - 4, by omega⟩ : Fin 2)
      (by show k.val + r'.val - 4 + 4 = k.val + r'.val; omega)]
    rfl

/-- The space segment over the space columns and the padding rows is the window's space coordinates. -/
theorem botSeg_space (r' : Fin 2) (k : Fin 5) (c : Fin 63) :
    k0_pay25 (F := Ideal) (k0_pay6 (F := Ideal) v0) (k0_pay14 (F := Ideal)) (ix2 (botRow r' k) c) = botS v0 r' k c := by
  unfold botS
  by_cases h : k.val + r'.val < 4
  · rw [dif_pos h, pay25_row _ _ (botRow r' k) (⟨8188 + k.val + r'.val, by omega⟩ : Fin 8192) h
      (by show 8188 + k.val + r'.val = 8188 + (k.val + r'.val); omega) c, pay6_apply]
  · rw [dif_neg h, pay25_pad _ _ (botRow r' k) (⟨k.val + r'.val - 4, by omega⟩ : Fin 2)
      (by show k.val + r'.val - 4 + 4 = k.val + r'.val; omega) c]
    rfl

/-- Output `c + 1` of the linear layer at output row `8190 + r'` of the second fix-up. -/
theorem bot_lin (r' : Fin 2) (c : Fin 63) :
    k0_pay1 (F := Ideal)
        (k0_pay26 (F := Ideal) (k0_pay25 (F := Ideal) (k0_pay6 (F := Ideal) v0) (k0_pay14 (F := Ideal))) (wv 0) (wv 1) (wv 2) (wv 3))
        (k0_pay27 (F := Ideal) (k0_pay25 (F := Ideal) (k0_pay6 (F := Ideal) v0) (k0_pay14 (F := Ideal))))
        (k0_pay28 (F := Ideal) (k0_pay24 (F := Ideal) (k0_pay5 (F := Ideal) v0) (k0_pay13 (F := Ideal))) (FloatOps.ofBits .f32 0x00000000#32))
        (k0_pay29 (F := Ideal) (wv 4)) u bb (ix2 r' c)
      = convY (botT v0 r') (botS v0 r') (fun k => slab (wv k)) (row1 u) (row1 bb) (⟨c.val + 1, by omega⟩ : Fin 64) := by
  rw [pay1_apply, pay26_apply, pay28_apply]
  simp only [pay27_apply, botSeg_time, botSeg_space]
  unfold convY
  rfl

/-- What the second fix-up stores into lanes 1 … 63 of rows 8190 and 8191. -/
theorem bot_space (r' : Fin 2) (c : Fin 63) :
    k0_pay3 (F := Ideal)
        (k0_pay26 (F := Ideal) (k0_pay25 (F := Ideal) (k0_pay6 (F := Ideal) v0) (k0_pay14 (F := Ideal))) (wv 0) (wv 1) (wv 2) (wv 3))
        (k0_pay27 (F := Ideal) (k0_pay25 (F := Ideal) (k0_pay6 (F := Ideal) v0) (k0_pay14 (F := Ideal))))
        (k0_pay28 (F := Ideal) (k0_pay24 (F := Ideal) (k0_pay5 (F := Ideal) v0) (k0_pay13 (F := Ideal))) (FloatOps.ofBits .f32 0x00000000#32))
        (k0_pay29 (F := Ideal) (wv 4)) u bb (ix3 (0 : Fin 1) r' c)
      = convY (botT v0 r') (botS v0 r') (fun k => slab (wv k)) (row1 u) (row1 bb) (⟨c.val + 1, by omega⟩ : Fin 64) := by
  rw [pay3_apply, bot_lin]

/-- What the second fix-up stores into lane 0 of rows 8190 and 8191. -/
theorem bot_time (r' : Fin 2) :
    k0_pay2 (F := Ideal)
        (k0_pay26 (F := Ideal) (k0_pay25 (F := Ideal) (k0_pay6 (F := Ideal) v0) (k0_pay14 (F := Ideal))) (wv 0) (wv 1) (wv 2) (wv 3))
        (k0_pay27 (F := Ideal) (k0_pay25 (F := Ideal) (k0_pay6 (F := Ideal) v0) (k0_pay14 (F := Ideal))))
        (k0_pay28 (F := Ideal) (k0_pay24 (F := Ideal) (k0_pay5 (F := Ideal) v0) (k0_pay13 (F := Ideal))) (FloatOps.ofBits .f32 0x00000000#32))
        (k0_pay29 (F := Ideal) (wv 4)) u bb (ix3 (0 : Fin 1) r' (0 : Fin 1))
      = convT (fun o => convY (botT v0 r') (botS v0 r') (fun k => slab (wv k)) (row1 u) (row1 bb) o) := by
  rw [pay2_apply]
  simp only [bot_lin]
  rfl

end Bot

end Cert.KernelIdeal.KV

end
-- ==== Proof.KWin.lean ====
/-
  The windows the body sees, as the specification's windows. A block of the points is one batch row: row q of the
  block is point q of the batch row, which is padded point q + 2. So the clamped time coordinate and the space
  coordinates of row q are the specification's at padded index q + 2, and the five rows the bulk pass sees at an
  interior row l (rows l − 2 … l + 2), the five segment rows the first fix-up sees at rows 0 and 1 (two padding
  points in front), and the five the second fix-up sees at rows 8190 and 8191 (two padding points behind) are each
  the specification's window l, l + 1, …, l + 4 of padded points.
-/
import proofs.«125665_j15917148799336_2_alg».proof.Proof.KBulk
import proofs.«125665_j15917148799336_2_alg».proof.Proof.KTop
import proofs.«125665_j15917148799336_2_alg».proof.Proof.KBot

noncomputable section

namespace Cert.KernelIdeal.KV

open Cert.KernelIdeal Cert.KernelIdeal.Gen Idealize.ShloMosaic Idealize.ShloMosaic.ValueIdx Cert.LorentzConv

/-! ## An interior row: the five rotations -/

/-- The five rows the bulk pass sees at an interior row `l`: rows `l − 2 … l + 2`. -/
def midRows (l : Fin 8192) (h2 : 2 ≤ l.val) (h3 : l.val < 8190) : Fin 5 → Fin 8192 :=
  fun k => ⟨l.val + k.val - 2, by omega⟩

theorem midRows_0 (l : Fin 8192) (h2 : 2 ≤ l.val) (h3 : l.val < 8190) : RotTo 2#32 l (midRows l h2 h3 0) := by
  show l.val + 0 - 2 = (l.val + 8192 - 2 % 8192) % 8192
  omega

theorem midRows_1 (l : Fin 8192) (h2 : 2 ≤ l.val) (h3 : l.val < 8190) : RotTo 1#32 l (midRows l h2 h3 1) := by
  show l.val + 1 - 2 = (l.val + 8192 - 1 % 8192) % 8192
  omega

theorem midRows_2 (l : Fin 8192) (h2 : 2 ≤ l.val) (h3 : l.val < 8190) : midRows l h2 h3 2 = l :=
  Fin.ext (by show l.val + 2 - 2 = l.val; omega)

theorem midRows_3 (l : Fin 8192) (h2 : 2 ≤ l.val) (h3 : l.val < 8190) : RotTo 8191#32 l (midRows l h2 h3 3) := by
  show l.val + 3 - 2 = (l.val + 8192 - 8191 % 8192) % 8192
  omega

theorem midRows_4 (l : Fin 8192) (h2 : 2 ≤ l.val) (h3 : l.val < 8190) : RotTo 8190#32 l (midRows l h2 h3 4) := by
  show l.val + 4 - 2 = (l.val + 8192 - 8190 % 8192) % 8192
  omega

section Win
variable (X : SX.Idx → EReal) (bt : Fin 16) (v0 : Vec Ideal S1x8192x64 .f32)

/-- A padded index outside the batch row is a padding point: time coordinate 1, space coordinates 0. -/
theorem tm_pad (j : ℕ) (hj : ¬(2 ≤ j ∧ j < 8194)) : tm X bt j = 1 := by
  unfold tm
  rw [dif_neg hj]

theorem sp_pad (j : ℕ) (hj : ¬(2 ≤ j ∧ j < 8194)) (c : Fin 63) : sp X bt j c = 0 := by
  unfold sp
  rw [dif_neg hj]

variable (hv : ∀ (r : Fin 8192) (l : Fin 64), v0 (ix3 (0 : Fin 1) r l) = X (ix3 bt r l))
include hv

/-! ## A row of the block is a padded point -/

/-- The clamped time coordinate of row `q` is the specification's at padded index `j = q + 2`. -/
theorem tcol_tm (q : Fin 8192) (j : ℕ) (hj : j = q.val + 2) : tcol v0 q = tm X bt j := by
  subst hj
  unfold tcol tm
  rw [dif_pos (show 2 ≤ q.val + 2 ∧ q.val + 2 < 8194 from ⟨by omega, by omega⟩), hv, ofBits_one]
  simp only [Nat.add_sub_cancel, Fin.eta]

/-- Space coordinate `c` of row `q` is the specification's at padded index `j = q + 2`. -/
theorem scol_sp (q : Fin 8192) (j : ℕ) (hj : j = q.val + 2) (c : Fin 63) : scol v0 q c = sp X bt j c := by
  subst hj
  unfold scol sp
  rw [dif_pos (show 2 ≤ q.val + 2 ∧ q.val + 2 < 8194 from ⟨by omega, by omega⟩), hv]
  simp only [Nat.add_sub_cancel, Fin.eta]

theorem tcol_eq (q : Fin 8192) : tcol v0 q = tm X bt (q.val + 2) := tcol_tm X bt v0 hv q _ rfl

theorem scol_eq (q : Fin 8192) (c : Fin 63) : scol v0 q c = sp X bt (q.val + 2) c := scol_sp X bt v0 hv q _ rfl c

/-! ## An interior row -/

/-- At an interior row the bulk pass's window is the specification's. -/
theorem mid_winT (l : Fin 8192) (h2 : 2 ≤ l.val) (h3 : l.val < 8190) :
    bulkT v0 (midRows l h2 h3) = winT X bt l := by
  funext k
  exact tcol_tm X bt v0 hv (midRows l h2 h3 k) (l.val + k.val) (by show l.val + k.val = l.val + k.val - 2 + 2; omega)

theorem mid_winS (l : Fin 8192) (h2 : 2 ≤ l.val) (h3 : l.val < 8190) :
    bulkS v0 (midRows l h2 h3) = winS X bt l := by
  funext k c
  exact scol_sp X bt v0 hv (midRows l h2 h3 k) (l.val + k.val) (by show l.val + k.val = l.val + k.val - 2 + 2; omega) c

/-! ## Rows 0 and 1: two padding points in front -/

theorem top_winT (r' : Fin 2) : topT v0 r' = winT X bt (⟨r'.val, by omega⟩ : Fin 8192) := by
  funext k
  show (if k.val + r'.val < 2 then Ideal.ofBits .f32 0x3F800000#32
      else tcol v0 (⟨k.val + r'.val - 2, by omega⟩ : Fin 8192)) = tm X bt (r'.val + k.val)
  by_cases h : k.val + r'.val < 2
  · rw [if_pos h, ofBits_one, tm_pad X bt _ (by omega)]
  · rw [if_neg h]
    exact tcol_tm X bt v0 hv _ _ (by show r'.val + k.val = k.val + r'.val - 2 + 2; omega)

theorem top_winS (r' : Fin 2) : topS v0 r' = winS X bt (⟨r'.val, by omega⟩ : Fin 8192) := by
  funext k c
  show (if k.val + r'.val < 2 then Ideal.ofBits .f32 0x00000000#32
      else scol v0 (⟨k.val + r'.val - 2, by omega⟩ : Fin 8192) c) = sp X bt (r'.val + k.val) c
  by_cases h : k.val + r'.val < 2
  · rw [if_pos h, Ideal.ofBits_zero_f32, sp_pad X bt _ (by omega)]
  · rw [if_neg h]
    exact scol_sp X bt v0 hv _ _ (by show r'.val + k.val = k.val + r'.val - 2 + 2; omega) c

/-! ## Rows 8190 and 8191: two padding points behind -/

theorem bot_winT (r' : Fin 2) : botT v0 r' = winT X bt (⟨8190 + r'.val, by omega⟩ : Fin 8192) := by
  funext k
  show (if h : k.val + r'.val < 4 then tcol v0 (⟨8188 + k.val + r'.val, by omega⟩ : Fin 8192)
      else Ideal.ofBits .f32 0x3F800000#32) = tm X bt (8190 + r'.val + k.val)
  by_cases h : k.val + r'.val < 4
  · rw [dif_pos h]
    exact tcol_tm X bt v0 hv _ _ (by show 8190 + r'.val + k.val = 8188 + k.val + r'.val + 2; omega)
  · rw [dif_neg h, ofBits_one, tm_pad X bt _ (by omega)]

theorem bot_winS (r' : Fin 2) : botS v0 r' = winS X bt (⟨8190 + r'.val, by omega⟩ : Fin 8192) := by
  funext k c
  show (if h : k.val + r'.val < 4 then scol v0 (⟨8188 + k.val + r'.val, by omega⟩ : Fin 8192) c
      else Ideal.ofBits .f32 0x00000000#32) = sp X bt (8190 + r'.val + k.val) c
  by_cases h : k.val + r'.val < 4
  · rw [dif_pos h]
    exact scol_sp X bt v0 hv _ _ (by show 8190 + r'.val + k.val = 8188 + k.val + r'.val + 2; omega) c
  · rw [dif_neg h, Ideal.ofBits_zero_f32, sp_pad X bt _ (by omega)]

end Win

end Cert.KernelIdeal.KV

end
-- ==== Proof.KBlock.lean ====
/-
  An entry of the output block is the specification's value there. The block's rows 0–1 come from the top fix-up,
  rows 8190–8191 from the bottom fix-up, the rest from the bulk pass; each is the linear layer applied to the five
  window points of its row, and in each case those are the specification's window points: inside the batch row the
  clamped time and the space coordinates of the block's rows l−2 … l+2, outside it the padding (time 1, space 0).
-/
import proofs.«125665_j15917148799336_2_alg».proof.Proof.KPieces
import proofs.«125665_j15917148799336_2_alg».proof.Proof.KWin

noncomputable section

namespace Cert.KernelIdeal.KV

open Cert.KernelIdeal Cert.KernelIdeal.Gen Idealize.ShloMosaic Idealize.ShloMosaic.ValueIdx Cert.LorentzConv

/-- The bulk pass's recomputed time at row `r`. -/
theorem bulk_time (v0 : Vec Ideal S1x8192x64 .f32) (wv : Fin 5 → Vec Ideal S1x63x64 .f32) (u bb : Vec Ideal S1x64 .f32)
    (r : Fin 8192) (rows : Fin 5 → Fin 8192) (h0 : RotTo 2#32 r (rows 0)) (h1 : RotTo 1#32 r (rows 1))
    (h2 : rows 2 = r) (h3 : RotTo 8191#32 r (rows 3)) (h4 : RotTo 8190#32 r (rows 4)) :
    k0_pay11 (F := Ideal) (k0_pay5 v0) (k0_pay6 v0) (k0_pay7 v0 (wv 0) (wv 1) (wv 2)) (k0_pay8 v0) (k0_pay9 v0) (wv 3) (wv 4) u bb
        (ix3 (0 : Fin 1) r (0 : Fin 1))
      = convT (fun o => convY (bulkT v0 rows) (bulkS v0 rows) (fun k => slab (wv k)) (row1 u) (row1 bb) o) := by
  rw [pay11_apply]
  unfold convT
  simp only [bulk_space v0 wv u bb r rows h0 h1 h2 h3 h4]

section
variable (x0 : Vec Ideal S1x8192x64 .f32) (x1 : Vec Ideal S1x64 .f32) (x2 : Vec Ideal S5x63x64 .f32) (x3 : Vec Ideal S1x64 .f32)
  (X : SX.Idx → EReal) (W : SW.Idx → EReal) (B : SB.Idx → EReal) (bt : Fin 16)
  (e0 : ∀ (r : Fin 8192) (l : Fin 64), x0 (ix3 (0 : Fin 1) r l) = X (ix3 bt r l))
  (e1 : ∀ o : Fin 64, x1 (ix2 (0 : Fin 1) o) = col0 W o)
  (e2 : ∀ (k : Fin 5) (cc : Fin 63) (o : Fin 64), x2 (ix3 k cc o) = slabs W k cc o)
  (e3 : ∀ o : Fin 64, x3 (ix2 (0 : Fin 1) o) = bias B o)

include e2 in
theorem slab_wv : (fun k : Fin 5 => slab (wv x2 k)) = slabs W :=
  funext fun k => funext fun c => funext fun o => e2 k c o

include e1 in
theorem row1_col0 : row1 x1 = col0 W := funext fun o => e1 o

include e3 in
theorem row1_bias : row1 x3 = bias B := funext fun o => e3 o

include e0 e1 e2 e3 in
/-- Lanes 1 … 63 of row `l`: the linear layer's output of that lane. -/
theorem stored_space (l : Fin 8192) (o : Fin 64) (c' : Fin 63) (ho : o.val = 1 + c'.val) :
    stored x0 x1 x2 x3 (ix3 (0 : Fin 1) l o) = ypre X W B bt l o := by
  have hoo : (⟨c'.val + 1, by omega⟩ : Fin 64) = o := Fin.ext (by show c'.val + 1 = o.val; omega)
  by_cases h2 : l.val < 2
  · have hl : (⟨(⟨l.val, h2⟩ : Fin 2).val, by omega⟩ : Fin 8192) = l := Fin.ext rfl
    rw [stored_top_space x0 x1 x2 x3 l o ⟨l.val, h2⟩ c' rfl ho]
    unfold stTopS
    rw [top_space x0 (wv x2) x1 x3 ⟨l.val, h2⟩ c', slab_wv x2 W e2, row1_col0 x1 W e1, row1_bias x3 B e3,
      top_winT X bt x0 e0 ⟨l.val, h2⟩, top_winS X bt x0 e0 ⟨l.val, h2⟩, hl, hoo]
    exact convY_eq_ypre X W B bt l o
  · by_cases h3 : l.val < 8190
    · rw [stored_mid_space x0 x1 x2 x3 l o c' (by omega) h3 ho]
      unfold stBulkS
      rw [pay12_apply, bulk_space x0 (wv x2) x1 x3 l (midRows l (by omega) h3) (midRows_0 l (by omega) h3)
        (midRows_1 l (by omega) h3) (midRows_2 l (by omega) h3) (midRows_3 l (by omega) h3) (midRows_4 l (by omega) h3) c',
        slab_wv x2 W e2, row1_col0 x1 W e1, row1_bias x3 B e3, mid_winT X bt x0 e0 l (by omega) h3,
        mid_winS X bt x0 e0 l (by omega) h3, hoo]
      exact convY_eq_ypre X W B bt l o
    · have hlt : l.val < 8192 := l.isLt
      have hr : l.val = 8190 + (⟨l.val - 8190, by omega⟩ : Fin 2).val := by show l.val = 8190 + (l.val - 8190); omega
      have hl : (⟨8190 + (⟨l.val - 8190, by omega⟩ : Fin 2).val, by show 8190 + (l.val - 8190) < 8192; omega⟩ : Fin 8192) = l :=
        Fin.ext (by show 8190 + (l.val - 8190) = l.val; omega)
      rw [stored_bot_space x0 x1 x2 x3 l o ⟨l.val - 8190, by omega⟩ c' hr ho]
      unfold stBotS
      rw [bot_space x0 (wv x2) x1 x3 ⟨l.val - 8190, by omega⟩ c', slab_wv x2 W e2, row1_col0 x1 W e1, row1_bias x3 B e3,
        bot_winT X bt x0 e0 ⟨l.val - 8190, by omega⟩, bot_winS X bt x0 e0 ⟨l.val - 8190, by omega⟩, hl, hoo]
      exact convY_eq_ypre X W B bt l o

include e0 e1 e2 e3 in
/-- Lane 0 of row `l`: the recomputed time coordinate. -/
theorem stored_time (l : Fin 8192) (o : Fin 64) (ho : o.val = 0) :
    stored x0 x1 x2 x3 (ix3 (0 : Fin 1) l o) = ytime X W B bt l := by
  by_cases h2 : l.val < 2
  · have hl : (⟨(⟨l.val, h2⟩ : Fin 2).val, by omega⟩ : Fin 8192) = l := Fin.ext rfl
    rw [stored_top_time x0 x1 x2 x3 l o ⟨l.val, h2⟩ rfl ho]
    unfold stTopT
    rw [top_time x0 (wv x2) x1 x3 ⟨l.val, h2⟩, slab_wv x2 W e2, row1_col0 x1 W e1, row1_bias x3 B e3,
      top_winT X bt x0 e0 ⟨l.val, h2⟩, top_winS X bt x0 e0 ⟨l.val, h2⟩, hl]
    exact convT_eq_ytime X W B bt l
  · by_cases h3 : l.val < 8190
    · rw [stored_mid_time x0 x1 x2 x3 l o (by omega) h3 ho]
      unfold stBulkT
      rw [bulk_time x0 (wv x2) x1 x3 l (midRows l (by omega) h3) (midRows_0 l (by omega) h3)
        (midRows_1 l (by omega) h3) (midRows_2 l (by omega) h3) (midRows_3 l (by omega) h3) (midRows_4 l (by omega) h3),
        slab_wv x2 W e2, row1_col0 x1 W e1, row1_bias x3 B e3, mid_winT X bt x0 e0 l (by omega) h3,
        mid_winS X bt x0 e0 l (by omega) h3]
      exact convT_eq_ytime X W B bt l
    · have hlt : l.val < 8192 := l.isLt
      have hr : l.val = 8190 + (⟨l.val - 8190, by omega⟩ : Fin 2).val := by show l.val = 8190 + (l.val - 8190); omega
      have hl : (⟨8190 + (⟨l.val - 8190, by omega⟩ : Fin 2).val, by show 8190 + (l.val - 8190) < 8192; omega⟩ : Fin 8192) = l :=
        Fin.ext (by show 8190 + (l.val - 8190) = l.val; omega)
      rw [stored_bot_time x0 x1 x2 x3 l o ⟨l.val - 8190, by omega⟩ hr ho]
      unfold stBotT
      rw [bot_time x0 (wv x2) x1 x3 ⟨l.val - 8190, by omega⟩, slab_wv x2 W e2, row1_col0 x1 W e1, row1_bias x3 B e3,
        bot_winT X bt x0 e0 ⟨l.val - 8190, by omega⟩, bot_winS X bt x0 e0 ⟨l.val - 8190, by omega⟩, hl]
      exact convT_eq_ytime X W B bt l

include e0 e1 e2 e3 in
/-- The block the body leaves is block `bt` of the specification. -/
theorem stored_eq_out (l : Fin 8192) (o : Fin 64) :
    stored x0 x1 x2 x3 (ix3 (0 : Fin 1) l o) = Cert.LorentzConv.out X W B (ix3 bt l o) := by
  unfold Cert.LorentzConv.out
  by_cases ho : o.val = 0
  · rw [if_pos (show ((ix3 bt l o : SX.Idx) 2).val = 0 from ho)]
    exact stored_time x0 x1 x2 x3 X W B bt e0 e1 e2 e3 l o ho
  · rw [if_neg (show ¬((ix3 bt l o : SX.Idx) 2).val = 0 from ho)]
    exact stored_space x0 x1 x2 x3 X W B bt e0 e1 e2 e3 l o ⟨o.val - 1, by have := o.isLt; omega⟩ (by show o.val = 1 + (o.val - 1); omega)

end

end Cert.KernelIdeal.KV

end
-- ==== Proof.KInputs.lean ====
/-
  The kernel's four input blocks at a grid point, as entries of the three argument arrays.

  The points [16, 8192, 64] are cut into 16 blocks of one batch row each, and grid point t takes block t: entry
  (0, r, l) of the block is entry (t, r, l) of the points. The other three windows take their whole array at every
  point, and each of those arrays is computed from the weights W [64, 316] or the bias b [64] before the grid starts:
  the weight column of the rescaled time is column 0 of W laid out as one row [1, 64]; the five weight slabs are
  columns 1 … 315 of W regrouped row-major as [64, 63, 5] (column 1 + 5·c + k sits at (o, c, k)) and then transposed
  to [5, 63, 64]; the bias is b laid out as one row [1, 64].
-/
import proofs.«125665_j15917148799336_2_alg».proof.Proof.Gen.KernelIdeal.Frame.Runs
import Idealize.ShloMosaic.Lib.StableHlo.Run
import Idealize.ShloMosaic.Lib.Pipeline.Value
import Idealize.ShloMosaic.Lib.ValueLayout

noncomputable section

namespace Cert.KernelIdeal.KIn

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The index maps over the 16 grid points -/

/-- The points' window is at block (t, 0, 0) at grid point t; the other three windows are at block 0 on every axis. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0 :=
  (by decide +kernel : ∀ t : Fin grid0.N, _)

/-- A grid point as a batch row. -/
theorem lt16 (t : Fin cfg0.N) : t.val < 16 := lt_of_lt_of_eq t.isLt N_0

/-! ## The three arrays computed before the grid starts, as terms of the weights and the bias -/

/-- The weight column of the rescaled time: column 0 of the weights, flattened, as one row. -/
theorem V_main_v2 (c : Dev nD) :
    (V m c main_v2 : S1x64.Idx → EReal)
      = shapeCast S1x64 (shapeCast S64 (extractStridedSlice S64x1 ![0, 0]
          (m ((c : Thread nD τ).loc main_arg1) : S64x316.Idx → EReal) Gen.slices_S64x316_S64x1_0_0)
          Gen.shapeCasts_S64x1_S64) Gen.shapeCasts_S64_S1x64 := by
  dsimp only [V, hostOps0]
  after_results
  rfl

/-- The five weight slabs: columns 1 … 315 of the weights, regrouped as [64, 63, 5], transposed to [5, 63, 64]. -/
theorem V_main_v5 (c : Dev nD) :
    (V m c main_v5 : S5x63x64.Idx → EReal)
      = transpose S5x63x64 [2, 1, 0] (shapeCast S64x63x5 (extractStridedSlice S64x315 ![0, 1]
          (m ((c : Thread nD τ).loc main_arg1) : S64x316.Idx → EReal) Gen.slices_S64x316_S64x315_0_1)
          Gen.shapeCasts_S64x315_S64x63x5) Gen.transposes_S64x63x5_S5x63x64_2_1_0 := by
  dsimp only [V, hostOps0]
  after_results
  rfl

/-- The bias as one row. -/
theorem V_main_v6 (c : Dev nD) :
    (V m c main_v6 : S1x64.Idx → EReal)
      = shapeCast S1x64 (m ((c : Thread nD τ).loc main_arg2) : S64.Idx → EReal) Gen.shapeCasts_S64_S1x64 := by
  dsimp only [V, hostOps0]
  after_results
  rfl

/-! ## The four blocks at a grid point, entry by entry -/

/-- Entry (0, r, l) of the points' block at grid point t is entry (t, r, l) of the points. -/
theorem iblk0_apply (c : Dev nD) (t : Fin cfg0.N) (r : Fin 8192) (l : Fin 64) (b : Fin 16) (hb : b.val = t.val) :
    (iblk m c 0 t : S1x8192x64.Idx → EReal) (ix3 (0 : Fin 1) r l)
      = (m ((c : Thread nD τ).loc main_arg0) : S16x8192x64.Idx → EReal) (ix3 b r l) := by
  obtain ⟨e0, e1, e2, -⟩ := index_facts t
  show (V m c main_arg0 : S16x8192x64.Idx → EReal) (((cfg0.win 0).blk t).view.emb (ix3 (0 : Fin 1) r l)) = _
  rw [V_main_arg0]
  refine congrArg (m ((c : Thread nD τ).loc main_arg0) : S16x8192x64.Idx → EReal) ?_
  funext a
  apply Fin.ext
  match a with
  | ⟨0, _⟩ => show win0_0.index t (0 : Fin 3) * 1 + 1 * 0 = b.val; omega
  | ⟨1, _⟩ => show win0_0.index t (1 : Fin 3) * 8192 + 1 * r.val = r.val; omega
  | ⟨2, _⟩ => show win0_0.index t (2 : Fin 3) * 64 + 1 * l.val = l.val; omega

/-- The same with the batch row written out. -/
theorem iblk0_eq (c : Dev nD) (t : Fin cfg0.N) (r : Fin 8192) (l : Fin 64) :
    (iblk m c 0 t : S1x8192x64.Idx → EReal) (ix3 (0 : Fin 1) r l)
      = (m ((c : Thread nD τ).loc main_arg0) : S16x8192x64.Idx → EReal) (ix3 (⟨t.val, lt16 t⟩ : Fin 16) r l) :=
  iblk0_apply m c t r l _ rfl

/-- Entry (0, o) of the weight column's block is weight (o, 0). -/
theorem iblk1_apply (c : Dev nD) (t : Fin cfg0.N) (o : Fin 64) :
    (iblk m c 1 t : S1x64.Idx → EReal) (ix2 (0 : Fin 1) o)
      = (m ((c : Thread nD τ).loc main_arg1) : S64x316.Idx → EReal) (ix2 o (0 : Fin 316)) := by
  obtain ⟨-, -, -, e0, e1, -⟩ := index_facts t
  have hemb : (((cfg0.win 1).blk t).view.emb (ix2 (0 : Fin 1) o) : S1x64.Idx) = ix2 (0 : Fin 1) o := by
    funext a
    apply Fin.ext
    match a with
    | ⟨0, _⟩ => show win0_1.index t (0 : Fin 2) * 1 + 1 * 0 = 0; omega
    | ⟨1, _⟩ => show win0_1.index t (1 : Fin 2) * 64 + 1 * o.val = o.val; omega
  show (V m c main_v2 : S1x64.Idx → EReal) (((cfg0.win 1).blk t).view.emb (ix2 (0 : Fin 1) o)) = _
  rw [hemb, V_main_v2]
  exact (shapeCast_a_1a_apply _ _ (0 : Fin 1) o).trans
    ((shapeCast_apply _ _ (ix1 o) (ix2 o (0 : Fin 1)) (by
        rw [Shape.rowMajor_val_two, Shape.rowMajor_val_one]
        show o.val * 1 + 0 = o.val
        omega)).trans
      (slice2_axis1_apply 0 _ _ o (0 : Fin 1) (0 : Fin 316) rfl))

/-- Entry (k, cc, o) of the weight slabs' block is weight (o, 1 + 5·cc + k). -/
theorem iblk2_apply (c : Dev nD) (t : Fin cfg0.N) (k : Fin 5) (cc : Fin 63) (o : Fin 64) (q : Fin 316)
    (hq : q.val = 1 + cc.val * 5 + k.val) :
    (iblk m c 2 t : S5x63x64.Idx → EReal) (ix3 k cc o)
      = (m ((c : Thread nD τ).loc main_arg1) : S64x316.Idx → EReal) (ix2 o q) := by
  obtain ⟨-, -, -, -, -, e0, e1, e2, -⟩ := index_facts t
  have hemb : (((cfg0.win 2).blk t).view.emb (ix3 k cc o) : S5x63x64.Idx) = ix3 k cc o := by
    funext a
    apply Fin.ext
    match a with
    | ⟨0, _⟩ => show win0_2.index t (0 : Fin 3) * 5 + 1 * k.val = k.val; omega
    | ⟨1, _⟩ => show win0_2.index t (1 : Fin 3) * 63 + 1 * cc.val = cc.val; omega
    | ⟨2, _⟩ => show win0_2.index t (2 : Fin 3) * 64 + 1 * o.val = o.val; omega
  show (V m c main_v5 : S5x63x64.Idx → EReal) (((cfg0.win 2).blk t).view.emb (ix3 k cc o)) = _
  rw [hemb, V_main_v5]
  exact (transpose_apply [2, 1, 0] _ _ (ix3 k cc o) (ix3 o cc k)
      (fun b => match b with | ⟨0, _⟩ => rfl | ⟨1, _⟩ => rfl | ⟨2, _⟩ => rfl)).trans
    ((shapeCast_apply _ _ (ix3 o cc k) (ix2 o (⟨cc.val * 5 + k.val, by omega⟩ : Fin 315)) (by
        rw [Shape.rowMajor_val_two, Shape.rowMajor_val_three]
        show o.val * 315 + (cc.val * 5 + k.val) = (o.val * 63 + cc.val) * 5 + k.val
        omega)).trans
      (slice2_axis1_apply 1 _ _ o (⟨cc.val * 5 + k.val, by omega⟩ : Fin 315) q (by
        show q.val = 1 + (cc.val * 5 + k.val)
        omega)))

/-- The same with the weight's column written out. -/
theorem iblk2_eq (c : Dev nD) (t : Fin cfg0.N) (k : Fin 5) (cc : Fin 63) (o : Fin 64) :
    (iblk m c 2 t : S5x63x64.Idx → EReal) (ix3 k cc o)
      = (m ((c : Thread nD τ).loc main_arg1) : S64x316.Idx → EReal)
          (ix2 o (⟨1 + cc.val * 5 + k.val, by omega⟩ : Fin 316)) :=
  iblk2_apply m c t k cc o _ rfl

/-- Entry (0, o) of the bias's block is bias o. -/
theorem iblk3_apply (c : Dev nD) (t : Fin cfg0.N) (o : Fin 64) :
    (iblk m c 3 t : S1x64.Idx → EReal) (ix2 (0 : Fin 1) o)
      = (m ((c : Thread nD τ).loc main_arg2) : S64.Idx → EReal) (ix1 o) := by
  obtain ⟨-, -, -, -, -, -, -, -, e0, e1⟩ := index_facts t
  have hemb : (((cfg0.win 3).blk t).view.emb (ix2 (0 : Fin 1) o) : S1x64.Idx) = ix2 (0 : Fin 1) o := by
    funext a
    apply Fin.ext
    match a with
    | ⟨0, _⟩ => show win0_3.index t (0 : Fin 2) * 1 + 1 * 0 = 0; omega
    | ⟨1, _⟩ => show win0_3.index t (1 : Fin 2) * 64 + 1 * o.val = o.val; omega
  show (V m c main_v6 : S1x64.Idx → EReal) (((cfg0.win 3).blk t).view.emb (ix2 (0 : Fin 1) o)) = _
  rw [hemb, V_main_v6]
  exact shapeCast_a_1a_apply _ _ (0 : Fin 1) o

end Cert.KernelIdeal.KIn

end
-- ==== Proof.KInputsSpec.lean ====
/-
  The kernel's four input blocks at a grid point, in the specification's words: the points' block is batch row t of
  the points x; the weight column's block is column 0 of the weights; the weight slabs' block is the weights'
  columns 1 + 5·c + k; the bias's block is the bias.
-/
import proofs.«125665_j15917148799336_2_alg».proof.Proof.KInputs
import proofs.«125665_j15917148799336_2_alg».proof.Proof.ConvBlock

noncomputable section

namespace Cert.KernelIdeal.KIn

open Cert.KernelIdeal Cert.KernelIdeal.Gen Idealize.ShloMosaic Idealize.ShloMosaic.TcCoe Idealize.SL.Sem
open Idealize.ShloMosaic.ValueIdx Cert.LorentzConv

variable (m : (ℓ : Loc nD τ sig) → Buf (Elt Ideal) ℓ)

/-- Entry (0, r, l) of the points' block at grid point t is entry (t, r, l) of the points. -/
theorem iblk0_x (c : Dev nD) (t : Fin cfg0.N) (r : Fin 8192) (l : Fin 64) :
    (iblk m c 0 t : S1x8192x64.Idx → EReal) (ix3 (0 : Fin 1) r l)
      = (m ((c : Thread nD τ).loc main_arg0) : SX.Idx → EReal) (ix3 (⟨t.val, lt16 t⟩ : Fin 16) r l) :=
  iblk0_eq m c t r l

/-- The weight column's block is the weights' column 0. -/
theorem iblk1_col0 (c : Dev nD) (t : Fin cfg0.N) (o : Fin 64) :
    (iblk m c 1 t : S1x64.Idx → EReal) (ix2 (0 : Fin 1) o)
      = col0 (m ((c : Thread nD τ).loc main_arg1) : SW.Idx → EReal) o :=
  iblk1_apply m c t o

/-- The weight slabs' block is the weights' columns 1 + 5·c + k. -/
theorem iblk2_slabs (c : Dev nD) (t : Fin cfg0.N) (k : Fin 5) (cc : Fin 63) (o : Fin 64) :
    (iblk m c 2 t : S5x63x64.Idx → EReal) (ix3 k cc o)
      = slabs (m ((c : Thread nD τ).loc main_arg1) : SW.Idx → EReal) k cc o :=
  iblk2_eq m c t k cc o

/-- The bias's block is the bias. -/
theorem iblk3_bias (c : Dev nD) (t : Fin cfg0.N) (o : Fin 64) :
    (iblk m c 3 t : S1x64.Idx → EReal) (ix2 (0 : Fin 1) o)
      = bias (m ((c : Thread nD τ).loc main_arg2) : SB.Idx → EReal) o :=
  iblk3_apply m c t o

end Cert.KernelIdeal.KIn

end
-- ==== Proof.KValue.lean ====
/-
  From blocks to the array. Grid point t writes block t of the result ([1, 8192, 64] of [16, 8192, 64]); what it
  writes is block t of the specification's function of the three argument arrays, and the sixteen blocks cover the
  result. So the result array after the run is that function.
-/
import proofs.«125665_j15917148799336_2_alg».proof.Proof.KBlock
import proofs.«125665_j15917148799336_2_alg».proof.Proof.KInputsSpec
import proofs.«125665_j15917148799336_2_alg».proof.Proof.KernelIdealFrameP
import Idealize.ShloMosaic.Lib.Pipeline.Value

noncomputable section

namespace Cert.KernelIdeal.KV

open Cert.KernelIdeal Cert.KernelIdeal.Gen Cert.KernelIdeal.GenP Cert.KernelIdeal.KIn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification at the launch memory's three argument arrays. -/
def G (c : Dev nD) : S16x8192x64.Idx → EReal :=
  Cert.LorentzConv.out (m ((c : Thread nD τ).loc main_arg0)) (m ((c : Thread nD τ).loc main_arg1)) (m ((c : Thread nD τ).loc main_arg2))

/-- What the body leaves at point `t` is block `t` of the specification. -/
theorem outsAt0_apply (c : Dev nD) (t : Fin cfg0.N) (l : Fin 8192) (o : Fin 64) :
    (outsAt0 m c t : S1x8192x64.Idx → EReal) (ix3 (0 : Fin 1) l o) = G m c (ix3 (⟨t.val, lt16 t⟩ : Fin 16) l o) := by
  unfold outsAt0
  rw [out_eq]
  exact stored_eq_out _ _ _ _ _ _ _ (⟨t.val, lt16 t⟩ : Fin 16) (iblk0_x m c t) (iblk1_col0 m c t) (iblk2_slabs m c t)
    (iblk3_bias m c t) l o

/-- The output window's index map: point `t` writes block (t, 0, 0). -/
theorem out_index_facts : ∀ t : Fin cfg0.N, win0_4.index t (0 : Fin 3) = t.val ∧ win0_4.index t (1 : Fin 3) = 0
    ∧ win0_4.index t (2 : Fin 3) = 0 :=
  (by decide +kernel : ∀ t : Fin grid0.N, _)

/-- What point `t` writes back is block `t` of the specification. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  funext j
  obtain ⟨a, l, o, rfl⟩ : ∃ (a : Fin 1) (l : Fin 8192) (o : Fin 64), j = ix3 a l o := ⟨j 0, j 1, j 2, eq_ix3 j⟩
  obtain rfl : a = 0 := Subsingleton.elim _ _
  show (outsAt0 m c t : S1x8192x64.Idx → EReal) (ix3 (0 : Fin 1) l o) = G m c (((cfg0.win 4).blk t).view.emb (ix3 (0 : Fin 1) l o))
  rw [outsAt0_apply]
  obtain ⟨i0, i1, i2⟩ := out_index_facts t
  refine congrArg (G m c) (funext fun ax => Fin.ext ?_)
  match ax with
  | ⟨0, _⟩ => show t.val = win0_4.index t (0 : Fin 3) * 1 + 1 * 0; omega
  | ⟨1, _⟩ => show l.val = win0_4.index t (1 : Fin 3) * 8192 + 1 * l.val; omega
  | ⟨2, _⟩ => show o.val = win0_4.index t (2 : Fin 3) * 64 + 1 * o.val; omega

/-- An index of the result is in point `t`'s block iff each coordinate is in the block's range on its axis. -/
theorem mem_blk (t : Fin cfg0.N) (i : S16x8192x64.Idx) :
    i ∈ ((cfg0.win 4).blk t).view.set ↔ ∀ a : Fin 3, win0_4.index t a * S1x8192x64.size a ≤ (i a).val
      ∧ (i a).val < win0_4.index t a * S1x8192x64.size a + S1x8192x64.size a := by
  show i ∈ ((View.whole main_v7).slice (win0_4.rect t)).set ↔ _
  rw [View.set_slice_whole, Rect.mem_set_unit]
  exact Iff.rfl

/-- Every index of the result lies in the block of the point named by its batch coordinate. -/
theorem cover (i : S16x8192x64.Idx) :
    ∃ t : Fin cfg0.N, (cfg0.win 4).flush t = true ∧ i ∈ ((cfg0.win 4).blk t).view.set := by
  have h0 : (i 0).val < 16 := (i 0).isLt
  have h1 : (i 1).val < 8192 := (i 1).isLt
  have h2 : (i 2).val < 64 := (i 2).isLt
  have ht : (i 0).val < cfg0.N := by show (i 0).val < grid0.N; rw [N_0]; exact h0
  refine ⟨⟨(i 0).val, ht⟩, flush0_4 _, ?_⟩
  rw [mem_blk]
  obtain ⟨i0, i1, i2⟩ := out_index_facts ⟨(i 0).val, ht⟩
  have i0' : win0_4.index ⟨(i 0).val, ht⟩ (0 : Fin 3) = (i 0).val := i0
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 8192 ≤ (i 1).val ∧ (i 1).val < win0_4.index _ (1 : Fin 3) * 8192 + 8192
    omega
  | ⟨2, _⟩ =>
    show win0_4.index _ (2 : Fin 3) * 64 ≤ (i 2).val ∧ (i 2).val < win0_4.index _ (2 : Fin 3) * 64 + 64
    omega

/-- The result array after the run. -/
theorem final (c : Dev nD) : (dats m 0 c).arrAt 4 cfg0.N = G m c :=
  (dats m 0 c).arrAt_eq_of_cover 4 (G m c) (fun t _ => flushed_eq m c t) cover

/-- The kernel's run: every weakly fair execution ends with the result array at the specification of the arguments,
    the arguments unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.KV

end
-- ==== Proof.RefStages.lean ====
/-
  The reference function's value as a chain of named stages over the extended reals: one definition per host
  operation (or small group), each written over the previous ones by name, so that a value read by several later
  operations (the gathered windows, the linear layer's space part) is one definition. The arguments are the points
  `x` [16, 8192, 64], the weights `W` [64, 316] and the bias `b` [64]; the last stage `refOut` is the result.
-/
import proofs.«125665_j15917148799336_2_alg».proof.Proof.RefOps
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The literal 1.0 and its square root: the bound the time coordinates are clamped at. -/
def one0 : FVec Ideal S_ .f32 := constant (F := Ideal) S_ .f32 0x3F800000#32
def sqrtOne : FVec Ideal S_ .f32 := Host.sqrt one0
/-- The padding value: the integer 0 converted. -/
def izero0 : IVec S_ 32 := constantI S_ 32 0#32
def padVal : FVec Ideal S_ .f32 := sitofp (F := Ideal) .f32 izero0

section
variable (x : FVec Ideal S16x8192x64 .f32) (W : FVec Ideal S64x316 .f32) (b : FVec Ideal S64 .f32)

/-- Two padding points in front of and behind each batch row. -/
def padded : FVec Ideal S16x8196x64 .f32 :=
  pad S16x8196x64 ![0, 2, 0] ![0, 2, 0] ![0, 0, 0] x padVal pads_S16x8192x64_S16x8196x64_000_220_000 h_S_
/-- The time column of the padded points, as [16, 8196, 1] and as [16, 8196]. -/
def timeCol3 : FVec Ideal S16x8196x1 .f32 :=
  extractStridedSlice S16x8196x1 ![0, 0, 0] (padded x) slices_S16x8196x64_S16x8196x1_0_0_0
def timeCol : FVec Ideal S16x8196 .f32 := shapeCast _ (timeCol3 x) shapeCasts_S16x8196x1_S16x8196
def boundB : FVec Ideal S16x8196 .f32 := broadcastInDim S16x8196 ![] bcast_S_S16x8196 sqrtOne
/-- The clamped time column. -/
def clamped : FVec Ideal S16x8196 .f32 := maximumf (timeCol x) boundB
def izero1 : IVec S_ 32 := constantI S_ 32 0#32
def lane0 : IVec S1 32 := broadcastInDim S1 ![] bcast_S_S1 izero1
/-- The padded points with the clamped time column written back at lane 0. -/
def xp : FVec Ideal S16x8196x64 .f32 :=
  Host.scatter scatter_S16x8196x64_S1_S16x8196_01_2_2_0 (fun _ b => b) (padded x) lane0 (clamped x)

end

/-- The window index table: entry (l, k) is l·1 + k, wrapped if negative. -/
def iotaL : IVec S8192 32 := iotaInDim S8192 32 0
def iotaL2 : IVec S8192x1 32 := broadcastInDim S8192x1 ![0] bcast_S8192_S8192x1_0 iotaL
def ione0 : IVec S_ 32 := constantI S_ 32 1#32
def strideB : IVec S8192x1 32 := broadcastInDim S8192x1 ![] bcast_S_S8192x1 ione0
def lTimes : IVec S8192x1 32 := muli iotaL2 strideB
def iotaK : IVec S5 32 := iotaInDim S5 32 0
def iotaK2 : IVec S1x5 32 := broadcastInDim S1x5 ![1] bcast_S5_S1x5_1 iotaK
def lB : IVec S8192x5 32 := broadcastInDim S8192x5 ![0, 1] bcast_S8192x1_S8192x5_0_1 lTimes
def kB : IVec S8192x5 32 := broadcastInDim S8192x5 ![0, 1] bcast_S1x5_S8192x5_0_1 iotaK2
def idxRaw : IVec S8192x5 32 := addi lB kB
def izero2 : IVec S_ 32 := constantI S_ 32 0#32
def zeroB : IVec S8192x5 32 := broadcastInDim S8192x5 ![] bcast_S_S8192x5 izero2
def idxNeg : IVec S8192x5 1 := cmpi .slt idxRaw zeroB
def ilen0 : IVec S_ 32 := constantI S_ 32 8196#32
def lenB : IVec S8192x5 32 := broadcastInDim S8192x5 ![] bcast_S_S8192x5 ilen0
def idxWrapped : IVec S8192x5 32 := addi idxRaw lenB
def idxTab : IVec S8192x5 32 := select idxNeg idxWrapped idxRaw
def idxTab3 : IVec S8192x5x1 32 := broadcastInDim S8192x5x1 ![0, 1] bcast_S8192x5_S8192x5x1_0_1 idxTab

section
variable (x : FVec Ideal S16x8192x64 .f32) (W : FVec Ideal S64x316 .f32) (b : FVec Ideal S64 .f32)

/-- The windows: entry (bt, l, k, f) is lane f of padded point l + k; and transposed to (bt, l, f, k). -/
def patches : FVec Ideal S16x8192x5x64 .f32 :=
  Host.gather gather_S16x8196x64_S8192x5x1_S16x8192x5x64_03_1_n_n_1_2_16164 (xp x) idxTab3
def patchesT : FVec Ideal S16x8192x64x5 .f32 :=
  transpose S16x8192x64x5 [0, 1, 3, 2] (patches x) transposes_S16x8192x5x64_S16x8192x64x5_0_1_3_2
/-- The five time coordinates of each window. -/
def pTime4 : FVec Ideal S16x8192x1x5 .f32 :=
  extractStridedSlice S16x8192x1x5 ![0, 0, 0, 0] (patchesT x) slices_S16x8192x64x5_S16x8192x1x5_0_0_0_0
def pTime : FVec Ideal S16x8192x5 .f32 := shapeCast _ (pTime4 x) shapeCasts_S16x8192x1x5_S16x8192x5
def pTimeSq : FVec Ideal S16x8192x5 .f32 := mulf (pTime x) (pTime x)
def fzero0 : FVec Ideal S_ .f32 := constant (F := Ideal) S_ .f32 0x00000000#32
def sumTimeSq : FVec Ideal S16x8192 .f32 :=
  Host.reduceAdd (F := Ideal) (pTimeSq x) fzero0 reducesTo_S16x8192x5_S16x8192_d2 h_S_
def sumTimeSq3 : FVec Ideal S16x8192x1 .f32 :=
  broadcastInDim S16x8192x1 ![0, 1] bcast_S16x8192_S16x8192x1_0_1 (sumTimeSq x)
def four0 : FVec Ideal S_ .f32 := constant (F := Ideal) S_ .f32 0x40800000#32
def fourB : FVec Ideal S16x8192x1 .f32 := broadcastInDim S16x8192x1 ![] bcast_S_S16x8192x1 four0
def trescArg : FVec Ideal S16x8192x1 .f32 := subf (sumTimeSq3 x) fourB
/-- The window's rescaled time. -/
def trescV : FVec Ideal S16x8192x1 .f32 := Host.sqrt (trescArg x)
/-- The windows' space coordinates, (c, k) flattened to 5c + k. -/
def pSpace4 : FVec Ideal S16x8192x63x5 .f32 :=
  extractStridedSlice S16x8192x63x5 ![0, 0, 1, 0] (patchesT x) slices_S16x8192x64x5_S16x8192x63x5_0_0_1_0
def pSpace : FVec Ideal S16x8192x315 .f32 := shapeCast _ (pSpace4 x) shapeCasts_S16x8192x63x5_S16x8192x315
/-- The linear layer's 316 input features: the rescaled time, then the space coordinates. -/
def feats : FVec Ideal S16x8192x316 .f32 :=
  concatenate S16x8192x316 2 [⟨S16x8192x1, trescV x⟩, ⟨S16x8192x315, pSpace x⟩] concatenates_S16x8192x1_S16x8192x315_S16x8192x316_d2
def lin : FVec Ideal S16x8192x64 .f32 :=
  Host.dotGeneral (F := Ideal) dot_S16x8192x316_S64x316_S16x8192x64_2_1_01_0_n_n none (feats x) W
def bias3 : FVec Ideal S1x1x64 .f32 := broadcastInDim S1x1x64 ![2] bcast_S64_S1x1x64_2 b
def biasB : FVec Ideal S16x8192x64 .f32 := broadcastInDim S16x8192x64 ![0, 1, 2] bcast_S1x1x64_S16x8192x64_0_1_2 (bias3 b)
/-- The linear layer's output. -/
def y : FVec Ideal S16x8192x64 .f32 := addf (lin x W) (biasB b)
/-- Its space part (outputs 1 … 63). -/
def ySpace : FVec Ideal S16x8192x63 .f32 :=
  extractStridedSlice S16x8192x63 ![0, 0, 1] (y x W b) slices_S16x8192x64_S16x8192x63_0_0_1
def ySpaceSq : FVec Ideal S16x8192x63 .f32 := mulf (ySpace x W b) (ySpace x W b)
def fzero1 : FVec Ideal S_ .f32 := constant (F := Ideal) S_ .f32 0x00000000#32
def sumSpaceSq : FVec Ideal S16x8192 .f32 :=
  Host.reduceAdd (F := Ideal) (ySpaceSq x W b) fzero1 reducesTo_S16x8192x63_S16x8192_d2 h_S_
def sumSpaceSq3 : FVec Ideal S16x8192x1 .f32 :=
  broadcastInDim S16x8192x1 ![0, 1] bcast_S16x8192_S16x8192x1_0_1 (sumSpaceSq x W b)
def one1 : FVec Ideal S_ .f32 := constant (F := Ideal) S_ .f32 0x3F800000#32
def oneB : FVec Ideal S16x8192x1 .f32 := broadcastInDim S16x8192x1 ![] bcast_S_S16x8192x1 one1
def yTimeArg : FVec Ideal S16x8192x1 .f32 := addf (sumSpaceSq3 x W b) oneB
/-- The recomputed time coordinate. -/
def yTime : FVec Ideal S16x8192x1 .f32 := Host.sqrt (yTimeArg x W b)
/-- The result: the recomputed time, then the space part. -/
def refOut : FVec Ideal S16x8192x64 .f32 :=
  concatenate S16x8192x64 2 [⟨S16x8192x1, yTime x W b⟩, ⟨S16x8192x63, ySpace x W b⟩] concatenates_S16x8192x1_S16x8192x63_S16x8192x64_d2

end

end Cert.ReferenceIdeal.RefValue

end
-- ==== Proof.RefRun.lean ====
/-
  The run of the reference program read back over the named stages: every weakly fair execution of @main
  terminates with the result buffer at `refOut` of the three arguments' launch contents, the arguments unchanged.
  The result buffer's contents after the operations are identified with the stages in layers: the stages up to the
  flattened space coordinates by unfolding; each stage from a joined pair on from the contents of the buffers it reads.
-/
import proofs.«125665_j15917148799336_2_alg».proof.Proof.RefStages
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

open Cert.ReferenceIdeal.HostOps

section
variable (x : FVec Ideal S16x8192x64 .f32) (W : FVec Ideal S64x316 .f32) (b : FVec Ideal S64 .f32)

/-- The features from any two arrays equal to the rescaled time and the flattened space coordinates. -/
theorem feats_of (a : FVec Ideal S16x8192x1 .f32) (s : FVec Ideal S16x8192x315 .f32) (ha : a = trescV x) (hs : s = pSpace x) :
    concatenate S16x8192x316 2 [⟨S16x8192x1, a⟩, ⟨S16x8192x315, s⟩] concatenates_S16x8192x1_S16x8192x315_S16x8192x316_d2
      = feats x := by
  subst ha hs; rfl

/-- The linear layer's space part from any array equal to the features. -/
theorem ySpace_of (ft : FVec Ideal S16x8192x316 .f32) (hft : ft = feats x) :
    extractStridedSlice S16x8192x63 ![0, 0, 1]
        (addf (Host.dotGeneral (F := Ideal) dot_S16x8192x316_S64x316_S16x8192x64_2_1_01_0_n_n none ft W)
          (broadcastInDim S16x8192x64 ![0, 1, 2] bcast_S1x1x64_S16x8192x64_0_1_2
            (broadcastInDim S1x1x64 ![2] bcast_S64_S1x1x64_2 b)))
        slices_S16x8192x64_S16x8192x63_0_0_1
      = ySpace x W b := by
  subst hft; rfl

/-- The recomputed time from any array equal to the space part. -/
theorem yTime_of (ys : FVec Ideal S16x8192x63 .f32) (hys : ys = ySpace x W b) :
    Host.sqrt (addf
        (broadcastInDim S16x8192x1 ![0, 1] bcast_S16x8192_S16x8192x1_0_1
          (Host.reduceAdd (F := Ideal) (mulf ys ys) (constant (F := Ideal) S_ .f32 0x00000000#32)
            reducesTo_S16x8192x63_S16x8192_d2 h_S_))
        (broadcastInDim S16x8192x1 ![] bcast_S_S16x8192x1 (constant (F := Ideal) S_ .f32 0x3F800000#32)))
      = yTime x W b := by
  subst hys; rfl

/-- The result from any two arrays equal to the recomputed time and the space part. -/
theorem refOut_of (t : FVec Ideal S16x8192x1 .f32) (ys : FVec Ideal S16x8192x63 .f32) (ht : t = yTime x W b) (hys : ys = ySpace x W b) :
    concatenate S16x8192x64 2 [⟨S16x8192x1, t⟩, ⟨S16x8192x63, ys⟩] concatenates_S16x8192x1_S16x8192x63_S16x8192x64_d2
      = refOut x W b := by
  subst ht hys; rfl

end

/-- The contents of a buffer written before the first joined pair: by unfolding. -/
local macro "stage_early" : tactic => `(tactic| (after_results_simp <;> rfl))
/-- The features' buffer. -/
local macro "stage_feats" : tactic =>
  `(tactic| (after_results_simp; exact feats_of _ _ _ (by stage_early) (by stage_early)))
/-- The space part's buffer. -/
local macro "stage_ySpace" : tactic =>
  `(tactic| (after_results_simp; exact ySpace_of _ _ _ _ (feats_of _ _ _ (by stage_early) (by stage_early))))
/-- The recomputed time's buffer. -/
local macro "stage_yTime" : tactic =>
  `(tactic| (after_results_simp; exact yTime_of _ _ _ _ (ySpace_of _ _ _ _ (feats_of _ _ _ (by stage_early) (by stage_early)))))

set_option maxRecDepth 8192 in
set_option maxHeartbeats 2000000 in
/-- The result buffer after the operations is `refOut` of the arguments' launch contents. -/
theorem after_out (m : (ℓ : Loc nD τ sig) → Buf (Elt Ideal) ℓ) (c : Dev nD) :
    after (ops (F := Ideal)) (launchContents m c) (Proc.devRef .tc main_v47) = refOut (m ((c.tc : Thread nD τ).loc main_arg0)) (m ((c.tc : Thread nD τ).loc main_arg1)) (m ((c.tc : Thread nD τ).loc main_arg2)) := by
  after_results_simp
  exact refOut_of _ _ _ _ _ (by stage_yTime) (by stage_ySpace)

set_option maxRecDepth 8192 in
/-- On every device, from any memory with zero counters: every weakly fair execution of @main terminates with the
    result at `refOut` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v47).trans (after_out m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefValue

end
-- ==== Proof.LibScatter.lean ====
/-
  General facts about the host scatter, read at one operand index.

  A scatter walks the update indices in row-major order; each update lands at one operand index (start index plus
  window coordinate) or is dropped when that index leaves the operand. Read at ONE operand index `i`, only the
  updates landing at `i` matter, in their row-major order:

  * `scatter_apply`      — the value at `i` is the left fold of the body over the updates that land at `i`, from the
                            operand's own element;
  * `scatter_of_none`    — when no update lands at `i` the value is the operand's element, whatever the body;
  * `scatter_set_of_unique` — for a body that returns the update (an assignment): when exactly one update lands at `i`
                            the value is that update;
  * `scatter_add_one_toNat` — for the integer sum of the constant one into zeros (a histogram): the value at `i` is the
                            number of updates landing at `i`, when that number fits the word.
-/
import Idealize.ShloMosaic.PureOps.ShapeOps
import Idealize.ShloMosaic.PureOps.Dims
import Mathlib.Data.List.Basic

namespace Cert.LibScatter

open Idealize.ShloMosaic

variable {s si u : Shape} {α : Type} {w : Nat}

/-- The scatter's step function: update number `n` (row-major) replaces the element at its landing index by the body
    of that element and the update, and changes nothing when it is dropped. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

/-- One step read at `i`: the body is applied exactly when the update lands at `i`. -/
theorem step_apply (d : ScatterDims s si u) (f : α → α → α) (idx : IVec si w) (upd : u.Idx → α) (r : s.Idx → α)
    (n : Fin u.numel) (i : s.Idx) :
    step d f idx upd r n i
      = if d.resultIdx? (u.rowMajor.symm n) idx = some i then f (r i) (upd (u.rowMajor.symm n)) else r i := by
  unfold step
  cases h : d.resultIdx? (u.rowMajor.symm n) idx with
  | none => simp
  | some k =>
    by_cases hk : i = k
    · subst hk; simp
    · have : ¬ (some k = some i) := fun e => hk (Option.some.inj e).symm
      simp [hk, this]

/-- A fold of steps read at `i` is the fold of the body over the updates of the list that land at `i`. -/
theorem foldl_step_apply (d : ScatterDims s si u) (f : α → α → α) (idx : IVec si w) (upd : u.Idx → α)
    (L : List (Fin u.numel)) (r : s.Idx → α) (i : s.Idx) :
    L.foldl (step d f idx upd) r i
      = (L.filter fun n => decide (d.resultIdx? (u.rowMajor.symm n) idx = some i)).foldl
          (fun a n => f a (upd (u.rowMajor.symm n))) (r i) := by
  induction L generalizing r with
  | nil => rfl
  | cons n L ih =>
    rw [List.foldl_cons, ih, step_apply]
    by_cases h : d.resultIdx? (u.rowMajor.symm n) idx = some i
    · rw [List.filter_cons_of_pos (by simpa using h), List.foldl_cons, if_pos h]
    · rw [List.filter_cons_of_neg (by simpa using h), if_neg h]

/-- THE SCATTER AT AN INDEX: the left fold of the body, from the operand's element at `i`, over the updates that land at
    `i`, in row-major order. -/
theorem scatter_apply (d : ScatterDims s si u) (f : α → α → α) (x : s.Idx → α) (idx : IVec si w) (upd : u.Idx → α)
    (i : s.Idx) :
    Host.scatter d f x idx upd i
      = ((List.finRange u.numel).filter fun n => decide (d.resultIdx? (u.rowMajor.symm n) idx = some i)).foldl
          (fun a n => f a (upd (u.rowMajor.symm n))) (x i) := by
  rw [scatter_eq_foldl, foldl_step_apply]

/-- No update lands at `i`: the operand's element stays, whatever the body. -/
theorem scatter_of_none (d : ScatterDims s si u) (f : α → α → α) (x : s.Idx → α) (idx : IVec si w) (upd : u.Idx → α)
    (i : s.Idx) (h : ∀ j : u.Idx, d.resultIdx? j idx ≠ some i) :
    Host.scatter d f x idx upd i = x i := by
  rw [scatter_apply]
  have : ((List.finRange u.numel).filter fun n => decide (d.resultIdx? (u.rowMajor.symm n) idx = some i)) = [] := by
    rw [List.filter_eq_nil_iff]
    intro n _
    simpa using h (u.rowMajor.symm n)
  rw [this]; rfl

/-- The updates landing at `i`, when `j₀` is the only one: the one-element list of its row-major number. -/
theorem filter_of_unique (d : ScatterDims s si u) (idx : IVec si w) (i : s.Idx) (j₀ : u.Idx)
    (h₀ : d.resultIdx? j₀ idx = some i) (huniq : ∀ j : u.Idx, d.resultIdx? j idx = some i → j = j₀) :
    ((List.finRange u.numel).filter fun n => decide (d.resultIdx? (u.rowMajor.symm n) idx = some i))
      = [u.rowMajor j₀] := by
  have hp : ∀ n : Fin u.numel, decide (d.resultIdx? (u.rowMajor.symm n) idx = some i) = (n == u.rowMajor j₀) := by
    intro n
    by_cases hn : n = u.rowMajor j₀
    · subst hn; simp [h₀]
    · have : ¬ d.resultIdx? (u.rowMajor.symm n) idx = some i := fun e => hn (by
        have := huniq _ e; rw [← this]; simp)
      simp [hn, this]
  rw [List.filter_congr (fun n _ => hp n), List.filter_beq,
    List.count_eq_one_of_mem (List.nodup_finRange _) (List.mem_finRange _)]
  rfl

/-- An assignment (the body returns the update): when `j₀` is the one update landing at `i`, the value at `i` is that
    update. -/
theorem scatter_set_of_unique (d : ScatterDims s si u) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d (fun _ b => b) x idx upd i = upd j₀ := by
  rw [scatter_apply, filter_of_unique d idx i j₀ h₀ huniq]
  simp

/-- A left fold of word addition of the constant one over a list, from zero, counts the list (when the count fits). -/
theorem foldl_add_one_toNat {β : Type} (L : List β) (a : BitVec w) (hfit : a.toNat + L.length < 2 ^ w) :
    (L.foldl (fun (r : BitVec w) (_ : β) => IntOp.addi r (1 : BitVec w)) a).toNat = a.toNat + L.length := by
  induction L generalizing a with
  | nil => simp
  | cons b L ih =>
    rw [List.foldl_cons]
    have hfit' : a.toNat + (L.length + 1) < 2 ^ w := by rw [List.length_cons] at hfit; exact hfit
    have hpow : 1 < 2 ^ w := by
      rcases Nat.eq_zero_or_pos w with hw | hw
      · subst hw; omega
      · exact Nat.one_lt_two_pow (by omega)
    have hone : (1 : BitVec w).toNat = 1 := by
      show (BitVec.ofNat w 1).toNat = 1
      rw [BitVec.toNat_ofNat]; exact Nat.mod_eq_of_lt hpow
    have h1 : (IntOp.addi a (1 : BitVec w)).toNat = a.toNat + 1 := by
      unfold IntOp.addi
      rw [BitVec.toNat_add, hone]; exact Nat.mod_eq_of_lt (by omega)
    rw [ih _ (by rw [h1]; omega), h1, List.length_cons]; omega

/-- A histogram: the integer sum of the constant one scattered into zeros holds, at `i`, the number of updates that
    land at `i` (when that number fits the word). -/
theorem scatter_add_one_toNat (d : ScatterDims s si u) (x : s.Idx → BitVec w) (idx : IVec si w) (upd : u.Idx → BitVec w)
    (i : s.Idx) (hx : x i = 0) (hupd : ∀ j, upd j = 1)
    (hfit : ((List.finRange u.numel).filter fun n => decide (d.resultIdx? (u.rowMajor.symm n) idx = some i)).length < 2 ^ w) :
    (Host.scatter d IntOp.addi x idx upd i).toNat
      = ((List.finRange u.numel).filter fun n => decide (d.resultIdx? (u.rowMajor.symm n) idx = some i)).length := by
  rw [scatter_apply]
  have : (fun (a : BitVec w) (n : Fin u.numel) => IntOp.addi a (upd (u.rowMajor.symm n)))
      = fun (a : BitVec w) (_ : Fin u.numel) => IntOp.addi a (1 : BitVec w) := by
    funext a n; rw [hupd]
  rw [this, foldl_add_one_toNat _ _ (by rw [hx]; simpa using hfit), hx]
  simp

end Cert.LibScatter
-- ==== Proof.LibScatterLane.lean ====
/-
  The landing index of an update for a scatter that rewrites one lane of a three-axis array.

  The operand is `B × L × C`; the updates are `B × L`, both axes window axes; the one scatter index selects the lane
  (the operand's last axis, an inserted axis). Update `(b, l)` lands at `(b', l', c)` exactly when `b' = b`, `l' = l` and
  the scatter index, read as a signed integer, is `c`.
-/
import Idealize.ShloMosaic.PureOps.ShapeOps
import Idealize.ShloMosaic.PureOps.Dims
import Idealize.ShloMosaic.Lib.ValueIdx

namespace Cert.LibScatter

open Idealize.ShloMosaic Idealize.ShloMosaic.ValueIdx

variable {B L C w : Nat}

section Lane

variable (d : ScatterDims ⟨3, ![B, L, C]⟩ ⟨1, ![1]⟩ ⟨2, ![B, L]⟩)
    (h1 : d.updateWindowDims = [0, 1]) (h2 : d.insertedWindowDims = [2]) (h3 : d.scatterDimsToOperandDims = [2])
    (h4 : d.indexVectorDim = 0)

include h1 h2 h3 h4 in
/-- The two window axes have no start index: their start is zero. -/
theorem start_lane0 (j : (⟨2, ![B, L]⟩ : Shape).Idx) (idx : IVec ⟨1, ![1]⟩ w) : d.start j idx 0 = 0 := by
  obtain ⟨uw, iw, sd, iv, wf⟩ := d
  subst h1 h2 h3 h4
  unfold ScatterDims.start
  rw [dif_neg]
  simp

include h1 h2 h3 h4 in
theorem start_lane1 (j : (⟨2, ![B, L]⟩ : Shape).Idx) (idx : IVec ⟨1, ![1]⟩ w) : d.start j idx 1 = 0 := by
  obtain ⟨uw, iw, sd, iv, wf⟩ := d
  subst h1 h2 h3 h4
  unfold ScatterDims.start
  rw [dif_neg]
  simp

include h1 h2 h3 h4 in
/-- The lane's start is the scatter index, read signed. -/
theorem start_lane2 (j : (⟨2, ![B, L]⟩ : Shape).Idx) (idx : IVec ⟨1, ![1]⟩ w) :
    d.start j idx 2 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The window coordinates on the two window axes are the update's coordinates. -/
theorem window_lane0 (j : (⟨2, ![B, L]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
theorem window_lane1 (j : (⟨2, ![B, L]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- The lane axis is inserted: its window coordinate is zero. -/
theorem window_lane2 (j : (⟨2, ![B, L]⟩ : Shape).Idx) : d.window j 2 = 0 := by
  obtain ⟨uw, iw, sd, iv, wf⟩ := d
  subst h1 h2 h3 h4
  unfold ScatterDims.window
  rw [dif_neg]
  simp [ScatterDims.sKept, Shape.kept]

include h1 h2 h3 h4 in
/-- Update `(b, l)` lands at `(b', l', c)` exactly when `b' = b`, `l' = l` and the scatter index, read signed, is `c`. -/
theorem resultIdx?_lane (j : (⟨2, ![B, L]⟩ : Shape).Idx) (idx : IVec ⟨1, ![1]⟩ w) (i : (⟨3, ![B, L, C]⟩ : Shape).Idx) :
    d.resultIdx? j idx = some i ↔
      (i 0).val = (j 0).val ∧ (i 1).val = (j 1).val ∧ (idx (ix1 0)).toInt = ((i 2).val : Int) := by
  have hs0 := start_lane0 d h1 h2 h3 h4 j idx
  have hs1 := start_lane1 d h1 h2 h3 h4 j idx
  have hs2 := start_lane2 d h1 h2 h3 h4 j idx
  have hw0 := window_lane0 d h1 h2 h3 h4 j
  have hw1 := window_lane1 d h1 h2 h3 h4 j
  have hw2 := window_lane2 d h1 h2 h3 h4 j
  have hi0 : (i 0).val < B := (i 0).isLt
  have hi1 : (i 1).val < L := (i 1).isLt
  have hi2 : (i 2).val < C := (i 2).isLt
  have hj0 : (j 0).val < B := (j 0).isLt
  have hj1 : (j 1).val < L := (j 1).isLt
  unfold ScatterDims.resultIdx?
  constructor
  · intro h
    split at h
    · rename_i hin
      have e := Option.some.inj h
      have e0 := congrArg Fin.val (congrFun e 0)
      have e1 := congrArg Fin.val (congrFun e 1)
      have e2 := congrArg Fin.val (congrFun e 2)
      simp only [hs0, hw0, hs1, hw1, hs2, hw2] at e0 e1 e2
      have g2 := (hin 2).1
      rw [hs2, hw2] at g2
      refine ⟨by omega, by omega, by omega⟩
    · exact absurd h (by simp)
  · rintro ⟨e0, e1, e2⟩
    have hin : ∀ a, 0 ≤ d.start j idx a + ↑(d.window j a) ∧ d.start j idx a + ↑(d.window j a) < (⟨3, ![B, L, C]⟩ : Shape).size a := by
      intro a
      match a with
      | ⟨0, _⟩ =>
        show 0 ≤ d.start j idx 0 + ↑(d.window j 0) ∧ d.start j idx 0 + ↑(d.window j 0) < ((B : Nat) : Int)
        rw [hs0, hw0]; omega
      | ⟨1, _⟩ =>
        show 0 ≤ d.start j idx 1 + ↑(d.window j 1) ∧ d.start j idx 1 + ↑(d.window j 1) < ((L : Nat) : Int)
        rw [hs1, hw1]; omega
      | ⟨2, _⟩ =>
        show 0 ≤ d.start j idx 2 + ↑(d.window j 2) ∧ d.start j idx 2 + ↑(d.window j 2) < ((C : Nat) : Int)
        rw [hs2, hw2, e2]; omega
    rw [dif_pos hin]
    congr 1
    funext a
    apply Fin.ext
    match a with
    | ⟨0, _⟩ =>
      show (d.start j idx 0 + ↑(d.window j 0)).toNat = (i 0).val
      rw [hs0, hw0]; omega
    | ⟨1, _⟩ =>
      show (d.start j idx 1 + ↑(d.window j 1)).toNat = (i 1).val
      rw [hs1, hw1]; omega
    | ⟨2, _⟩ =>
      show (d.start j idx 2 + ↑(d.window j 2)).toNat = (i 2).val
      rw [hs2, hw2, e2]; omega

end Lane

end Cert.LibScatter
-- ==== Proof.RefReadXp.lean ====
/-
  The padded, clamped points read at an index. A padded point `j` of a batch row is point `j - 2` of the row for
  `2 ≤ j < 8194` and the padding value zero otherwise; the scatter writes the clamped time column back at lane 0 and
  leaves the other lanes; the clamp's bound is sqrt 1 = 1, and max 0 1 = 1. So lane 0 of padded point `j` is the
  specification's `tm` and lane `c + 1` its `sp`.
-/
import proofs.«125665_j15917148799336_2_alg».proof.Proof.RefStages
import proofs.«125665_j15917148799336_2_alg».proof.Proof.Spec
import proofs.«125665_j15917148799336_2_alg».proof.Proof.LibScatter
import proofs.«125665_j15917148799336_2_alg».proof.Proof.LibScatterLane
import Idealize.ShloMosaic.Lib.KernelVsHost
import Idealize.ShloMosaic.Lib.Pipeline.Value
import Idealize.ShloMosaic.Lib.IdealHost
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx Cert.LorentzConv Cert.LibScatter

/-- The clamp's bound: the square root of the literal one is one. -/
theorem sqrtOne_apply (i : S_.Idx) : sqrtOne i = 1 := by
  show Ideal.sqrt (Ideal.ofBits .f32 0x3F800000#32) = 1
  rw [ofBits_one, ← EReal.coe_one, Ideal.sqrt_coe, if_neg (by norm_num), Real.sqrt_one]

/-- The padding value: the integer zero converted is zero. -/
theorem padVal_apply (i : S_.Idx) : padVal i = 0 := by
  show ((((0#32 : BitVec 32).toInt : ℤ) : ℝ) : EReal) = 0
  simp

theorem lane0_apply (i : S1.Idx) : lane0 i = 0#32 := by
  unfold lane0
  rw [broadcastInDim_scalar_apply]
  rfl

section
variable (x : FVec Ideal S16x8192x64 .f32)

/-- Inside the row the padded array is the row, two points back. -/
theorem padded_inside (bt : Fin 16) (j : Fin 8196) (f : Fin 64) (h : 2 ≤ j.val ∧ j.val < 8194) :
    padded x (ix3 bt j f) = x (ix3 bt (⟨j.val - 2, by omega⟩ : Fin 8192) f) := by
  unfold padded
  exact pad_apply_of_inside _ _ _ x padVal pads_S16x8192x64_S16x8196x64_000_220_000 h_S_ (ix3 bt j f)
    (ix3 bt (⟨j.val - 2, by omega⟩ : Fin 8192) f) (fun a => match a with
    | ⟨0, _⟩ => by show bt.val = 0 + bt.val * (0 + 1); omega
    | ⟨1, _⟩ => by show j.val = 2 + (j.val - 2) * (0 + 1); omega
    | ⟨2, _⟩ => by show f.val = 0 + f.val * (0 + 1); omega)

/-- On the padding it is zero. -/
theorem padded_outside (bt : Fin 16) (j : Fin 8196) (f : Fin 64) (h : ¬(2 ≤ j.val ∧ j.val < 8194)) :
    padded x (ix3 bt j f) = 0 := by
  unfold padded
  rw [pad_apply_of_not_inside _ _ _ x padVal pads_S16x8192x64_S16x8196x64_000_220_000 h_S_ (ix3 bt j f)
    (⟨1, by decide⟩ : Fin S16x8192x64.rank)
    (by show ¬(2 ≤ j.val ∧ (j.val - 2) % (0 + 1) = 0 ∧ (j.val - 2) / (0 + 1) < 8192); omega)]
  exact padVal_apply _

/-- The time column of the padded points. -/
theorem timeCol_apply (bt : Fin 16) (j : Fin 8196) : timeCol x (ix2 bt j) = padded x (ix3 bt j (0 : Fin 64)) := by
  unfold timeCol
  rw [shapeCast_apply (timeCol3 x) shapeCasts_S16x8196x1_S16x8196 (ix2 bt j) (ix3 bt j (0 : Fin 1))
    (by rewrite [Shape.rowMajor_val_three, Shape.rowMajor_val_two]
        show (bt.val * 8196 + j.val) * 1 + 0 = bt.val * 8196 + j.val; omega)]
  unfold timeCol3
  exact extractStridedSlice_apply ![0, 0, 0] (padded x) slices_S16x8196x64_S16x8196x1_0_0_0 (ix3 bt j (0 : Fin 1))
    (ix3 bt j (0 : Fin 64)) (fun a => match a with
    | ⟨0, _⟩ => by show bt.val = 0 + bt.val; omega
    | ⟨1, _⟩ => by show j.val = 0 + j.val; omega
    | ⟨2, _⟩ => by show 0 = 0 + 0; omega)

theorem boundB_apply (i : S16x8196.Idx) : boundB i = 1 := by
  unfold boundB
  rw [broadcastInDim_scalar_apply]
  exact sqrtOne_apply _

/-- The clamped time column. -/
theorem clamped_apply (bt : Fin 16) (j : Fin 8196) :
    clamped x (ix2 bt j) = max (padded x (ix3 bt j (0 : Fin 64))) 1 := by
  show max (timeCol x (ix2 bt j)) (boundB (ix2 bt j)) = _
  rw [timeCol_apply, boundB_apply]

/-- The scatter index is the lane 0. -/
theorem lane0_toInt : (lane0 (ix1 (0 : Fin 1))).toInt = 0 := by
  rw [lane0_apply]; rfl

/-- Lane 0 of the scattered array is the clamped time column. -/
theorem xp_lane0 (bt : Fin 16) (j : Fin 8196) : xp x (ix3 bt j (0 : Fin 64)) = clamped x (ix2 bt j) := by
  unfold xp
  refine scatter_set_of_unique scatter_S16x8196x64_S1_S16x8196_01_2_2_0 (padded x) lane0 (clamped x)
    (ix3 bt j (0 : Fin 64)) (ix2 bt j) ?_ ?_
  · exact (resultIdx?_lane scatter_S16x8196x64_S1_S16x8196_01_2_2_0 rfl rfl rfl rfl (ix2 bt j) lane0
      (ix3 bt j (0 : Fin 64))).mpr ⟨rfl, rfl, lane0_toInt⟩
  · intro j' hj'
    obtain ⟨e0, e1, _⟩ := (resultIdx?_lane scatter_S16x8196x64_S1_S16x8196_01_2_2_0 rfl rfl rfl rfl j' lane0
      (ix3 bt j (0 : Fin 64))).mp hj'
    funext a
    match a with
    | ⟨0, _⟩ => exact Fin.ext e0.symm
    | ⟨1, _⟩ => exact Fin.ext e1.symm

/-- The other lanes are the padded array's. -/
theorem xp_lane_pos (bt : Fin 16) (j : Fin 8196) (f : Fin 64) (hf : f.val ≠ 0) :
    xp x (ix3 bt j f) = padded x (ix3 bt j f) := by
  unfold xp
  refine scatter_of_none scatter_S16x8196x64_S1_S16x8196_01_2_2_0 _ (padded x) lane0 (clamped x) (ix3 bt j f) ?_
  intro j' hj'
  obtain ⟨_, _, e2⟩ := (resultIdx?_lane scatter_S16x8196x64_S1_S16x8196_01_2_2_0 rfl rfl rfl rfl j' lane0
    (ix3 bt j f)).mp hj'
  rw [lane0_toInt] at e2
  have e2' : (0 : Int) = (f.val : Int) := e2
  omega

/-- Lane 0 of padded point `j`: the clamped time coordinate. -/
theorem xp_time (bt : Fin 16) (j : Fin 8196) : xp x (ix3 bt j (0 : Fin 64)) = tm x bt j.val := by
  rw [xp_lane0, clamped_apply]
  unfold tm
  by_cases h : 2 ≤ j.val ∧ j.val < 8194
  · rw [dif_pos h, padded_inside x bt j 0 h]
  · rw [dif_neg h, padded_outside x bt j 0 h]
    exact max_eq_right zero_le_one

/-- Lane `c + 1` of padded point `j`: space coordinate `c`. -/
theorem xp_space (bt : Fin 16) (j : Fin 8196) (c : Fin 63) (f : Fin 64) (hf : f.val = c.val + 1) :
    xp x (ix3 bt j f) = sp x bt j.val c := by
  obtain rfl : f = ⟨c.val + 1, Nat.succ_lt_succ c.isLt⟩ := Fin.ext hf
  rw [xp_lane_pos x bt j _ (by show c.val + 1 ≠ 0; omega)]
  unfold sp
  by_cases h : 2 ≤ j.val ∧ j.val < 8194
  · rw [dif_pos h, padded_inside x bt j _ h]
  · rw [dif_neg h, padded_outside x bt j _ h]

end

end Cert.ReferenceIdeal.RefValue

end
-- ==== Proof.RefReadIdx.lean ====
/-
  The window index table read at an entry: entry (l, k) is the 32-bit word of l + k. The sum is below 8196, so read as a
  signed integer it is l + k itself, it is not negative, and the wrap-around branch (add the padded length to a negative
  index) is never taken.
-/
import proofs.«125665_j15917148799336_2_alg».proof.Proof.RefStages
import Idealize.ShloMosaic.Lib.Pipeline.Value
import Idealize.ShloMosaic.Lib.IdealHost
import Idealize.ShloMosaic.Lib.ValueIdx

noncomputable section

namespace Cert.ReferenceIdeal.RefValue

open Cert.ReferenceIdeal Cert.ReferenceIdeal.Gen Idealize.ShloMosaic Idealize.ShloMosaic.ValueIdx

/-- A small natural number as a 32-bit word, read back signed, is itself. -/
theorem toInt_ofNat32_small (n : Nat) (h : n < 2147483648) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

theorem lB_apply (l : Fin 8192) (k : Fin 5) : lB (ix2 l k) = BitVec.ofNat 32 l.val := by
  unfold lB
  rw [broadcastInDim_apply _ bcast_S8192x1_S8192x5_0_1 lTimes (ix2 l k) (ix2 l (0 : Fin 1)) (fun a => match a with
    | ⟨0, _⟩ => by show l.val = if (8192 : Nat) = 1 then 0 else l.val; rw [if_neg (by decide)]
    | ⟨1, _⟩ => by show 0 = if (1 : Nat) = 1 then 0 else k.val; rw [if_pos rfl])]
  show IntOp.muli (iotaL2 (ix2 l (0 : Fin 1))) (strideB (ix2 l (0 : Fin 1))) = _
  have h1 : iotaL2 (ix2 l (0 : Fin 1)) = BitVec.ofNat 32 l.val := by
    unfold iotaL2
    rw [broadcastInDim_apply _ bcast_S8192_S8192x1_0 iotaL (ix2 l (0 : Fin 1)) (ix1 l) (fun a => match a with
      | ⟨0, _⟩ => by show l.val = if (8192 : Nat) = 1 then 0 else l.val; rw [if_neg (by decide)])]
    rfl
  have h2 : strideB (ix2 l (0 : Fin 1)) = 1#32 := by
    unfold strideB
    rw [broadcastInDim_scalar_apply]
    rfl
  rw [h1, h2]
  show BitVec.ofNat 32 l.val * 1#32 = _
  exact BitVec.mul_one _

theorem kB_apply (l : Fin 8192) (k : Fin 5) : kB (ix2 l k) = BitVec.ofNat 32 k.val := by
  unfold kB
  rw [broadcastInDim_apply _ bcast_S1x5_S8192x5_0_1 iotaK2 (ix2 l k) (ix2 (0 : Fin 1) k) (fun a => match a with
    | ⟨0, _⟩ => by show 0 = if (1 : Nat) = 1 then 0 else l.val; rw [if_pos rfl]
    | ⟨1, _⟩ => by show k.val = if (5 : Nat) = 1 then 0 else k.val; rw [if_neg (by decide)])]
  unfold iotaK2
  rw [broadcastInDim_apply _ bcast_S5_S1x5_1 iotaK (ix2 (0 : Fin 1) k) (ix1 k) (fun a => match a with
    | ⟨0, _⟩ => by show k.val = if (5 : Nat) = 1 then 0 else k.val; rw [if_neg (by decide)])]
  rfl

/-- Entry (l, k) before the wrap-around: the word of l + k. -/
theorem idxRaw_apply (l : Fin 8192) (k : Fin 5) : idxRaw (ix2 l k) = BitVec.ofNat 32 (l.val + k.val) := by
  show IntOp.addi (lB (ix2 l k)) (kB (ix2 l k)) = _
  rw [lB_apply, kB_apply]
  show BitVec.ofNat 32 l.val + BitVec.ofNat 32 k.val = _
  exact (BitVec.ofNat_add _ _).symm

/-- The entry is not negative. -/
theorem idxNeg_apply (l : Fin 8192) (k : Fin 5) : idxNeg (ix2 l k) = 0#1 := by
  show IntOp.cmpi .slt (idxRaw (ix2 l k)) (zeroB (ix2 l k)) = 0#1
  have hz : zeroB (ix2 l k) = 0#32 := by
    unfold zeroB
    rw [broadcastInDim_scalar_apply]
    rfl
  rw [idxRaw_apply, hz]
  show BitVec.ofBool (decide ((BitVec.ofNat 32 (l.val + k.val)).toInt < (0#32 : BitVec 32).toInt)) = 0#1
  have h0 : (0#32 : BitVec 32).toInt = 0 := rfl
  rw [toInt_ofNat32_small _ (by omega), h0, decide_eq_false (by omega)]
  rfl

/-- The table's entry (l, k): the word of l + k. -/
theorem idxTab_apply (l : Fin 8192) (k : Fin 5) : idxTab (ix2 l k) = BitVec.ofNat 32 (l.val + k.val) := by
  show Scalar.select (idxNeg (ix2 l k)) (idxWrapped (ix2 l k)) (idxRaw (ix2 l k)) = _
  rw [idxNeg_apply, select_zero, idxRaw_apply]

theorem idxTab3_apply (l : Fin 8192) (k : Fin 5) : idxTab3 (ix3 l k (0 : Fin 1)) = BitVec.ofNat 32 (l.val + k.val) := by
  unfold idxTab3
  rw [broadcastInDim_apply _ bcast_S8192x5_S8192x5x1_0_1 idxTab (ix3 l k (0 : Fin 1)) (ix2 l k) (fun a => match a with
    | ⟨0, _⟩ => by show l.val = if (8192 : Nat) = 1 then 0 else l.val; rw [if_neg (by decide)]
    | ⟨1, _⟩ => by show k.val = if (5 : Nat) = 1 then 0 else k.val; rw [if_neg (by decide)])]
  exact idxTab_apply l k

/-- Read as a signed integer and clamped to the padded row, the entry is l + k. -/
theorem idxTab3_clamped (l : Fin 8192) (k : Fin 5) :
    min (idxTab3 (ix3 l k (0 : Fin 1))).toInt.toNat (8196 - 1) = l.val + k.val := by
  rw [idxTab3_apply, toInt_ofNat32_small _ (by omega)]
  omega

end Cert.ReferenceIdeal.RefValue

end
-- ==== Proof.RefReadPatches.lean ====
/-
  The windows read at an index. The gather reads, for result index (bt, l, k, f), the padded, clamped array at
  (bt, l + k, f): batch row and lane are offset coordinates, the point is the start index l + k (already inside the
  row, so the clamp leaves it). Transposed, sliced and flattened: time coordinate k of window l is `tm` at padded
  point l + k; feature 1 + 5c + k is space coordinate c of padded point l + k; feature 0 is the rescaled time.
-/
import proofs.«125665_j15917148799336_2_alg».proof.Proof.RefReadXp
import proofs.«125665_j15917148799336_2_alg».proof.Proof.RefReadIdx

noncomputable section

namespace Cert.ReferenceIdeal.RefValue

open Cert.ReferenceIdeal Cert.ReferenceIdeal.Gen Idealize.ShloMosaic Idealize.ShloMosaic.ValueIdx Cert.LorentzConv

section
variable (x : FVec Ideal S16x8192x64 .f32)

/-- The start-indices index the gather reads for result index (bt, l, k, f). -/
theorem gather_siIdx (bt : Fin 16) (l : Fin 8192) (k : Fin 5) (f : Fin 64) :
    gather_S16x8196x64_S8192x5x1_S16x8192x5x64_03_1_n_n_1_2_16164.siIdx (ix4 bt l k f)
      ⟨List.idxOf (1 : Fin 3) gather_S16x8196x64_S8192x5x1_S16x8192x5x64_03_1_n_n_1_2_16164.startIndexMap, List.idxOf_lt_length_iff.2 (List.mem_singleton.mpr rfl)⟩
      = ix3 l k (0 : Fin 1) := by
  funext b; refine Fin.ext ?_
  match b with
  | ⟨0, _⟩ => rfl
  | ⟨1, _⟩ => rfl
  | ⟨2, _⟩ => rfl

/-- THE GATHER AT AN INDEX: window point k of window l is padded point l + k. -/
theorem patches_apply (bt : Fin 16) (l : Fin 8192) (k : Fin 5) (f : Fin 64) :
    patches x (ix4 bt l k f) = xp x (ix3 bt (⟨l.val + k.val, by omega⟩ : Fin 8196) f) := by
  unfold patches Host.gather
  refine congrArg (xp x) (funext fun a => Fin.ext ?_)
  match a with
  | ⟨0, _⟩ =>
    show gather_S16x8196x64_S8192x5x1_S16x8192x5x64_03_1_n_n_1_2_16164.start (ix4 bt l k f) idxTab3 0 + gather_S16x8196x64_S8192x5x1_S16x8192x5x64_03_1_n_n_1_2_16164.batchCoord (ix4 bt l k f) 0 + gather_S16x8196x64_S8192x5x1_S16x8192x5x64_03_1_n_n_1_2_16164.offCoord (ix4 bt l k f) 0 = bt.val
    rw [GatherDims.batchCoord_eq_zero _ _ _ List.not_mem_nil]
    unfold GatherDims.start GatherDims.offCoord
    rw [dif_neg (by decide), dif_pos (by decide)]
    show 0 + 0 + bt.val = bt.val
    omega
  | ⟨1, _⟩ =>
    show gather_S16x8196x64_S8192x5x1_S16x8192x5x64_03_1_n_n_1_2_16164.start (ix4 bt l k f) idxTab3 1 + gather_S16x8196x64_S8192x5x1_S16x8192x5x64_03_1_n_n_1_2_16164.batchCoord (ix4 bt l k f) 1 + gather_S16x8196x64_S8192x5x1_S16x8192x5x64_03_1_n_n_1_2_16164.offCoord (ix4 bt l k f) 1 = l.val + k.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 3) ∈ gather_S16x8196x64_S8192x5x1_S16x8192x5x64_03_1_n_n_1_2_16164.startIndexMap from List.mem_singleton.mpr rfl), gather_siIdx]
    show min (idxTab3 (ix3 l k (0 : Fin 1))).toInt.toNat (8196 - 1) + 0 + 0 = l.val + k.val
    have hcl := idxTab3_clamped l k
    omega
  | ⟨2, _⟩ =>
    show gather_S16x8196x64_S8192x5x1_S16x8192x5x64_03_1_n_n_1_2_16164.start (ix4 bt l k f) idxTab3 2 + gather_S16x8196x64_S8192x5x1_S16x8192x5x64_03_1_n_n_1_2_16164.batchCoord (ix4 bt l k f) 2 + gather_S16x8196x64_S8192x5x1_S16x8192x5x64_03_1_n_n_1_2_16164.offCoord (ix4 bt l k f) 2 = f.val
    rw [GatherDims.batchCoord_eq_zero _ _ _ List.not_mem_nil]
    unfold GatherDims.start GatherDims.offCoord
    rw [dif_neg (by decide), dif_pos (by decide)]
    show 0 + 0 + f.val = f.val
    omega

theorem patchesT_apply (bt : Fin 16) (l : Fin 8192) (f : Fin 64) (k : Fin 5) :
    patchesT x (ix4 bt l f k) = xp x (ix3 bt (⟨l.val + k.val, by omega⟩ : Fin 8196) f) := by
  unfold patchesT
  rw [transpose_apply [0, 1, 3, 2] (patches x) transposes_S16x8192x5x64_S16x8192x64x5_0_1_3_2 (ix4 bt l f k) (ix4 bt l k f)
    (fun b => match b with
      | ⟨0, _⟩ => rfl
      | ⟨1, _⟩ => rfl
      | ⟨2, _⟩ => rfl
      | ⟨3, _⟩ => rfl)]
  exact patches_apply x bt l k f

/-- Time coordinate k of window l. -/
theorem pTime_apply (bt : Fin 16) (l : Fin 8192) (k : Fin 5) : pTime x (ix3 bt l k) = tm x bt (l.val + k.val) := by
  unfold pTime
  rw [shapeCast_apply (pTime4 x) shapeCasts_S16x8192x1x5_S16x8192x5 (ix3 bt l k) (ix4 bt l (0 : Fin 1) k)
    (by rewrite [Shape.rowMajor_val_four, Shape.rowMajor_val_three]
        show ((bt.val * 8192 + l.val) * 1 + 0) * 5 + k.val = (bt.val * 8192 + l.val) * 5 + k.val; omega)]
  unfold pTime4
  rw [extractStridedSlice_apply ![0, 0, 0, 0] (patchesT x) slices_S16x8192x64x5_S16x8192x1x5_0_0_0_0 (ix4 bt l (0 : Fin 1) k)
    (ix4 bt l (0 : Fin 64) k) (fun a => match a with
    | ⟨0, _⟩ => by show bt.val = 0 + bt.val; omega
    | ⟨1, _⟩ => by show l.val = 0 + l.val; omega
    | ⟨2, _⟩ => by show 0 = 0 + 0; omega
    | ⟨3, _⟩ => by show k.val = 0 + k.val; omega)]
  rw [patchesT_apply]
  exact xp_time x bt ⟨l.val + k.val, by omega⟩

/-- Space feature q = 5c + k of window l: space coordinate c of padded point l + k. -/
theorem pSpace_apply (bt : Fin 16) (l : Fin 8192) (c : Fin 63) (k : Fin 5) (q : Fin 315) (hq : q.val = c.val * 5 + k.val) :
    pSpace x (ix3 bt l q) = sp x bt (l.val + k.val) c := by
  unfold pSpace
  rw [shapeCast_apply (pSpace4 x) shapeCasts_S16x8192x63x5_S16x8192x315 (ix3 bt l q) (ix4 bt l c k)
    (by rewrite [Shape.rowMajor_val_four, Shape.rowMajor_val_three]
        show ((bt.val * 8192 + l.val) * 63 + c.val) * 5 + k.val = (bt.val * 8192 + l.val) * 315 + q.val; omega)]
  unfold pSpace4
  rw [extractStridedSlice_apply ![0, 0, 1, 0] (patchesT x) slices_S16x8192x64x5_S16x8192x63x5_0_0_1_0 (ix4 bt l c k)
    (ix4 bt l (⟨c.val + 1, by omega⟩ : Fin 64) k) (fun a => match a with
    | ⟨0, _⟩ => by show bt.val = 0 + bt.val; omega
    | ⟨1, _⟩ => by show l.val = 0 + l.val; omega
    | ⟨2, _⟩ => by show c.val + 1 = 1 + c.val; omega
    | ⟨3, _⟩ => by show k.val = 0 + k.val; omega)]
  rw [patchesT_apply]
  exact xp_space x bt ⟨l.val + k.val, by omega⟩ c _ rfl

/-- The sum of the window's squared time coordinates. -/
theorem sumTimeSq_apply (bt : Fin 16) (l : Fin 8192) :
    sumTimeSq x (ix2 bt l) = ∑ k : Fin 5, tm x bt (l.val + k.val) * tm x bt (l.val + k.val) := by
  unfold sumTimeSq
  rw [hostReduceAdd_apply, Ideal.hostReduceAdd_single reducesTo_S16x8192x5_S16x8192_d2 (by decide)]
  rw [show fzero0 (Shape.Idx.first h_S_) = 0 from Ideal.ofBits_zero_f32, zero_add]
  refine Finset.sum_congr rfl fun (k : Fin 5) _ => ?_
  refine (congrArg (pTimeSq x) (funext fun a => Fin.ext (by
    match a with
    | ⟨0, _⟩ => rfl
    | ⟨1, _⟩ => rfl
    | ⟨2, _⟩ => rfl)) : _ = pTimeSq x (ix3 bt l k)).trans ?_
  show pTime x (ix3 bt l k) * pTime x (ix3 bt l k) = _
  rw [pTime_apply]

/-- The window's rescaled time. -/
theorem trescV_apply (bt : Fin 16) (l : Fin 8192) : trescV x (ix3 bt l (0 : Fin 1)) = tresc x bt l := by
  show Ideal.sqrt (sumTimeSq3 x (ix3 bt l (0 : Fin 1)) - fourB (ix3 bt l (0 : Fin 1))) = _
  have h1 : sumTimeSq3 x (ix3 bt l (0 : Fin 1)) = sumTimeSq x (ix2 bt l) := by
    unfold sumTimeSq3
    exact broadcastInDim_apply _ bcast_S16x8192_S16x8192x1_0_1 (sumTimeSq x) (ix3 bt l (0 : Fin 1)) (ix2 bt l) (fun a => match a with
      | ⟨0, _⟩ => by show bt.val = if (16 : Nat) = 1 then 0 else bt.val; rw [if_neg (by decide)]
      | ⟨1, _⟩ => by show l.val = if (8192 : Nat) = 1 then 0 else l.val; rw [if_neg (by decide)])
  have h2 : fourB (ix3 bt l (0 : Fin 1)) = ((4 : ℝ) : EReal) := by
    unfold fourB
    rw [broadcastInDim_scalar_apply]
    exact ofBits_four
  rw [h1, h2, sumTimeSq_apply]
  rfl

/-- The linear layer's input features: the rescaled time first. -/
theorem feats_zero (bt : Fin 16) (l : Fin 8192) : feats x (ix3 bt l (0 : Fin 316)) = tresc x bt l := by
  unfold feats
  refine (concatenate_pair_apply_left _ (trescV x) (pSpace x)
    concatenates_S16x8192x1_S16x8192x315_S16x8192x316_d2 (ix3 bt l (0 : Fin 316)) rfl (ix3 bt l (0 : Fin 1))
    (fun b => match b with
      | ⟨0, _⟩ => rfl
      | ⟨1, _⟩ => rfl
      | ⟨2, _⟩ => rfl)).trans ?_
  exact trescV_apply x bt l

/-- Then the space coordinates: feature 1 + 5c + k. -/
theorem feats_succ (bt : Fin 16) (l : Fin 8192) (c : Fin 63) (k : Fin 5) (f : Fin 316) (hf : f.val = 1 + c.val * 5 + k.val) :
    feats x (ix3 bt l f) = sp x bt (l.val + k.val) c := by
  unfold feats
  refine (concatenate_pair_apply_right _ (trescV x) (pSpace x)
    concatenates_S16x8192x1_S16x8192x315_S16x8192x316_d2 (ix3 bt l f) rfl rfl
    (ix3 bt l (⟨c.val * 5 + k.val, by omega⟩ : Fin 315))
    (fun b hb => match b, hb with
      | ⟨0, _⟩, _ => rfl
      | ⟨1, _⟩, _ => rfl
      | ⟨2, _⟩, hb => absurd rfl hb)
    (by show c.val * 5 + k.val + 1 = f.val; omega)).trans ?_
  exact pSpace_apply x bt l c k _ rfl

end

end Cert.ReferenceIdeal.RefValue

end
-- ==== Proof.RefReadLin.lean ====
/-
  The linear layer and the recomputed time read at an index. The dot_general contracts the 316 features against the
  weight row of the output; the bias is broadcast along batch row and position; the space part is outputs 1 … 63, and
  the time is the square root of the sum of their squares plus one.
-/
import proofs.«125665_j15917148799336_2_alg».proof.Proof.RefReadPatches

noncomputable section

namespace Cert.ReferenceIdeal.RefValue

open Cert.ReferenceIdeal Cert.ReferenceIdeal.Gen Idealize.ShloMosaic Idealize.ShloMosaic.ValueIdx Cert.LorentzConv

/-- The dot_general's operand indices, coordinate by coordinate. -/
theorem lin_lhs0 (i : S16x8192x64.Idx) (q : dot_S16x8192x316_S64x316_S16x8192x64_2_1_01_0_n_n.contr.Idx) : (dot_S16x8192x316_S64x316_S16x8192x64_2_1_01_0_n_n.lhsIdx i q 0).val = (i 0).val := by
  unfold DotDims.lhsIdx
  rw [dif_neg (show ¬(0 : Fin S16x8192x316.rank) ∈ dot_S16x8192x316_S64x316_S16x8192x64_2_1_01_0_n_n.lhsBatch by decide), dif_pos (show (0 : Fin S16x8192x316.rank) ∈ dot_S16x8192x316_S64x316_S16x8192x64_2_1_01_0_n_n.lhsNonContracting by decide)]
  rfl
theorem lin_lhs1 (i : S16x8192x64.Idx) (q : dot_S16x8192x316_S64x316_S16x8192x64_2_1_01_0_n_n.contr.Idx) : (dot_S16x8192x316_S64x316_S16x8192x64_2_1_01_0_n_n.lhsIdx i q 1).val = (i 1).val := by
  unfold DotDims.lhsIdx
  rw [dif_neg (show ¬(1 : Fin S16x8192x316.rank) ∈ dot_S16x8192x316_S64x316_S16x8192x64_2_1_01_0_n_n.lhsBatch by decide), dif_pos (show (1 : Fin S16x8192x316.rank) ∈ dot_S16x8192x316_S64x316_S16x8192x64_2_1_01_0_n_n.lhsNonContracting by decide)]
  rfl
theorem lin_lhs2 (i : S16x8192x64.Idx) (q : dot_S16x8192x316_S64x316_S16x8192x64_2_1_01_0_n_n.contr.Idx) : (dot_S16x8192x316_S64x316_S16x8192x64_2_1_01_0_n_n.lhsIdx i q 2).val = (q ⟨0, by decide⟩).val :=
  dot_S16x8192x316_S64x316_S16x8192x64_2_1_01_0_n_n.lhsIdx_val_of_single rfl i q
theorem lin_rhs0 (i : S16x8192x64.Idx) (q : dot_S16x8192x316_S64x316_S16x8192x64_2_1_01_0_n_n.contr.Idx) : (dot_S16x8192x316_S64x316_S16x8192x64_2_1_01_0_n_n.rhsIdx i q 0).val = (i 2).val := by
  unfold DotDims.rhsIdx
  rw [dif_neg (show ¬(0 : Fin S64x316.rank) ∈ dot_S16x8192x316_S64x316_S16x8192x64_2_1_01_0_n_n.rhsBatch by decide), dif_pos (show (0 : Fin S64x316.rank) ∈ dot_S16x8192x316_S64x316_S16x8192x64_2_1_01_0_n_n.rhsNonContracting by decide)]
  rfl
theorem lin_rhs1 (i : S16x8192x64.Idx) (q : dot_S16x8192x316_S64x316_S16x8192x64_2_1_01_0_n_n.contr.Idx) : (dot_S16x8192x316_S64x316_S16x8192x64_2_1_01_0_n_n.rhsIdx i q 1).val = (q ⟨0, by decide⟩).val :=
  dot_S16x8192x316_S64x316_S16x8192x64_2_1_01_0_n_n.rhsIdx_val_of_single rfl i q

section
variable (x : FVec Ideal S16x8192x64 .f32) (W : FVec Ideal S64x316 .f32) (b : FVec Ideal S64 .f32)

/-- The contraction at an output index: the features of the position against the output's weight row. -/
theorem lin_apply (bt : Fin 16) (l : Fin 8192) (o : Fin 64) :
    lin x W (ix3 bt l o) = ∑ f : Fin 316, feats x (ix3 bt l f) * W (ix2 o f) := by
  unfold lin
  generalize feats x = y0
  simp only [Host.dotGeneral]
  rw [Ideal.dotGeneral_apply, ← Equiv.sum_comp (ValueIdx.contrEquiv1 dot_S16x8192x316_S64x316_S16x8192x64_2_1_01_0_n_n 316 rfl rfl).symm]
  refine Finset.sum_congr rfl fun f _ => ?_
  have hk := ValueIdx.contrEquiv1_symm_val dot_S16x8192x316_S64x316_S16x8192x64_2_1_01_0_n_n 316 rfl rfl f
  have el : dot_S16x8192x316_S64x316_S16x8192x64_2_1_01_0_n_n.lhsIdx (ix3 bt l o) ((ValueIdx.contrEquiv1 dot_S16x8192x316_S64x316_S16x8192x64_2_1_01_0_n_n 316 rfl rfl).symm f) = ix3 bt l f := funext fun a => Fin.ext (by
    match a with
    | ⟨0, _⟩ => exact lin_lhs0 _ _
    | ⟨1, _⟩ => exact lin_lhs1 _ _
    | ⟨2, _⟩ => exact (lin_lhs2 _ _).trans hk)
  have er : dot_S16x8192x316_S64x316_S16x8192x64_2_1_01_0_n_n.rhsIdx (ix3 bt l o) ((ValueIdx.contrEquiv1 dot_S16x8192x316_S64x316_S16x8192x64_2_1_01_0_n_n 316 rfl rfl).symm f) = ix2 o f := funext fun a => Fin.ext (by
    match a with
    | ⟨0, _⟩ => exact lin_rhs0 _ _
    | ⟨1, _⟩ => exact (lin_rhs1 _ _).trans hk)
  rw [el, er]

theorem biasB_apply (bt : Fin 16) (l : Fin 8192) (o : Fin 64) : biasB b (ix3 bt l o) = b (ix1 o) := by
  unfold biasB
  rw [broadcastInDim_apply _ bcast_S1x1x64_S16x8192x64_0_1_2 (bias3 b) (ix3 bt l o) (ix3 (0 : Fin 1) (0 : Fin 1) o) (fun a => match a with
    | ⟨0, _⟩ => by show 0 = if (1 : Nat) = 1 then 0 else bt.val; rw [if_pos rfl]
    | ⟨1, _⟩ => by show 0 = if (1 : Nat) = 1 then 0 else l.val; rw [if_pos rfl]
    | ⟨2, _⟩ => by show o.val = if (64 : Nat) = 1 then 0 else o.val; rw [if_neg (by decide)])]
  unfold bias3
  exact broadcastInDim_apply _ bcast_S64_S1x1x64_2 b (ix3 (0 : Fin 1) (0 : Fin 1) o) (ix1 o) (fun a => match a with
    | ⟨0, _⟩ => by show o.val = if (64 : Nat) = 1 then 0 else o.val; rw [if_neg (by decide)])

/-- A sum over the 316 features: feature 0, then the other 315. -/
theorem sum_fin316 (g : Fin 316 → EReal) :
    ∑ f : Fin 316, g f = g (⟨0, by decide⟩ : Fin 316) + ∑ q : Fin 315, g (⟨q.val + 1, by omega⟩ : Fin 316) := by
  rw [Fin.sum_univ_succ]
  rfl

/-- A sum over the 315 space features, regrouped: window point by window point, the 63 space coordinates of each
    (feature q = 5c + k). -/
theorem sum_fin315 (g : Fin 315 → EReal) :
    ∑ q : Fin 315, g q = ∑ k : Fin 5, ∑ c : Fin 63, g (⟨c.val * 5 + k.val, by omega⟩ : Fin 315) := by
  rw [← Equiv.sum_comp (finProdFinEquiv : Fin 63 × Fin 5 ≃ Fin 315) g, Fintype.sum_prod_type, Finset.sum_comm]
  refine Finset.sum_congr rfl fun k _ => Finset.sum_congr rfl fun c _ => ?_
  refine congrArg g (Fin.ext ?_)
  have hv : ((finProdFinEquiv (c, k) : Fin (63 * 5)) : ℕ) = k.val + 5 * c.val := finProdFinEquiv_apply_val (c, k)
  show ((finProdFinEquiv (c, k) : Fin (63 * 5)) : ℕ) = c.val * 5 + k.val
  omega

/-- The features' sum regrouped: feature 0, then space coordinate by space coordinate within each window point. -/
theorem lin_split (bt : Fin 16) (l : Fin 8192) (o : Fin 64) :
    lin x W (ix3 bt l o)
      = tresc x bt l * W (ix2 o (⟨0, by decide⟩ : Fin 316))
        + ∑ k : Fin 5, ∑ c : Fin 63, sp x bt (l.val + k.val) c * W (ix2 o (⟨1 + c.val * 5 + k.val, by omega⟩ : Fin 316)) := by
  rw [lin_apply, sum_fin316, sum_fin315]
  have h0 : feats x (ix3 bt l (⟨0, by decide⟩ : Fin 316)) = tresc x bt l := feats_zero x bt l
  rw [h0]
  refine congrArg (fun z : EReal => tresc x bt l * W (ix2 o (⟨0, by decide⟩ : Fin 316)) + z) ?_
  refine Finset.sum_congr rfl fun k _ => Finset.sum_congr rfl fun c _ => ?_
  show feats x (ix3 bt l (⟨c.val * 5 + k.val + 1, by omega⟩ : Fin 316)) * W (ix2 o (⟨c.val * 5 + k.val + 1, by omega⟩ : Fin 316)) = _
  rw [feats_succ x bt l c k _ (by show c.val * 5 + k.val + 1 = 1 + c.val * 5 + k.val; omega)]
  exact congrArg (fun f : Fin 316 => sp x bt (l.val + k.val) c * W (ix2 o f)) (Fin.ext (by show c.val * 5 + k.val + 1 = 1 + c.val * 5 + k.val; omega))

/-- The linear layer's output is the specification's. -/
theorem y_apply (bt : Fin 16) (l : Fin 8192) (o : Fin 64) : y x W b (ix3 bt l o) = ypre x W b bt l o := by
  show lin x W (ix3 bt l o) + biasB b (ix3 bt l o) = _
  rw [lin_split, biasB_apply]
  unfold ypre
  rw [add_comm (tresc x bt l * W (ix2 o (⟨0, by decide⟩ : Fin 316)))]
  rfl

theorem ySpace_apply (bt : Fin 16) (l : Fin 8192) (c : Fin 63) :
    ySpace x W b (ix3 bt l c) = ypre x W b bt l (⟨c.val + 1, by omega⟩ : Fin 64) := by
  unfold ySpace
  rw [extractStridedSlice_apply ![0, 0, 1] (y x W b) slices_S16x8192x64_S16x8192x63_0_0_1 (ix3 bt l c)
    (ix3 bt l (⟨c.val + 1, by omega⟩ : Fin 64)) (fun a => match a with
    | ⟨0, _⟩ => by show bt.val = 0 + bt.val; omega
    | ⟨1, _⟩ => by show l.val = 0 + l.val; omega
    | ⟨2, _⟩ => by show c.val + 1 = 1 + c.val; omega)]
  exact y_apply x W b bt l _

theorem sumSpaceSq_apply (bt : Fin 16) (l : Fin 8192) :
    sumSpaceSq x W b (ix2 bt l)
      = ∑ c : Fin 63, ypre x W b bt l (⟨c.val + 1, by omega⟩ : Fin 64) * ypre x W b bt l (⟨c.val + 1, by omega⟩ : Fin 64) := by
  unfold sumSpaceSq
  rw [hostReduceAdd_apply, Ideal.hostReduceAdd_single reducesTo_S16x8192x63_S16x8192_d2 (by decide)]
  rw [show fzero1 (Shape.Idx.first h_S_) = 0 from Ideal.ofBits_zero_f32, zero_add]
  refine Finset.sum_congr rfl fun (c : Fin 63) _ => ?_
  refine (congrArg (ySpaceSq x W b) (funext fun a => Fin.ext (by
    match a with
    | ⟨0, _⟩ => rfl
    | ⟨1, _⟩ => rfl
    | ⟨2, _⟩ => rfl)) : _ = ySpaceSq x W b (ix3 bt l c)).trans ?_
  show ySpace x W b (ix3 bt l c) * ySpace x W b (ix3 bt l c) = _
  rw [ySpace_apply]

/-- The recomputed time coordinate. -/
theorem yTime_apply (bt : Fin 16) (l : Fin 8192) : yTime x W b (ix3 bt l (0 : Fin 1)) = ytime x W b bt l := by
  show Ideal.sqrt (sumSpaceSq3 x W b (ix3 bt l (0 : Fin 1)) + oneB (ix3 bt l (0 : Fin 1))) = _
  have h1 : sumSpaceSq3 x W b (ix3 bt l (0 : Fin 1)) = sumSpaceSq x W b (ix2 bt l) := by
    unfold sumSpaceSq3
    exact broadcastInDim_apply _ bcast_S16x8192_S16x8192x1_0_1 (sumSpaceSq x W b) (ix3 bt l (0 : Fin 1)) (ix2 bt l) (fun a => match a with
      | ⟨0, _⟩ => by show bt.val = if (16 : Nat) = 1 then 0 else bt.val; rw [if_neg (by decide)]
      | ⟨1, _⟩ => by show l.val = if (8192 : Nat) = 1 then 0 else l.val; rw [if_neg (by decide)])
  have h2 : oneB (ix3 bt l (0 : Fin 1)) = 1 := by
    unfold oneB
    rw [broadcastInDim_scalar_apply]
    exact ofBits_one
  rw [h1, h2, sumSpaceSq_apply]
  rfl

/-- The result: the recomputed time at output 0, the linear layer's output elsewhere. -/
theorem refOut_zero (bt : Fin 16) (l : Fin 8192) : refOut x W b (ix3 bt l (0 : Fin 64)) = ytime x W b bt l := by
  unfold refOut
  refine (concatenate_pair_apply_left _ (yTime x W b) (ySpace x W b)
    concatenates_S16x8192x1_S16x8192x63_S16x8192x64_d2 (ix3 bt l (0 : Fin 64)) rfl (ix3 bt l (0 : Fin 1))
    (fun a => match a with
      | ⟨0, _⟩ => rfl
      | ⟨1, _⟩ => rfl
      | ⟨2, _⟩ => rfl)).trans ?_
  exact yTime_apply x W b bt l

theorem refOut_pos (bt : Fin 16) (l : Fin 8192) (o : Fin 64) (ho : o.val ≠ 0) :
    refOut x W b (ix3 bt l o) = ypre x W b bt l o := by
  unfold refOut
  refine (concatenate_pair_apply_right _ (yTime x W b) (ySpace x W b)
    concatenates_S16x8192x1_S16x8192x63_S16x8192x64_d2 (ix3 bt l o) rfl rfl
    (ix3 bt l (⟨o.val - 1, by omega⟩ : Fin 63))
    (fun a ha => match a, ha with
      | ⟨0, _⟩, _ => rfl
      | ⟨1, _⟩, _ => rfl
      | ⟨2, _⟩, ha => absurd rfl ha)
    (by show o.val - 1 + 1 = o.val; omega)).trans ?_
  rw [ySpace_apply]
  exact congrArg (ypre x W b bt l) (Fin.ext (by show o.val - 1 + 1 = o.val; omega))

end

/-- THE REFERENCE IS THE SPECIFICATION, index by index. -/
theorem refOut_eq (x : FVec Ideal S16x8192x64 .f32) (W : FVec Ideal S64x316 .f32) (b : FVec Ideal S64 .f32) :
    refOut x W b = Cert.LorentzConv.out x W b := by
  funext i
  obtain ⟨bt, l, o, rfl⟩ : ∃ (bt : Fin 16) (l : Fin 8192) (o : Fin 64), i = ix3 bt l o := ⟨i 0, i 1, i 2, eq_ix3 i⟩
  show refOut x W b (ix3 bt l o) = if o.val = 0 then ytime x W b bt l else ypre x W b bt l o
  by_cases ho : o.val = 0
  · obtain rfl : o = 0 := Fin.ext ho
    rw [if_pos ho]
    exact refOut_zero x W b bt l
  · rw [if_neg ho]
    exact refOut_pos x W b bt l o ho

end Cert.ReferenceIdeal.RefValue

end
-- ==== Proof.lean ====
/-
  The certificate of the Lorentz convolution kernel against its jnp reference, over the extended reals.

  Both programs compute, for every batch row and output position, the same function of the three argument arrays
  (the specification of Proof/Spec.lean): the five padded points of the window go through the linear layer (the
  rescaled time against weight column 0, the window's 63·5 space coordinates against their weights, the bias), and the
  output point keeps lanes 1 … 63 and recomputes lane 0 as sqrt(Σ y_c² + 1). The kernel reaches it block by block —
  a bulk pass over rows rotated by ±1, ±2 whose four wrapped rows are overwritten by two small explicitly padded
  computations (Proof/KBulk, KTop, KBot, KPieces, KBlock, KValue) — the reference by padding, gathering the windows
  and one dot_general over all 316 features (Proof/RefStages … RefReadLin). The two meet by reordering one finite
  sum of extended reals, which needs no finiteness: the precondition is never opened.
  The three frames: the two kernels' from their frame certificates, the reference's from its run. The idealization
  rewrote nothing, so `preserves` is `True`.
-/
import proofs.«125665_j15917148799336_2_alg».proof.Defs
import proofs.«125665_j15917148799336_2_alg».proof.Proof.Gen.Kernel
import proofs.«125665_j15917148799336_2_alg».proof.Proof.Gen.KernelIdeal
import proofs.«125665_j15917148799336_2_alg».proof.Proof.Gen.ReferenceIdeal
import proofs.«125665_j15917148799336_2_alg».proof.Proof.Gen.Pre_finite_inputs
import proofs.«125665_j15917148799336_2_alg».proof.Proof.KernelFrameP
import proofs.«125665_j15917148799336_2_alg».proof.Proof.KernelIdealFrameP
import proofs.«125665_j15917148799336_2_alg».proof.Proof.KValue
import proofs.«125665_j15917148799336_2_alg».proof.Proof.RefRun
import proofs.«125665_j15917148799336_2_alg».proof.Proof.RefReadLin
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both runs end with the specification's function of the (agreeing) argument arrays. -/
theorem algebraic : Cert.algebraic_KernelIdeal_ReferenceIdeal := by
  intro m ρ m' ρ' _ hagree
  refine ⟨fun c => Cert.KernelIdeal.KV.G m c, Cert.KernelIdeal.KV.run m ρ, ?_⟩
  refine (θ_run Cert.ReferenceIdeal.defs _ _).mono (fun _ h c => ⟨(h c).1.trans ?_, (h c).2⟩)
    (Cert.ReferenceIdeal.RefValue.run m' ρ')
  rw [Cert.ReferenceIdeal.RefValue.refOut_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
